-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v193)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v193) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x3x256x256 : Shape := ⟨4, ![2, 3, 256, 256]⟩
abbrev S2x3x256 : Shape := ⟨3, ![2, 3, 256]⟩
abbrev S256x349 : Shape := ⟨2, ![256, 349]⟩
abbrev S349 : Shape := ⟨1, ![349]⟩
abbrev S2x3x2x250000 : Shape := ⟨4, ![2, 3, 2, 250000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S2x3x256x256 : S_.BroadcastsInDim S2x3x256x256 (![] : Fin 0 → Fin S2x3x256x256.rank)
  reducesTo_S2x3x256x256_S_d0_1_2_3 : S2x3x256x256.ReducesTo [0, 1, 2, 3] S_
  bcast_S_S2x3x256 : S_.BroadcastsInDim S2x3x256 (![] : Fin 0 → Fin S2x3x256.rank)
  reducesTo_S2x3x256_S_d0_1_2 : S2x3x256.ReducesTo [0, 1, 2] S_
  bcast_S_S256x349 : S_.BroadcastsInDim S256x349 (![] : Fin 0 → Fin S256x349.rank)
  reducesTo_S256x349_S_d0_1 : S256x349.ReducesTo [0, 1] S_
  bcast_S_S349 : S_.BroadcastsInDim S349 (![] : Fin 0 → Fin S349.rank)
  reducesTo_S349_S_d0 : S349.ReducesTo [0] S_

variable [Facts]

def fn_part1 {F : FTy → Type} [FloatOps F] (main_arg4 : FVec F S349 .f32) (main_v13 : IVec S_ 1) (main_v16 : IVec S256x349 1) : IVec S_ 1 :=
  let main_c_5 : IVec S_ 1 := constantI S_ 1 1#1
  let main_v17 : IVec S_ 1 := (fun x v => Host.reduce IntOp.andi x v reducesTo_S256x349_S_d0_1 h_S_) main_v16 main_c_5
  let main_v18 : IVec S_ 1 := andi main_v13 main_v17
  let main_v19 : FVec F S349 .f32 := Host.absf main_arg4
  let main_cst_6 : FVec F S_ .f32 := constant S_ .f32 0x7F800000#32
  let main_v20 : FVec F S349 .f32 := broadcastInDim S349 ![] bcast_S_S349 main_cst_6
  let main_v21 : IVec S349 1 := cmpf .olt main_v19 main_v20
  let main_c_7 : IVec S_ 1 := constantI S_ 1 1#1
  let main_v22 : IVec S_ 1 := (fun x v => Host.reduce IntOp.andi x v reducesTo_S349_S_d0 h_S_) main_v21 main_c_7
  let main_v23 : IVec S_ 1 := andi main_v18 main_v22
  main_v23

def fn {F : FTy → Type} [FloatOps F] (main_arg0 : FVec F S50000x256 .f32) (main_arg1 : FVec F S2x3x256x256 .f32) (main_arg2 : FVec F S2x3x256 .f32) (main_arg3 : FVec F S256x349 .f32) (main_arg4 : FVec F S349 .f32) (main_arg5 : IVec S2x3x2x250000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S2x3x256x256 .f32 := Host.absf main_arg1
  let main_cst_0 : FVec F S_ .f32 := constant S_ .f32 0x7F800000#32
  let main_v5 : FVec F S2x3x256x256 .f32 := broadcastInDim S2x3x256x256 ![] bcast_S_S2x3x256x256 main_cst_0
  let main_v6 : IVec S2x3x256x256 1 := cmpf .olt main_v4 main_v5
  let main_c_1 : IVec S_ 1 := constantI S_ 1 1#1
  let main_v7 : IVec S_ 1 := (fun x v => Host.reduce IntOp.andi x v reducesTo_S2x3x256x256_S_d0_1_2_3 h_S_) main_v6 main_c_1
  let main_v8 : IVec S_ 1 := andi main_v3 main_v7
  let main_v9 : FVec F S2x3x256 .f32 := Host.absf main_arg2
  let main_cst_2 : FVec F S_ .f32 := constant S_ .f32 0x7F800000#32
  let main_v10 : FVec F S2x3x256 .f32 := broadcastInDim S2x3x256 ![] bcast_S_S2x3x256 main_cst_2
  let main_v11 : IVec S2x3x256 1 := cmpf .olt main_v9 main_v10
  let main_c_3 : IVec S_ 1 := constantI S_ 1 1#1
  let main_v12 : IVec S_ 1 := (fun x v => Host.reduce IntOp.andi x v reducesTo_S2x3x256_S_d0_1_2 h_S_) main_v11 main_c_3
  let main_v13 : IVec S_ 1 := andi main_v8 main_v12
  let main_v14 : FVec F S256x349 .f32 := Host.absf main_arg3
  let main_cst_4 : FVec F S_ .f32 := constant S_ .f32 0x7F800000#32
  let main_v15 : FVec F S256x349 .f32 := broadcastInDim S256x349 ![] bcast_S_S256x349 main_cst_4
  let main_v16 : IVec S256x349 1 := cmpf .olt main_v14 main_v15
  fn_part1 (F := F) main_arg4 main_v13 main_v16
-- ==== Kernel.lean ====
abbrev S50000x256 : Shape := ⟨2, ![50000, 256]⟩
abbrev S2x3x256x256 : Shape := ⟨4, ![2, 3, 256, 256]⟩
abbrev S2x3x256 : Shape := ⟨3, ![2, 3, 256]⟩
abbrev S256x349 : Shape := ⟨2, ![256, 349]⟩
abbrev S349 : Shape := ⟨1, ![349]⟩
abbrev S2x3x2x250000 : Shape := ⟨4, ![2, 3, 2, 250000]⟩
abbrev S_ : Shape := ⟨0, ![]⟩
abbrev S256x384 : Shape := ⟨2, ![256, 384]⟩
abbrev S1 : Shape := ⟨1, ![1]⟩
abbrev S384 : Shape := ⟨1, ![384]⟩
abbrev S1x1x1x250000 : Shape := ⟨4, ![1, 1, 1, 250000]⟩
abbrev S250000 : Shape := ⟨1, ![250000]⟩
abbrev S50000 : Shape := ⟨1, ![50000]⟩
abbrev S250000x1 : Shape := ⟨2, ![250000, 1]⟩
abbrev S50000x1 : Shape := ⟨2, ![50000, 1]⟩
abbrev S250000x256 : Shape := ⟨2, ![250000, 256]⟩
abbrev S50000x3 : Shape := ⟨2, ![50000, 3]⟩
abbrev S1x3x256x256 : Shape := ⟨4, ![1, 3, 256, 256]⟩
abbrev S3x256x256 : Shape := ⟨3, ![3, 256, 256]⟩
abbrev S1x3x256 : Shape := ⟨3, ![1, 3, 256]⟩
abbrev S3x256 : Shape := ⟨2, ![3, 256]⟩
abbrev S2000x256 : Shape := ⟨2, ![2000, 256]⟩
abbrev S2000x3 : Shape := ⟨2, ![2000, 3]⟩
abbrev S2000x1 : Shape := ⟨2, ![2000, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x384 : Shape := ⟨2, ![1, 384]⟩
abbrev S50000x384 : Shape := ⟨2, ![50000, 384]⟩
abbrev S2000x384 : Shape := ⟨2, ![2000, 384]⟩
abbrev S50000x349 : Shape := ⟨2, ![50000, 349]⟩

abbrev nBuf : Space → Nat
  | .hbm => 276
  | .vmem => 26
  | .smem => 0
  | _ => 0

abbrev hbmTy0_0 (i : Nat) : BufTy := match i % 128 with
  | 0 => ⟨S50000x256, .f32⟩
  | 1 => ⟨S2x3x256x256, .f32⟩
  | 2 => ⟨S2x3x256, .f32⟩
  | 3 => ⟨S256x349, .f32⟩
  | 4 => ⟨S349, .f32⟩
  | 5 => ⟨S2x3x2x250000, .i32⟩
  | 6 => ⟨S_, .f32⟩
  | 7 => ⟨S256x384, .f32⟩
  | 8 => ⟨S_, .i32⟩
  | 9 => ⟨S1, .i32⟩
  | 10 => ⟨S256x384, .f32⟩
  | 11 => ⟨S_, .f32⟩
  | 12 => ⟨S384, .f32⟩
  | 13 => ⟨S_, .i32⟩
  | 14 => ⟨S1, .i32⟩
  | 15 => ⟨S384, .f32⟩
  | 16 => ⟨S1x1x1x250000, .i32⟩
  | 17 => ⟨S250000, .i32⟩
  | 18 => ⟨S1x1x1x250000, .i32⟩
  | 19 => ⟨S250000, .i32⟩
  | 20 => ⟨S_, .f32⟩
  | 21 => ⟨S250000, .f32⟩
  | 22 => ⟨S_, .f32⟩
  | 23 => ⟨S50000, .f32⟩
  | 24 => ⟨S250000x1, .i32⟩
  | 25 => ⟨S50000, .f32⟩
  | 26 => ⟨S_, .f32⟩
  | 27 => ⟨S_, .f32⟩
  | 28 => ⟨S50000, .f32⟩
  | 29 => ⟨S50000, .f32⟩
  | 30 => ⟨S_, .f32⟩
  | 31 => ⟨S50000, .f32⟩
  | 32 => ⟨S250000x1, .i32⟩
  | 33 => ⟨S50000, .f32⟩
  | 34 => ⟨S_, .f32⟩
  | 35 => ⟨S_, .f32⟩
  | 36 => ⟨S50000, .f32⟩
  | 37 => ⟨S50000, .f32⟩
  | 38 => ⟨S50000, .f32⟩
  | 39 => ⟨S50000x1, .f32⟩
  | 40 => ⟨S50000x256, .f32⟩
  | 41 => ⟨S50000x256, .f32⟩
  | 42 => ⟨S_, .i32⟩
  | 43 => ⟨S250000, .i32⟩
  | 44 => ⟨S250000, .i1⟩
  | 45 => ⟨S_, .i32⟩
  | 46 => ⟨S250000, .i32⟩
  | 47 => ⟨S250000, .i32⟩
  | 48 => ⟨S250000, .i32⟩
  | 49 => ⟨S250000x1, .i32⟩
  | 50 => ⟨S250000x256, .f32⟩
  | 51 => ⟨S_, .f32⟩
  | 52 => ⟨S50000x256, .f32⟩
  | 53 => ⟨S250000x1, .i32⟩
  | 54 => ⟨S50000x256, .f32⟩
  | 55 => ⟨S50000, .f32⟩
  | 56 => ⟨S1x1x1x250000, .i32⟩
  | 57 => ⟨S250000, .i32⟩
  | 58 => ⟨S1x1x1x250000, .i32⟩
  | 59 => ⟨S250000, .i32⟩
  | 60 => ⟨S_, .f32⟩
  | 61 => ⟨S250000, .f32⟩
  | 62 => ⟨S_, .f32⟩
  | 63 => ⟨S50000, .f32⟩
  | 64 => ⟨S250000x1, .i32⟩
  | 65 => ⟨S50000, .f32⟩
  | 66 => ⟨S_, .f32⟩
  | 67 => ⟨S_, .f32⟩
  | 68 => ⟨S50000, .f32⟩
  | 69 => ⟨S50000, .f32⟩
  | 70 => ⟨S_, .f32⟩
  | 71 => ⟨S50000, .f32⟩
  | 72 => ⟨S250000x1, .i32⟩
  | 73 => ⟨S50000, .f32⟩
  | 74 => ⟨S_, .f32⟩
  | 75 => ⟨S_, .f32⟩
  | 76 => ⟨S50000, .f32⟩
  | 77 => ⟨S50000, .f32⟩
  | 78 => ⟨S50000, .f32⟩
  | 79 => ⟨S50000x1, .f32⟩
  | 80 => ⟨S50000x256, .f32⟩
  | 81 => ⟨S50000x256, .f32⟩
  | 82 => ⟨S_, .i32⟩
  | 83 => ⟨S250000, .i32⟩
  | 84 => ⟨S250000, .i1⟩
  | 85 => ⟨S_, .i32⟩
  | 86 => ⟨S250000, .i32⟩
  | 87 => ⟨S250000, .i32⟩
  | 88 => ⟨S250000, .i32⟩
  | 89 => ⟨S250000x1, .i32⟩
  | 90 => ⟨S250000x256, .f32⟩
  | 91 => ⟨S_, .f32⟩
  | 92 => ⟨S50000x256, .f32⟩
  | 93 => ⟨S250000x1, .i32⟩
  | 94 => ⟨S50000x256, .f32⟩
  | 95 => ⟨S50000, .f32⟩
  | 96 => ⟨S1x1x1x250000, .i32⟩
  | 97 => ⟨S250000, .i32⟩
  | 98 => ⟨S1x1x1x250000, .i32⟩
  | 99 => ⟨S250000, .i32⟩
  | 100 => ⟨S_, .f32⟩
  | 101 => ⟨S250000, .f32⟩
  | 102 => ⟨S_, .f32⟩
  | 103 => ⟨S50000, .f32⟩
  | 104 => ⟨S250000x1, .i32⟩
  | 105 => ⟨S50000, .f32⟩
  | 106 => ⟨S_, .f32⟩
  | 107 => ⟨S_, .f32⟩
  | 108 => ⟨S50000, .f32⟩
  | 109 => ⟨S50000, .f32⟩
  | 110 => ⟨S_, .f32⟩
  | 111 => ⟨S50000, .f32⟩
  | 112 => ⟨S250000x1, .i32⟩
  | 113 => ⟨S50000, .f32⟩
  | 114 => ⟨S_, .f32⟩
  | 115 => ⟨S_, .f32⟩
  | 116 => ⟨S50000, .f32⟩
  | 117 => ⟨S50000, .f32⟩
  | 118 => ⟨S50000, .f32⟩
  | 119 => ⟨S50000x1, .f32⟩
  | 120 => ⟨S50000x256, .f32⟩
  | 121 => ⟨S50000x256, .f32⟩
  | 122 => ⟨S_, .i32⟩
  | 123 => ⟨S250000, .i32⟩
  | 124 => ⟨S250000, .i1⟩
  | 125 => ⟨S_, .i32⟩
  | 126 => ⟨S250000, .i32⟩
  | 127 => ⟨S250000, .i32⟩
  | _ => ⟨S50000x256, .f32⟩

abbrev hbmTy0_1 (i : Nat) : BufTy := match i % 128 with
  | 0 => ⟨S250000, .i32⟩
  | 1 => ⟨S250000x1, .i32⟩
  | 2 => ⟨S250000x256, .f32⟩
  | 3 => ⟨S_, .f32⟩
  | 4 => ⟨S50000x256, .f32⟩
  | 5 => ⟨S250000x1, .i32⟩
  | 6 => ⟨S50000x256, .f32⟩
  | 7 => ⟨S50000, .f32⟩
  | 8 => ⟨S50000x1, .f32⟩
  | 9 => ⟨S50000x1, .f32⟩
  | 10 => ⟨S50000x1, .f32⟩
  | 11 => ⟨S50000x3, .f32⟩
  | 12 => ⟨S1x3x256x256, .f32⟩
  | 13 => ⟨S3x256x256, .f32⟩
  | 14 => ⟨S1x3x256, .f32⟩
  | 15 => ⟨S3x256, .f32⟩
  | 16 => ⟨S50000x256, .f32⟩
  | 17 => ⟨S1x1x1x250000, .i32⟩
  | 18 => ⟨S250000, .i32⟩
  | 19 => ⟨S1x1x1x250000, .i32⟩
  | 20 => ⟨S250000, .i32⟩
  | 21 => ⟨S_, .f32⟩
  | 22 => ⟨S250000, .f32⟩
  | 23 => ⟨S_, .f32⟩
  | 24 => ⟨S50000, .f32⟩
  | 25 => ⟨S250000x1, .i32⟩
  | 26 => ⟨S50000, .f32⟩
  | 27 => ⟨S_, .f32⟩
  | 28 => ⟨S_, .f32⟩
  | 29 => ⟨S50000, .f32⟩
  | 30 => ⟨S50000, .f32⟩
  | 31 => ⟨S_, .f32⟩
  | 32 => ⟨S50000, .f32⟩
  | 33 => ⟨S250000x1, .i32⟩
  | 34 => ⟨S50000, .f32⟩
  | 35 => ⟨S_, .f32⟩
  | 36 => ⟨S_, .f32⟩
  | 37 => ⟨S50000, .f32⟩
  | 38 => ⟨S50000, .f32⟩
  | 39 => ⟨S50000, .f32⟩
  | 40 => ⟨S50000x1, .f32⟩
  | 41 => ⟨S50000x256, .f32⟩
  | 42 => ⟨S50000x256, .f32⟩
  | 43 => ⟨S_, .i32⟩
  | 44 => ⟨S250000, .i32⟩
  | 45 => ⟨S250000, .i1⟩
  | 46 => ⟨S_, .i32⟩
  | 47 => ⟨S250000, .i32⟩
  | 48 => ⟨S250000, .i32⟩
  | 49 => ⟨S250000, .i32⟩
  | 50 => ⟨S250000x1, .i32⟩
  | 51 => ⟨S250000x256, .f32⟩
  | 52 => ⟨S_, .f32⟩
  | 53 => ⟨S50000x256, .f32⟩
  | 54 => ⟨S250000x1, .i32⟩
  | 55 => ⟨S50000x256, .f32⟩
  | 56 => ⟨S50000, .f32⟩
  | 57 => ⟨S1x1x1x250000, .i32⟩
  | 58 => ⟨S250000, .i32⟩
  | 59 => ⟨S1x1x1x250000, .i32⟩
  | 60 => ⟨S250000, .i32⟩
  | 61 => ⟨S_, .f32⟩
  | 62 => ⟨S250000, .f32⟩
  | 63 => ⟨S_, .f32⟩
  | 64 => ⟨S50000, .f32⟩
  | 65 => ⟨S250000x1, .i32⟩
  | 66 => ⟨S50000, .f32⟩
  | 67 => ⟨S_, .f32⟩
  | 68 => ⟨S_, .f32⟩
  | 69 => ⟨S50000, .f32⟩
  | 70 => ⟨S50000, .f32⟩
  | 71 => ⟨S_, .f32⟩
  | 72 => ⟨S50000, .f32⟩
  | 73 => ⟨S250000x1, .i32⟩
  | 74 => ⟨S50000, .f32⟩
  | 75 => ⟨S_, .f32⟩
  | 76 => ⟨S_, .f32⟩
  | 77 => ⟨S50000, .f32⟩
  | 78 => ⟨S50000, .f32⟩
  | 79 => ⟨S50000, .f32⟩
  | 80 => ⟨S50000x1, .f32⟩
  | 81 => ⟨S50000x256, .f32⟩
  | 82 => ⟨S50000x256, .f32⟩
  | 83 => ⟨S_, .i32⟩
  | 84 => ⟨S250000, .i32⟩
  | 85 => ⟨S250000, .i1⟩
  | 86 => ⟨S_, .i32⟩
  | 87 => ⟨S250000, .i32⟩
  | 88 => ⟨S250000, .i32⟩
  | 89 => ⟨S250000, .i32⟩
  | 90 => ⟨S250000x1, .i32⟩
  | 91 => ⟨S250000x256, .f32⟩
  | 92 => ⟨S_, .f32⟩
  | 93 => ⟨S50000x256, .f32⟩
  | 94 => ⟨S250000x1, .i32⟩
  | 95 => ⟨S50000x256, .f32⟩
  | 96 => ⟨S50000, .f32⟩
  | 97 => ⟨S1x1x1x250000, .i32⟩
  | 98 => ⟨S250000, .i32⟩
  | 99 => ⟨S1x1x1x250000, .i32⟩
  | 100 => ⟨S250000, .i32⟩
  | 101 => ⟨S_, .f32⟩
  | 102 => ⟨S250000, .f32⟩
  | 103 => ⟨S_, .f32⟩
  | 104 => ⟨S50000, .f32⟩
  | 105 => ⟨S250000x1, .i32⟩
  | 106 => ⟨S50000, .f32⟩
  | 107 => ⟨S_, .f32⟩
  | 108 => ⟨S_, .f32⟩
  | 109 => ⟨S50000, .f32⟩
  | 110 => ⟨S50000, .f32⟩
  | 111 => ⟨S_, .f32⟩
  | 112 => ⟨S50000, .f32⟩
  | 113 => ⟨S250000x1, .i32⟩
  | 114 => ⟨S50000, .f32⟩
  | 115 => ⟨S_, .f32⟩
  | 116 => ⟨S_, .f32⟩
  | 117 => ⟨S50000, .f32⟩
  | 118 => ⟨S50000, .f32⟩
  | 119 => ⟨S50000, .f32⟩
  | 120 => ⟨S50000x1, .f32⟩
  | 121 => ⟨S50000x256, .f32⟩
  | 122 => ⟨S50000x256, .f32⟩
  | 123 => ⟨S_, .i32⟩
  | 124 => ⟨S250000, .i32⟩
  | 125 => ⟨S250000, .i1⟩
  | 126 => ⟨S_, .i32⟩
  | 127 => ⟨S250000, .i32⟩
  | _ => ⟨S50000x256, .f32⟩

abbrev hbmTy0_2 (i : Nat) : BufTy := match i % 128 with
  | 0 => ⟨S250000, .i32⟩
  | 1 => ⟨S250000, .i32⟩
  | 2 => ⟨S250000x1, .i32⟩
  | 3 => ⟨S250000x256, .f32⟩
  | 4 => ⟨S_, .f32⟩
  | 5 => ⟨S50000x256, .f32⟩
  | 6 => ⟨S250000x1, .i32⟩
  | 7 => ⟨S50000x256, .f32⟩
  | 8 => ⟨S50000, .f32⟩
  | 9 => ⟨S50000x1, .f32⟩
  | 10 => ⟨S50000x1, .f32⟩
  | 11 => ⟨S50000x1, .f32⟩
  | 12 => ⟨S50000x3, .f32⟩
  | 13 => ⟨S1x3x256x256, .f32⟩
  | 14 => ⟨S3x256x256, .f32⟩
  | 15 => ⟨S1x3x256, .f32⟩
  | 16 => ⟨S3x256, .f32⟩
  | 17 => ⟨S1x384, .f32⟩
  | 18 => ⟨S50000x384, .f32⟩
  | 19 => ⟨S50000x349, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x3, .f32⟩
  | .local _ .vmem, ⟨7, _⟩ => ⟨S2000x3, .f32⟩
  | .local _ .vmem, ⟨8, _⟩ => ⟨S3x256x256, .f32⟩
  | .local _ .vmem, ⟨9, _⟩ => ⟨S3x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x3, .f32⟩
  | .local _ .vmem, ⟨19, _⟩ => ⟨S2000x3, .f32⟩
  | .local _ .vmem, ⟨20, _⟩ => ⟨S3x256x256, .f32⟩
  | .local _ .vmem, ⟨21, _⟩ => ⟨S3x256, .f32⟩
  | .local _ .vmem, ⟨22, _⟩ => ⟨S256x384, .f32⟩
  | .local _ .vmem, ⟨23, _⟩ => ⟨S1x384, .f32⟩
  | .local _ .vmem, ⟨24, _⟩ => ⟨S2000x384, .f32⟩
  | .local _ .vmem, ⟨25, _⟩ => ⟨S2000x384, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_7 : Ref sig .tc := ⟨.hbm, 42, rfl⟩
abbrev main_v23 : Ref sig .tc := ⟨.hbm, 43, rfl⟩
abbrev main_v24 : Ref sig .tc := ⟨.hbm, 44, rfl⟩
abbrev main_c_8 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_12 : Ref sig .tc := ⟨.hbm, 66, rfl⟩
abbrev main_call2_v0 : Ref sig .tc := ⟨.hbm, 67, rfl⟩
abbrev main_call2_v1 : Ref sig .tc := ⟨.hbm, 68, rfl⟩
abbrev main_v42 : Ref sig .tc := ⟨.hbm, 69, rfl⟩
abbrev main_cst_13 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_14 : Ref sig .tc := ⟨.hbm, 74, rfl⟩
abbrev main_call3_v0 : Ref sig .tc := ⟨.hbm, 75, rfl⟩
abbrev main_call3_v1 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_15 : Ref sig .tc := ⟨.hbm, 82, rfl⟩
abbrev main_v51 : Ref sig .tc := ⟨.hbm, 83, rfl⟩
abbrev main_v52 : Ref sig .tc := ⟨.hbm, 84, rfl⟩
abbrev main_c_16 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_17 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_18 : Ref sig .tc := ⟨.hbm, 100, rfl⟩
abbrev main_v66 : Ref sig .tc := ⟨.hbm, 101, rfl⟩
abbrev main_cst_19 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_20 : Ref sig .tc := ⟨.hbm, 106, rfl⟩
abbrev main_call4_v0 : Ref sig .tc := ⟨.hbm, 107, rfl⟩
abbrev main_call4_v1 : Ref sig .tc := ⟨.hbm, 108, rfl⟩
abbrev main_v70 : Ref sig .tc := ⟨.hbm, 109, rfl⟩
abbrev main_cst_21 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_22 : Ref sig .tc := ⟨.hbm, 114, rfl⟩
abbrev main_call5_v0 : Ref sig .tc := ⟨.hbm, 115, rfl⟩
abbrev main_call5_v1 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_23 : Ref sig .tc := ⟨.hbm, 122, rfl⟩
abbrev main_v79 : Ref sig .tc := ⟨.hbm, 123, rfl⟩
abbrev main_v80 : Ref sig .tc := ⟨.hbm, 124, rfl⟩
abbrev main_c_24 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_25 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_26 : Ref sig .tc := ⟨.hbm, 149, rfl⟩
abbrev main_v103 : Ref sig .tc := ⟨.hbm, 150, rfl⟩
abbrev main_cst_27 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_28 : Ref sig .tc := ⟨.hbm, 155, rfl⟩
abbrev main_call6_v0 : Ref sig .tc := ⟨.hbm, 156, rfl⟩
abbrev main_call6_v1 : Ref sig .tc := ⟨.hbm, 157, rfl⟩
abbrev main_v107 : Ref sig .tc := ⟨.hbm, 158, rfl⟩
abbrev main_cst_29 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_cst_30 : Ref sig .tc := ⟨.hbm, 163, rfl⟩
abbrev main_call7_v0 : Ref sig .tc := ⟨.hbm, 164, rfl⟩
abbrev main_call7_v1 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_c_31 : Ref sig .tc := ⟨.hbm, 171, rfl⟩
abbrev main_v116 : Ref sig .tc := ⟨.hbm, 172, rfl⟩
abbrev main_v117 : Ref sig .tc := ⟨.hbm, 173, rfl⟩
abbrev main_c_32 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_33 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_cst_34 : Ref sig .tc := ⟨.hbm, 189, rfl⟩
abbrev main_v131 : Ref sig .tc := ⟨.hbm, 190, rfl⟩
abbrev main_cst_35 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_36 : Ref sig .tc := ⟨.hbm, 195, rfl⟩
abbrev main_call8_v0 : Ref sig .tc := ⟨.hbm, 196, rfl⟩
abbrev main_call8_v1 : Ref sig .tc := ⟨.hbm, 197, rfl⟩
abbrev main_v135 : Ref sig .tc := ⟨.hbm, 198, rfl⟩
abbrev main_cst_37 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_cst_38 : Ref sig .tc := ⟨.hbm, 203, rfl⟩
abbrev main_call9_v0 : Ref sig .tc := ⟨.hbm, 204, rfl⟩
abbrev main_call9_v1 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_c_39 : Ref sig .tc := ⟨.hbm, 211, rfl⟩
abbrev main_v144 : Ref sig .tc := ⟨.hbm, 212, rfl⟩
abbrev main_v145 : Ref sig .tc := ⟨.hbm, 213, rfl⟩
abbrev main_c_40 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_cst_41 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_cst_42 : Ref sig .tc := ⟨.hbm, 229, rfl⟩
abbrev main_v159 : Ref sig .tc := ⟨.hbm, 230, rfl⟩
abbrev main_cst_43 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_cst_44 : Ref sig .tc := ⟨.hbm, 235, rfl⟩
abbrev main_call10_v0 : Ref sig .tc := ⟨.hbm, 236, rfl⟩
abbrev main_call10_v1 : Ref sig .tc := ⟨.hbm, 237, rfl⟩
abbrev main_v163 : Ref sig .tc := ⟨.hbm, 238, rfl⟩
abbrev main_cst_45 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_cst_46 : Ref sig .tc := ⟨.hbm, 243, rfl⟩
abbrev main_call11_v0 : Ref sig .tc := ⟨.hbm, 244, rfl⟩
abbrev main_call11_v1 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_c_47 : Ref sig .tc := ⟨.hbm, 251, rfl⟩
abbrev main_v172 : Ref sig .tc := ⟨.hbm, 252, rfl⟩
abbrev main_v173 : Ref sig .tc := ⟨.hbm, 253, rfl⟩
abbrev main_c_48 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_cst_49 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S3x256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x384 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S256x384 : S_.BroadcastsInDim S256x384 (![] : Fin 0 → Fin S256x384.rank)
  bcast_S_S1 : S_.BroadcastsInDim S1 (![] : Fin 0 → Fin S1.rank)
  bcast_S_S384 : S_.BroadcastsInDim S384 (![] : Fin 0 → Fin S384.rank)
  slices_S2x3x2x250000_S1x1x1x250000_0_0_0_0 : S2x3x2x250000.Slices ![0, 0, 0, 0] S1x1x1x250000
  shapeCasts_S1x1x1x250000_S250000 : S1x1x1x250000.ShapeCasts S250000
  slices_S2x3x2x250000_S1x1x1x250000_0_0_1_0 : S2x3x2x250000.Slices ![0, 0, 1, 0] S1x1x1x250000
  bcast_S_S250000 : S_.BroadcastsInDim S250000 (![] : Fin 0 → Fin S250000.rank)
  bcast_S_S50000 : S_.BroadcastsInDim S50000 (![] : Fin 0 → Fin S50000.rank)
  bcast_S250000_S250000x1_0 : S250000.BroadcastsInDim S250000x1 (![0] : Fin 1 → Fin S250000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  slices_S2x3x2x250000_S1x1x1x250000_0_1_0_0 : S2x3x2x250000.Slices ![0, 1, 0, 0] S1x1x1x250000
  slices_S2x3x2x250000_S1x1x1x250000_0_1_1_0 : S2x3x2x250000.Slices ![0, 1, 1, 0] S1x1x1x250000
  slices_S2x3x2x250000_S1x1x1x250000_0_2_0_0 : S2x3x2x250000.Slices ![0, 2, 0, 0] S1x1x1x250000
  slices_S2x3x2x250000_S1x1x1x250000_0_2_1_0 : S2x3x2x250000.Slices ![0, 2, 1, 0] S1x1x1x250000
  concatenates_S50000x1_S50000x1_S50000x1_S50000x3_d1 : Shape.Concatenates [S50000x1, S50000x1, S50000x1] S50000x3 1
  slices_S2x3x256x256_S1x3x256x256_0_0_0_0 : S2x3x256x256.Slices ![0, 0, 0, 0] S1x3x256x256
  shapeCasts_S1x3x256x256_S3x256x256 : S1x3x256x256.ShapeCasts S3x256x256
  slices_S2x3x256_S1x3x256_0_0_0 : S2x3x256.Slices ![0, 0, 0] S1x3x256
  shapeCasts_S1x3x256_S3x256 : S1x3x256.ShapeCasts S3x256
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  slices_S2000x3_o0_0_S2000x1 : S2000x3.Slices ![0, 0] S2000x1
  broadcasts_S2000x1_S2000x256 : S2000x1.Broadcasts S2000x256
  bitsLt_bf16_f32 : FTy.bits .bf16 < FTy.bits .f32
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256_S1x256_0_0 : ∀ a, (![0, 0] : Fin 2 → Nat) a + S1x256.size a ≤ S3x256.size a
  h_S1x256 : 0 < S1x256.numel
  shapeCasts_S1x256_S256 : S1x256.ShapeCasts S256
  shapeCasts_S256_S1x256 : S256.ShapeCasts S1x256
  broadcasts_S1x256_S2000x256 : S1x256.Broadcasts S2000x256
  slices_S2000x3_o0_1_S2000x1 : S2000x3.Slices ![0, 1] S2000x1
  inb_S3x256x256_S1x256x256_1_0_0 : ∀ a, (![1, 0, 0] : Fin 3 → Nat) a + S1x256x256.size a ≤ S3x256x256.size a
  inb_S3x256_S1x256_1_0 : ∀ a, (![1, 0] : Fin 2 → Nat) a + S1x256.size a ≤ S3x256.size a
  slices_S2000x3_o0_2_S2000x1 : S2000x3.Slices ![0, 2] S2000x1
  inb_S3x256x256_S1x256x256_2_0_0 : ∀ a, (![2, 0, 0] : Fin 3 → Nat) a + S1x256x256.size a ≤ S3x256x256.size a
  inb_S3x256_S1x256_2_0 : ∀ a, (![2, 0] : Fin 2 → Nat) a + S1x256.size a ≤ S3x256.size a
  slices_S2x3x2x250000_S1x1x1x250000_1_0_0_0 : S2x3x2x250000.Slices ![1, 0, 0, 0] S1x1x1x250000
  slices_S2x3x2x250000_S1x1x1x250000_1_0_1_0 : S2x3x2x250000.Slices ![1, 0, 1, 0] S1x1x1x250000
  slices_S2x3x2x250000_S1x1x1x250000_1_1_0_0 : S2x3x2x250000.Slices ![1, 1, 0, 0] S1x1x1x250000
  slices_S2x3x2x250000_S1x1x1x250000_1_1_1_0 : S2x3x2x250000.Slices ![1, 1, 1, 0] S1x1x1x250000
  slices_S2x3x2x250000_S1x1x1x250000_1_2_0_0 : S2x3x2x250000.Slices ![1, 2, 0, 0] S1x1x1x250000
  slices_S2x3x2x250000_S1x1x1x250000_1_2_1_0 : S2x3x2x250000.Slices ![1, 2, 1, 0] S1x1x1x250000
  slices_S2x3x256x256_S1x3x256x256_1_0_0_0 : S2x3x256x256.Slices ![1, 0, 0, 0] S1x3x256x256
  slices_S2x3x256_S1x3x256_1_0_0 : S2x3x256.Slices ![1, 0, 0] S1x3x256
  shapeCasts_S384_S1x384 : S384.ShapeCasts S1x384
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  slices_S50000x384_S50000x349_0_0 : S50000x384.Slices ![0, 0] S50000x349
  scatter_S256x384_S1_S256x349_01_n_1_0_wf : ScatterDims.WF S256x384 S1 S256x349 [0, 1] [] [1] 0
  scatter_S384_S1_S349_0_n_0_0_wf : ScatterDims.WF S384 S1 S349 [0] [] [0] 0
  scatter_S50000_S250000x1_S250000_n_0_0_1_wf : ScatterDims.WF S50000 S250000x1 S250000 [] [0] [0] 1
  gather_S50000x256_S250000x1_S250000x256_1_0_n_n_0_1_1256_wf : GatherDims.WF S50000x256 S250000x1 S250000x256 [1] [0] [] [0] [] 1 ![1, 256]
  scatter_S50000x256_S250000x1_S250000x256_1_0_0_1_wf : ScatterDims.WF S50000x256 S250000x1 S250000x256 [1] [0] [0] 1
  dot_S2000x256_S256x256_S2000x256_1_0_0_1_n_n_wf : DotDims.WF S2000x256 S256x256 S2000x256 [1] [0] [0] [1] [] []
  dot_S2000x256_S256x384_S2000x384_1_0_0_1_n_n_wf : DotDims.WF S2000x256 S256x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x3.size a ≤ S50000x3.size a
  hwx0_3 : ∀ i : grid0.Coords, EltTy.bits .f32 = 32 ∨ (Rect.block (s := S50000x3) S2000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x256x256.size a ≤ S3x256x256.size a
  hwx0_4 : ∀ i : grid0.Coords, EltTy.bits .f32 = 32 ∨ (Rect.block (s := S3x256x256) S3x256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x256.size a ≤ S3x256.size a
  hwx0_5 : ∀ i : grid0.Coords, EltTy.bits .f32 = 32 ∨ (Rect.block (s := S3x256) S3x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x3.size a ≤ S50000x3.size a
  hwx1_3 : ∀ i : grid1.Coords, EltTy.bits .f32 = 32 ∨ (Rect.block (s := S50000x3) S2000x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x256x256.size a ≤ S3x256x256.size a
  hwx1_4 : ∀ i : grid1.Coords, EltTy.bits .f32 = 32 ∨ (Rect.block (s := S3x256x256) S3x256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x256.size a ≤ S3x256.size a
  hwx1_5 : ∀ i : grid1.Coords, EltTy.bits .f32 = 32 ∨ (Rect.block (s := S3x256) S3x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x384.size a ≤ S256x384.size a
  hwx1_6 : ∀ i : grid1.Coords, EltTy.bits .f32 = 32 ∨ (Rect.block (s := S256x384) S256x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x384.size a ≤ S1x384.size a
  hwx1_7 : ∀ i : grid1.Coords, EltTy.bits .f32 = 32 ∨ (Rect.block (s := S1x384) S1x384.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x384.size a ≤ S50000x384.size a
  hwx1_8 : ∀ i : grid1.Coords, EltTy.bits .f32 = 32 ∨ (Rect.block (s := S50000x384) S2000x384.size (cc1_transform_8 i) (hinb1_8 i)).WholeWords (EltTy.packing .f32)

variable [Facts₀]

def scatter_S256x384_S1_S256x349_01_n_1_0 : ScatterDims S256x384 S1 S256x349 where
  updateWindowDims := [0, 1]
  insertedWindowDims := []
  scatterDimsToOperandDims := [1]
  indexVectorDim := 0
  wf := scatter_S256x384_S1_S256x349_01_n_1_0_wf
def scatter_S384_S1_S349_0_n_0_0 : ScatterDims S384 S1 S349 where
  updateWindowDims := [0]
  insertedWindowDims := []
  scatterDimsToOperandDims := [0]
  indexVectorDim := 0
  wf := scatter_S384_S1_S349_0_n_0_0_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x384_S2000x384_1_0_0_1_n_n : DotDims S2000x256 S256x384 S2000x384 where
  lhsContracting := [1]
  rhsContracting := [0]
  lhsNonContracting := [0]
  rhsNonContracting := [1]
  lhsBatch := []
  rhsBatch := []
  wf := dot_S2000x256_S256x384_S2000x384_1_0_0_1_n_n_wf

abbrev win0_0 : Pipeline.Window sig grid0 :=
  Pipeline.Window.ofSpec (Memref.whole main_v32) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v88) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v93) S2000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v95) S3x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v97) S3x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v98) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v125) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v153) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v181) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v186) S2000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v188) S3x256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v190) S3x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S256x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v191) S1x384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v192) S2000x384.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x3x256x256 : Shape := ⟨4, ![2, 3, 256, 256]⟩
abbrev S2x3x256 : Shape := ⟨3, ![2, 3, 256]⟩
abbrev S256x349 : Shape := ⟨2, ![256, 349]⟩
abbrev S349 : Shape := ⟨1, ![349]⟩
abbrev S2x3x2x250000 : Shape := ⟨4, ![2, 3, 2, 250000]⟩
abbrev S1x1x1x250000 : Shape := ⟨4, ![1, 1, 1, 250000]⟩
abbrev S250000 : Shape := ⟨1, ![250000]⟩
abbrev S1x1x256x256 : Shape := ⟨4, ![1, 1, 256, 256]⟩
abbrev S256x256 : Shape := ⟨2, ![256, 256]⟩
abbrev S1x1x256 : Shape := ⟨3, ![1, 1, 256]⟩
abbrev S256 : Shape := ⟨1, ![256]⟩
abbrev S_ : Shape := ⟨0, ![]⟩
abbrev S50000 : Shape := ⟨1, ![50000]⟩
abbrev S250000x1 : Shape := ⟨2, ![250000, 1]⟩
abbrev S50000x1 : Shape := ⟨2, ![50000, 1]⟩
abbrev S250000x256 : Shape := ⟨2, ![250000, 256]⟩
abbrev S1x256 : Shape := ⟨2, ![1, 256]⟩
abbrev S50000x349 : Shape := ⟨2, ![50000, 349]⟩
abbrev S1x349 : Shape := ⟨2, ![1, 349]⟩

abbrev nBuf : Space → Nat
  | .hbm => 335
  | .vmem => 0
  | .smem => 0
  | _ => 0

abbrev hbmTy0_0 (i : Nat) : BufTy := match i % 128 with
  | 0 => ⟨S50000x256, .f32⟩
  | 1 => ⟨S2x3x256x256, .f32⟩
  | 2 => ⟨S2x3x256, .f32⟩
  | 3 => ⟨S256x349, .f32⟩
  | 4 => ⟨S349, .f32⟩
  | 5 => ⟨S2x3x2x250000, .i32⟩
  | 6 => ⟨S1x1x1x250000, .i32⟩
  | 7 => ⟨S250000, .i32⟩
  | 8 => ⟨S1x1x1x250000, .i32⟩
  | 9 => ⟨S250000, .i32⟩
  | 10 => ⟨S1x1x256x256, .f32⟩
  | 11 => ⟨S256x256, .f32⟩
  | 12 => ⟨S1x1x256, .f32⟩
  | 13 => ⟨S256, .f32⟩
  | 14 => ⟨S_, .f32⟩
  | 15 => ⟨S250000, .f32⟩
  | 16 => ⟨S_, .f32⟩
  | 17 => ⟨S50000, .f32⟩
  | 18 => ⟨S250000x1, .i32⟩
  | 19 => ⟨S50000, .f32⟩
  | 20 => ⟨S_, .f32⟩
  | 21 => ⟨S_, .f32⟩
  | 22 => ⟨S50000, .f32⟩
  | 23 => ⟨S50000, .f32⟩
  | 24 => ⟨S_, .f32⟩
  | 25 => ⟨S50000, .f32⟩
  | 26 => ⟨S250000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S50000, .f32⟩
  | 33 => ⟨S50000x1, .f32⟩
  | 34 => ⟨S50000x256, .f32⟩
  | 35 => ⟨S50000x256, .f32⟩
  | 36 => ⟨S_, .i32⟩
  | 37 => ⟨S250000, .i32⟩
  | 38 => ⟨S250000, .i1⟩
  | 39 => ⟨S_, .i32⟩
  | 40 => ⟨S250000, .i32⟩
  | 41 => ⟨S250000, .i32⟩
  | 42 => ⟨S250000, .i32⟩
  | 43 => ⟨S250000x1, .i32⟩
  | 44 => ⟨S250000x256, .f32⟩
  | 45 => ⟨S_, .f32⟩
  | 46 => ⟨S50000x256, .f32⟩
  | 47 => ⟨S250000x1, .i32⟩
  | 48 => ⟨S50000x256, .f32⟩
  | 49 => ⟨S50000, .f32⟩
  | 50 => ⟨S50000x1, .f32⟩
  | 51 => ⟨S50000x256, .f32⟩
  | 52 => ⟨S50000x256, .f32⟩
  | 53 => ⟨S50000x256, .f32⟩
  | 54 => ⟨S1x256, .f32⟩
  | 55 => ⟨S50000x256, .f32⟩
  | 56 => ⟨S50000x256, .f32⟩
  | 57 => ⟨S1x1x1x250000, .i32⟩
  | 58 => ⟨S250000, .i32⟩
  | 59 => ⟨S1x1x1x250000, .i32⟩
  | 60 => ⟨S250000, .i32⟩
  | 61 => ⟨S1x1x256x256, .f32⟩
  | 62 => ⟨S256x256, .f32⟩
  | 63 => ⟨S1x1x256, .f32⟩
  | 64 => ⟨S256, .f32⟩
  | 65 => ⟨S_, .f32⟩
  | 66 => ⟨S250000, .f32⟩
  | 67 => ⟨S_, .f32⟩
  | 68 => ⟨S50000, .f32⟩
  | 69 => ⟨S250000x1, .i32⟩
  | 70 => ⟨S50000, .f32⟩
  | 71 => ⟨S_, .f32⟩
  | 72 => ⟨S_, .f32⟩
  | 73 => ⟨S50000, .f32⟩
  | 74 => ⟨S50000, .f32⟩
  | 75 => ⟨S_, .f32⟩
  | 76 => ⟨S50000, .f32⟩
  | 77 => ⟨S250000x1, .i32⟩
  | 78 => ⟨S50000, .f32⟩
  | 79 => ⟨S_, .f32⟩
  | 80 => ⟨S_, .f32⟩
  | 81 => ⟨S50000, .f32⟩
  | 82 => ⟨S50000, .f32⟩
  | 83 => ⟨S50000, .f32⟩
  | 84 => ⟨S50000x1, .f32⟩
  | 85 => ⟨S50000x256, .f32⟩
  | 86 => ⟨S50000x256, .f32⟩
  | 87 => ⟨S_, .i32⟩
  | 88 => ⟨S250000, .i32⟩
  | 89 => ⟨S250000, .i1⟩
  | 90 => ⟨S_, .i32⟩
  | 91 => ⟨S250000, .i32⟩
  | 92 => ⟨S250000, .i32⟩
  | 93 => ⟨S250000, .i32⟩
  | 94 => ⟨S250000x1, .i32⟩
  | 95 => ⟨S250000x256, .f32⟩
  | 96 => ⟨S_, .f32⟩
  | 97 => ⟨S50000x256, .f32⟩
  | 98 => ⟨S250000x1, .i32⟩
  | 99 => ⟨S50000x256, .f32⟩
  | 100 => ⟨S50000, .f32⟩
  | 101 => ⟨S50000x1, .f32⟩
  | 102 => ⟨S50000x256, .f32⟩
  | 103 => ⟨S50000x256, .f32⟩
  | 104 => ⟨S50000x256, .f32⟩
  | 105 => ⟨S1x256, .f32⟩
  | 106 => ⟨S50000x256, .f32⟩
  | 107 => ⟨S50000x256, .f32⟩
  | 108 => ⟨S1x1x1x250000, .i32⟩
  | 109 => ⟨S250000, .i32⟩
  | 110 => ⟨S1x1x1x250000, .i32⟩
  | 111 => ⟨S250000, .i32⟩
  | 112 => ⟨S1x1x256x256, .f32⟩
  | 113 => ⟨S256x256, .f32⟩
  | 114 => ⟨S1x1x256, .f32⟩
  | 115 => ⟨S256, .f32⟩
  | 116 => ⟨S_, .f32⟩
  | 117 => ⟨S250000, .f32⟩
  | 118 => ⟨S_, .f32⟩
  | 119 => ⟨S50000, .f32⟩
  | 120 => ⟨S250000x1, .i32⟩
  | 121 => ⟨S50000, .f32⟩
  | 122 => ⟨S_, .f32⟩
  | 123 => ⟨S_, .f32⟩
  | 124 => ⟨S50000, .f32⟩
  | 125 => ⟨S50000, .f32⟩
  | 126 => ⟨S_, .f32⟩
  | 127 => ⟨S50000, .f32⟩
  | _ => ⟨S50000x256, .f32⟩

abbrev hbmTy0_1 (i : Nat) : BufTy := match i % 128 with
  | 0 => ⟨S250000x1, .i32⟩
  | 1 => ⟨S50000, .f32⟩
  | 2 => ⟨S_, .f32⟩
  | 3 => ⟨S_, .f32⟩
  | 4 => ⟨S50000, .f32⟩
  | 5 => ⟨S50000, .f32⟩
  | 6 => ⟨S50000, .f32⟩
  | 7 => ⟨S50000x1, .f32⟩
  | 8 => ⟨S50000x256, .f32⟩
  | 9 => ⟨S50000x256, .f32⟩
  | 10 => ⟨S_, .i32⟩
  | 11 => ⟨S250000, .i32⟩
  | 12 => ⟨S250000, .i1⟩
  | 13 => ⟨S_, .i32⟩
  | 14 => ⟨S250000, .i32⟩
  | 15 => ⟨S250000, .i32⟩
  | 16 => ⟨S250000, .i32⟩
  | 17 => ⟨S250000x1, .i32⟩
  | 18 => ⟨S250000x256, .f32⟩
  | 19 => ⟨S_, .f32⟩
  | 20 => ⟨S50000x256, .f32⟩
  | 21 => ⟨S250000x1, .i32⟩
  | 22 => ⟨S50000x256, .f32⟩
  | 23 => ⟨S50000, .f32⟩
  | 24 => ⟨S50000x1, .f32⟩
  | 25 => ⟨S50000x256, .f32⟩
  | 26 => ⟨S50000x256, .f32⟩
  | 27 => ⟨S50000x256, .f32⟩
  | 28 => ⟨S1x256, .f32⟩
  | 29 => ⟨S50000x256, .f32⟩
  | 30 => ⟨S50000x256, .f32⟩
  | 31 => ⟨S_, .f32⟩
  | 32 => ⟨S50000x256, .f32⟩
  | 33 => ⟨S50000x256, .f32⟩
  | 34 => ⟨S50000x256, .f32⟩
  | 35 => ⟨S50000x256, .f32⟩
  | 36 => ⟨S_, .f32⟩
  | 37 => ⟨S50000x256, .f32⟩
  | 38 => ⟨S50000x256, .f32⟩
  | 39 => ⟨S_, .f32⟩
  | 40 => ⟨S50000x256, .f32⟩
  | 41 => ⟨S50000x256, .f32⟩
  | 42 => ⟨S1x1x1x250000, .i32⟩
  | 43 => ⟨S250000, .i32⟩
  | 44 => ⟨S1x1x1x250000, .i32⟩
  | 45 => ⟨S250000, .i32⟩
  | 46 => ⟨S1x1x256x256, .f32⟩
  | 47 => ⟨S256x256, .f32⟩
  | 48 => ⟨S1x1x256, .f32⟩
  | 49 => ⟨S256, .f32⟩
  | 50 => ⟨S_, .f32⟩
  | 51 => ⟨S250000, .f32⟩
  | 52 => ⟨S_, .f32⟩
  | 53 => ⟨S50000, .f32⟩
  | 54 => ⟨S250000x1, .i32⟩
  | 55 => ⟨S50000, .f32⟩
  | 56 => ⟨S_, .f32⟩
  | 57 => ⟨S_, .f32⟩
  | 58 => ⟨S50000, .f32⟩
  | 59 => ⟨S50000, .f32⟩
  | 60 => ⟨S_, .f32⟩
  | 61 => ⟨S50000, .f32⟩
  | 62 => ⟨S250000x1, .i32⟩
  | 63 => ⟨S50000, .f32⟩
  | 64 => ⟨S_, .f32⟩
  | 65 => ⟨S_, .f32⟩
  | 66 => ⟨S50000, .f32⟩
  | 67 => ⟨S50000, .f32⟩
  | 68 => ⟨S50000, .f32⟩
  | 69 => ⟨S50000x1, .f32⟩
  | 70 => ⟨S50000x256, .f32⟩
  | 71 => ⟨S50000x256, .f32⟩
  | 72 => ⟨S_, .i32⟩
  | 73 => ⟨S250000, .i32⟩
  | 74 => ⟨S250000, .i1⟩
  | 75 => ⟨S_, .i32⟩
  | 76 => ⟨S250000, .i32⟩
  | 77 => ⟨S250000, .i32⟩
  | 78 => ⟨S250000, .i32⟩
  | 79 => ⟨S250000x1, .i32⟩
  | 80 => ⟨S250000x256, .f32⟩
  | 81 => ⟨S_, .f32⟩
  | 82 => ⟨S50000x256, .f32⟩
  | 83 => ⟨S250000x1, .i32⟩
  | 84 => ⟨S50000x256, .f32⟩
  | 85 => ⟨S50000, .f32⟩
  | 86 => ⟨S50000x1, .f32⟩
  | 87 => ⟨S50000x256, .f32⟩
  | 88 => ⟨S50000x256, .f32⟩
  | 89 => ⟨S50000x256, .f32⟩
  | 90 => ⟨S1x256, .f32⟩
  | 91 => ⟨S50000x256, .f32⟩
  | 92 => ⟨S50000x256, .f32⟩
  | 93 => ⟨S1x1x1x250000, .i32⟩
  | 94 => ⟨S250000, .i32⟩
  | 95 => ⟨S1x1x1x250000, .i32⟩
  | 96 => ⟨S250000, .i32⟩
  | 97 => ⟨S1x1x256x256, .f32⟩
  | 98 => ⟨S256x256, .f32⟩
  | 99 => ⟨S1x1x256, .f32⟩
  | 100 => ⟨S256, .f32⟩
  | 101 => ⟨S_, .f32⟩
  | 102 => ⟨S250000, .f32⟩
  | 103 => ⟨S_, .f32⟩
  | 104 => ⟨S50000, .f32⟩
  | 105 => ⟨S250000x1, .i32⟩
  | 106 => ⟨S50000, .f32⟩
  | 107 => ⟨S_, .f32⟩
  | 108 => ⟨S_, .f32⟩
  | 109 => ⟨S50000, .f32⟩
  | 110 => ⟨S50000, .f32⟩
  | 111 => ⟨S_, .f32⟩
  | 112 => ⟨S50000, .f32⟩
  | 113 => ⟨S250000x1, .i32⟩
  | 114 => ⟨S50000, .f32⟩
  | 115 => ⟨S_, .f32⟩
  | 116 => ⟨S_, .f32⟩
  | 117 => ⟨S50000, .f32⟩
  | 118 => ⟨S50000, .f32⟩
  | 119 => ⟨S50000, .f32⟩
  | 120 => ⟨S50000x1, .f32⟩
  | 121 => ⟨S50000x256, .f32⟩
  | 122 => ⟨S50000x256, .f32⟩
  | 123 => ⟨S_, .i32⟩
  | 124 => ⟨S250000, .i32⟩
  | 125 => ⟨S250000, .i1⟩
  | 126 => ⟨S_, .i32⟩
  | 127 => ⟨S250000, .i32⟩
  | _ => ⟨S50000x256, .f32⟩

abbrev hbmTy0_2 (i : Nat) : BufTy := match i % 128 with
  | 0 => ⟨S250000, .i32⟩
  | 1 => ⟨S250000, .i32⟩
  | 2 => ⟨S250000x1, .i32⟩
  | 3 => ⟨S250000x256, .f32⟩
  | 4 => ⟨S_, .f32⟩
  | 5 => ⟨S50000x256, .f32⟩
  | 6 => ⟨S250000x1, .i32⟩
  | 7 => ⟨S50000x256, .f32⟩
  | 8 => ⟨S50000, .f32⟩
  | 9 => ⟨S50000x1, .f32⟩
  | 10 => ⟨S50000x256, .f32⟩
  | 11 => ⟨S50000x256, .f32⟩
  | 12 => ⟨S50000x256, .f32⟩
  | 13 => ⟨S1x256, .f32⟩
  | 14 => ⟨S50000x256, .f32⟩
  | 15 => ⟨S50000x256, .f32⟩
  | 16 => ⟨S1x1x1x250000, .i32⟩
  | 17 => ⟨S250000, .i32⟩
  | 18 => ⟨S1x1x1x250000, .i32⟩
  | 19 => ⟨S250000, .i32⟩
  | 20 => ⟨S1x1x256x256, .f32⟩
  | 21 => ⟨S256x256, .f32⟩
  | 22 => ⟨S1x1x256, .f32⟩
  | 23 => ⟨S256, .f32⟩
  | 24 => ⟨S_, .f32⟩
  | 25 => ⟨S250000, .f32⟩
  | 26 => ⟨S_, .f32⟩
  | 27 => ⟨S50000, .f32⟩
  | 28 => ⟨S250000x1, .i32⟩
  | 29 => ⟨S50000, .f32⟩
  | 30 => ⟨S_, .f32⟩
  | 31 => ⟨S_, .f32⟩
  | 32 => ⟨S50000, .f32⟩
  | 33 => ⟨S50000, .f32⟩
  | 34 => ⟨S_, .f32⟩
  | 35 => ⟨S50000, .f32⟩
  | 36 => ⟨S250000x1, .i32⟩
  | 37 => ⟨S50000, .f32⟩
  | 38 => ⟨S_, .f32⟩
  | 39 => ⟨S_, .f32⟩
  | 40 => ⟨S50000, .f32⟩
  | 41 => ⟨S50000, .f32⟩
  | 42 => ⟨S50000, .f32⟩
  | 43 => ⟨S50000x1, .f32⟩
  | 44 => ⟨S50000x256, .f32⟩
  | 45 => ⟨S50000x256, .f32⟩
  | 46 => ⟨S_, .i32⟩
  | 47 => ⟨S250000, .i32⟩
  | 48 => ⟨S250000, .i1⟩
  | 49 => ⟨S_, .i32⟩
  | 50 => ⟨S250000, .i32⟩
  | 51 => ⟨S250000, .i32⟩
  | 52 => ⟨S250000, .i32⟩
  | 53 => ⟨S250000x1, .i32⟩
  | 54 => ⟨S250000x256, .f32⟩
  | 55 => ⟨S_, .f32⟩
  | 56 => ⟨S50000x256, .f32⟩
  | 57 => ⟨S250000x1, .i32⟩
  | 58 => ⟨S50000x256, .f32⟩
  | 59 => ⟨S50000, .f32⟩
  | 60 => ⟨S50000x1, .f32⟩
  | 61 => ⟨S50000x256, .f32⟩
  | 62 => ⟨S50000x256, .f32⟩
  | 63 => ⟨S50000x256, .f32⟩
  | 64 => ⟨S1x256, .f32⟩
  | 65 => ⟨S50000x256, .f32⟩
  | 66 => ⟨S50000x256, .f32⟩
  | 67 => ⟨S_, .f32⟩
  | 68 => ⟨S50000x256, .f32⟩
  | 69 => ⟨S50000x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x349, .f32⟩
  | 76 => ⟨S1x349, .f32⟩
  | 77 => ⟨S50000x349, .f32⟩
  | 78 => ⟨S50000x349, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_call2_v0 : Ref sig .tc := ⟨.hbm, 72, rfl⟩
abbrev main_call2_v1 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_call3_v0 : Ref sig .tc := ⟨.hbm, 80, rfl⟩
abbrev main_call3_v1 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_14 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_16 : Ref sig .tc := ⟨.hbm, 122, rfl⟩
abbrev main_call4_v0 : Ref sig .tc := ⟨.hbm, 123, rfl⟩
abbrev main_call4_v1 : Ref sig .tc := ⟨.hbm, 124, rfl⟩
abbrev main_v90 : Ref sig .tc := ⟨.hbm, 125, rfl⟩
abbrev main_cst_17 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_18 : Ref sig .tc := ⟨.hbm, 130, rfl⟩
abbrev main_call5_v0 : Ref sig .tc := ⟨.hbm, 131, rfl⟩
abbrev main_call5_v1 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_19 : Ref sig .tc := ⟨.hbm, 138, rfl⟩
abbrev main_v99 : Ref sig .tc := ⟨.hbm, 139, rfl⟩
abbrev main_v100 : Ref sig .tc := ⟨.hbm, 140, rfl⟩
abbrev main_c_20 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_21 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_22 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_23 : Ref sig .tc := ⟨.hbm, 164, rfl⟩
abbrev main_v121 : Ref sig .tc := ⟨.hbm, 165, rfl⟩
abbrev main_v122 : Ref sig .tc := ⟨.hbm, 166, rfl⟩
abbrev main_call6_cst : Ref sig .tc := ⟨.hbm, 167, rfl⟩
abbrev main_call6_v0 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_24 : Ref sig .tc := ⟨.hbm, 178, rfl⟩
abbrev main_v132 : Ref sig .tc := ⟨.hbm, 179, rfl⟩
abbrev main_cst_25 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_26 : Ref sig .tc := ⟨.hbm, 184, rfl⟩
abbrev main_call7_v0 : Ref sig .tc := ⟨.hbm, 185, rfl⟩
abbrev main_call7_v1 : Ref sig .tc := ⟨.hbm, 186, rfl⟩
abbrev main_v136 : Ref sig .tc := ⟨.hbm, 187, rfl⟩
abbrev main_cst_27 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_28 : Ref sig .tc := ⟨.hbm, 192, rfl⟩
abbrev main_call8_v0 : Ref sig .tc := ⟨.hbm, 193, rfl⟩
abbrev main_call8_v1 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_c_29 : Ref sig .tc := ⟨.hbm, 200, rfl⟩
abbrev main_v145 : Ref sig .tc := ⟨.hbm, 201, rfl⟩
abbrev main_v146 : Ref sig .tc := ⟨.hbm, 202, rfl⟩
abbrev main_c_30 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_cst_31 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_cst_32 : Ref sig .tc := ⟨.hbm, 229, rfl⟩
abbrev main_v171 : Ref sig .tc := ⟨.hbm, 230, rfl⟩
abbrev main_cst_33 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_cst_34 : Ref sig .tc := ⟨.hbm, 235, rfl⟩
abbrev main_call9_v0 : Ref sig .tc := ⟨.hbm, 236, rfl⟩
abbrev main_call9_v1 : Ref sig .tc := ⟨.hbm, 237, rfl⟩
abbrev main_v175 : Ref sig .tc := ⟨.hbm, 238, rfl⟩
abbrev main_cst_35 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_cst_36 : Ref sig .tc := ⟨.hbm, 243, rfl⟩
abbrev main_call10_v0 : Ref sig .tc := ⟨.hbm, 244, rfl⟩
abbrev main_call10_v1 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_c_37 : Ref sig .tc := ⟨.hbm, 251, rfl⟩
abbrev main_v184 : Ref sig .tc := ⟨.hbm, 252, rfl⟩
abbrev main_v185 : Ref sig .tc := ⟨.hbm, 253, rfl⟩
abbrev main_c_38 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_cst_39 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_cst_40 : Ref sig .tc := ⟨.hbm, 280, rfl⟩
abbrev main_v210 : Ref sig .tc := ⟨.hbm, 281, rfl⟩
abbrev main_cst_41 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_cst_42 : Ref sig .tc := ⟨.hbm, 286, rfl⟩
abbrev main_call11_v0 : Ref sig .tc := ⟨.hbm, 287, rfl⟩
abbrev main_call11_v1 : Ref sig .tc := ⟨.hbm, 288, rfl⟩
abbrev main_v214 : Ref sig .tc := ⟨.hbm, 289, rfl⟩
abbrev main_cst_43 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_cst_44 : Ref sig .tc := ⟨.hbm, 294, rfl⟩
abbrev main_call12_v0 : Ref sig .tc := ⟨.hbm, 295, rfl⟩
abbrev main_call12_v1 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_c_45 : Ref sig .tc := ⟨.hbm, 302, rfl⟩
abbrev main_v223 : Ref sig .tc := ⟨.hbm, 303, rfl⟩
abbrev main_v224 : Ref sig .tc := ⟨.hbm, 304, rfl⟩
abbrev main_c_46 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_cst_47 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_cst_48 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_cst_49 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩

abbrev nD : Nat := 1
abbrev τ : Topo := Topo.v7x

variable {F : FTy → Type} [FloatOps F]

class Facts₀ : Prop where
  slices_S2x3x2x250000_S1x1x1x250000_0_0_0_0 : S2x3x2x250000.Slices ![0, 0, 0, 0] S1x1x1x250000
  shapeCasts_S1x1x1x250000_S250000 : S1x1x1x250000.ShapeCasts S250000
  slices_S2x3x2x250000_S1x1x1x250000_0_0_1_0 : S2x3x2x250000.Slices ![0, 0, 1, 0] S1x1x1x250000
  slices_S2x3x256x256_S1x1x256x256_0_0_0_0 : S2x3x256x256.Slices ![0, 0, 0, 0] S1x1x256x256
  shapeCasts_S1x1x256x256_S256x256 : S1x1x256x256.ShapeCasts S256x256
  slices_S2x3x256_S1x1x256_0_0_0 : S2x3x256.Slices ![0, 0, 0] S1x1x256
  shapeCasts_S1x1x256_S256 : S1x1x256.ShapeCasts S256
  bcast_S_S250000 : S_.BroadcastsInDim S250000 (![] : Fin 0 → Fin S250000.rank)
  bcast_S_S50000 : S_.BroadcastsInDim S50000 (![] : Fin 0 → Fin S50000.rank)
  bcast_S250000_S250000x1_0 : S250000.BroadcastsInDim S250000x1 (![0] : Fin 1 → Fin S250000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S2x3x2x250000_S1x1x1x250000_0_1_0_0 : S2x3x2x250000.Slices ![0, 1, 0, 0] S1x1x1x250000
  slices_S2x3x2x250000_S1x1x1x250000_0_1_1_0 : S2x3x2x250000.Slices ![0, 1, 1, 0] S1x1x1x250000
  slices_S2x3x256x256_S1x1x256x256_0_1_0_0 : S2x3x256x256.Slices ![0, 1, 0, 0] S1x1x256x256
  slices_S2x3x256_S1x1x256_0_1_0 : S2x3x256.Slices ![0, 1, 0] S1x1x256
  slices_S2x3x2x250000_S1x1x1x250000_0_2_0_0 : S2x3x2x250000.Slices ![0, 2, 0, 0] S1x1x1x250000
  slices_S2x3x2x250000_S1x1x1x250000_0_2_1_0 : S2x3x2x250000.Slices ![0, 2, 1, 0] S1x1x1x250000
  slices_S2x3x256x256_S1x1x256x256_0_2_0_0 : S2x3x256x256.Slices ![0, 2, 0, 0] S1x1x256x256
  slices_S2x3x256_S1x1x256_0_2_0 : S2x3x256.Slices ![0, 2, 0] S1x1x256
  slices_S2x3x2x250000_S1x1x1x250000_1_0_0_0 : S2x3x2x250000.Slices ![1, 0, 0, 0] S1x1x1x250000
  slices_S2x3x2x250000_S1x1x1x250000_1_0_1_0 : S2x3x2x250000.Slices ![1, 0, 1, 0] S1x1x1x250000
  slices_S2x3x256x256_S1x1x256x256_1_0_0_0 : S2x3x256x256.Slices ![1, 0, 0, 0] S1x1x256x256
  slices_S2x3x256_S1x1x256_1_0_0 : S2x3x256.Slices ![1, 0, 0] S1x1x256
  slices_S2x3x2x250000_S1x1x1x250000_1_1_0_0 : S2x3x2x250000.Slices ![1, 1, 0, 0] S1x1x1x250000
  slices_S2x3x2x250000_S1x1x1x250000_1_1_1_0 : S2x3x2x250000.Slices ![1, 1, 1, 0] S1x1x1x250000
  slices_S2x3x256x256_S1x1x256x256_1_1_0_0 : S2x3x256x256.Slices ![1, 1, 0, 0] S1x1x256x256
  slices_S2x3x256_S1x1x256_1_1_0 : S2x3x256.Slices ![1, 1, 0] S1x1x256
  slices_S2x3x2x250000_S1x1x1x250000_1_2_0_0 : S2x3x2x250000.Slices ![1, 2, 0, 0] S1x1x1x250000
  slices_S2x3x2x250000_S1x1x1x250000_1_2_1_0 : S2x3x2x250000.Slices ![1, 2, 1, 0] S1x1x1x250000
  slices_S2x3x256x256_S1x1x256x256_1_2_0_0 : S2x3x256x256.Slices ![1, 2, 0, 0] S1x1x256x256
  slices_S2x3x256_S1x1x256_1_2_0 : S2x3x256.Slices ![1, 2, 0] S1x1x256
  bcast_S349_S1x349_1 : S349.BroadcastsInDim S1x349 (![1] : Fin 1 → Fin S1x349.rank)
  bcast_S1x349_S50000x349_0_1 : S1x349.BroadcastsInDim S50000x349 (![0, 1] : Fin 2 → Fin S50000x349.rank)
  scatter_S50000_S250000x1_S250000_n_0_0_1_wf : ScatterDims.WF S50000 S250000x1 S250000 [] [0] [0] 1
  gather_S50000x256_S250000x1_S250000x256_1_0_n_n_0_1_1256_wf : GatherDims.WF S50000x256 S250000x1 S250000x256 [1] [0] [] [0] [] 1 ![1, 256]
  scatter_S50000x256_S250000x1_S250000x256_1_0_0_1_wf : ScatterDims.WF S50000x256 S250000x1 S250000x256 [1] [0] [0] 1
  dot_S50000x256_S256x256_S50000x256_1_0_0_1_n_n_wf : DotDims.WF S50000x256 S256x256 S50000x256 [1] [0] [0] [1] [] []
  dot_S50000x256_S256x349_S50000x349_1_0_0_1_n_n_wf : DotDims.WF S50000x256 S256x349 S50000x349 [1] [0] [0] [1] [] []

variable [Facts₀]

def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x349_S50000x349_1_0_0_1_n_n : DotDims S50000x256 S256x349 S50000x349 where
  lhsContracting := [1]
  rhsContracting := [0]
  lhsNonContracting := [0]
  rhsNonContracting := [1]
  lhsBatch := []
  rhsBatch := []
  wf := dot_S50000x256_S256x349_S50000x349_1_0_0_1_n_n_wf

class Facts : Prop extends Facts₀ where

variable [Facts]
-- ==== Proof.K.Defs0.lean ====
/- Region 0 of @main (the first pallas_call, the relu layer), at a PARAMETER `V`: the core's buffer contents when the
   region is entered. This module holds the definitions: each window's block at a grid point, the rectangles the body
   loads and stores through, the contents the body leaves in the output window's buffer as a function of the input
   blocks, and the pipeline's proof data with its projections. The obligations over them are in the next module. -/
import proofs.«176711_j5789615915676_2_alg».proof.Proof.Gen.Kernel.Launch
import proofs.«176711_j5789615915676_2_alg».proof.Proof.Gen.Kernel.Skeleton
import proofs.«176711_j5789615915676_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents is decided by a structural recursion on the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and the one store go through a literal unit-stride rectangle -/

/-- A whole 2000×256 block (the three message blocks, and the output block). -/
abbrev rBlk : Rect S2000x256 := Rect.unit (s := S2000x256) ![0, 0] S2000x256.size inb_S2000x256_S2000x256_0_0
/-- The whole 2000×3 block of per-relation scales. -/
abbrev rScl : Rect S2000x3 := Rect.unit (s := S2000x3) ![0, 0] S2000x3.size inb_S2000x3_S2000x3_0_0
/-- Relation `k`'s 256×256 weight slab of the 3×256×256 weights. -/
abbrev rW0 : Rect S3x256x256 := Rect.unit (s := S3x256x256) ![0, 0, 0] S1x256x256.size inb_S3x256x256_S1x256x256_0_0_0
abbrev rW1 : Rect S3x256x256 := Rect.unit (s := S3x256x256) ![1, 0, 0] S1x256x256.size inb_S3x256x256_S1x256x256_1_0_0
abbrev rW2 : Rect S3x256x256 := Rect.unit (s := S3x256x256) ![2, 0, 0] S1x256x256.size inb_S3x256x256_S1x256x256_2_0_0
/-- Relation `k`'s bias row of the 3×256 biases. -/
abbrev rB0 : Rect S3x256 := Rect.unit (s := S3x256) ![0, 0] S1x256.size inb_S3x256_S1x256_0_0
abbrev rB1 : Rect S3x256 := Rect.unit (s := S3x256) ![1, 0] S1x256.size inb_S3x256_S1x256_1_0
abbrev rB2 : Rect S3x256 := Rect.unit (s := S3x256) ![2, 0] S1x256.size inb_S3x256_S1x256_2_0

/-! ## What the body leaves in the output window's buffer -/

/-- Window 6's staging buffer after the body, from the six input windows' blocks: the body's one store, of the whole
    block, of the relu of the mean over the three relations of (scaled messages × weights + bias). -/
def out0_6 (x0 x1 x2 : Vec F S2000x256 .f32) (x3 : Vec F S2000x3 .f32) (x4 : Vec F S3x256x256 .f32) (x5 : Vec F S3x256 .f32) :
    Vec F S2000x256 .f32 :=
  View.canon [⟨rBlk, k0_pay1
    (k0_pay3 (View.ld x3 rScl) (View.ld x0 rBlk) (View.ld x4 rW0) (View.ld x5 rB0) (View.ld x1 rBlk) (View.ld x4 rW1) (View.ld x5 rB1))
    (k0_pay4 (View.ld x2 rBlk)) (k0_pay5 (View.ld x3 rScl)) (View.ld x4 rW2) (View.ld x5 rB2)⟩]

/-- The one store is of the whole block, so it covers the buffer. -/
theorem cover0_6 (p0 : Vec F S2000x256 .f32) (y : S2000x256.Idx) :
    ∃ pc ∈ ([⟨rBlk, p0⟩] : List (View.Piece (Elt F) S2000x256 .f32)), y ∈ pc.1.set :=
  View.cover_of_tiled [⟨rBlk, p0⟩] S2000x256.size (by rfl) y

/-! ## The pipeline's proof data -/

/-- The proof data of pipeline 0 on core `c`: the arrays as the region finds them (`V`); after the body at point `t`
    each input's buffer at its block and the output's at `out0_6` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]

end Region0

end Cert.Kernel.Hand

end
-- ==== Proof.K.Region0.lean ====
/- Region 0 of @main at a parameter `V` (the core's buffer contents when the region is entered): what the body finds in
   each input window's buffer, the body's triple, and the pipeline's body obligation, over the definitions of the
   previous module. -/
import proofs.«176711_j5789615915676_2_alg».proof.Proof.K.Defs0

-- membership in a rectangle of the block's extents is decided by a structural recursion on the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
section Region0

variable (V : (c : Dev nD) → (b : Ref sig .tc) → Buf (Elt F) ((c : Thread nD τ).loc b))

/-! ## What the body finds in each input window's buffer -/

/-- Input window 0's current staging buffer holds its block at every point, fetched there or not, for any proof data
    whose array is `V`'s (`hA`) and whose body leaves the block in place (`hafter`): where the window is not fetched its
    block index has not moved, so the block already there is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is `V`'s (`hA`) and whose body leaves the block in place (`hafter`): where the window is not fetched its
    block index has not moved, so the block already there is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is `V`'s (`hA`) and whose body leaves the block in place (`hafter`): where the window is not fetched its
    block index has not moved, so the block already there is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof data
    whose array is `V`'s (`hA`) and whose body leaves the block in place (`hafter`): where the window is not fetched its
    block index has not moved, so the block already there is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof data
    whose array is `V`'s (`hA`) and whose body leaves the block in place (`hafter`): where the window is not fetched its
    block index has not moved, so the block already there is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof data
    whose array is `V`'s (`hA`) and whose body leaves the block in place (`hafter`): where the window is not fetched its
    block index has not moved, so the block already there is this point's. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 4000000 in
/-- The kernel body on whole staging memrefs, the inputs' at read contents `xW` and the output's at anything, runs to the
    continuation holding the inputs' as they were and the output's at `out0_6` of the inputs': the body is a sequence of
    loads through literal rectangles and one store of the whole block, run statement by statement. -/
theorem sound_kernel0 (c : Dev nD) (E : Set ℕ) (i : grid0.Coords) (arg1 : Memref sig .tc .vmem S2000x256 .f32) (harg1 : arg1.IsWhole) (arg2 : Memref sig .tc .vmem S2000x256 .f32) (harg2 : arg2.IsWhole) (arg3 : Memref sig .tc .vmem S2000x256 .f32) (harg3 : arg3.IsWhole) (arg4 : Memref sig .tc .vmem S2000x3 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S2000x256 .f32) (harg7 : arg7.IsWhole)
    (x0 : Vec F S2000x256 .f32) (x1 : Vec F S2000x256 .f32) (x2 : Vec F S2000x256 .f32) (x3 : Vec F S2000x3 .f32) (x4 : Vec F S3x256x256 .f32) (x5 : Vec F S3x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__rgcn_layer_relu_kernel i arg1 harg1 arg2 harg2 arg3 harg3 arg4 harg4 arg5 harg5 arg6 harg6 arg7 harg7) K := by
  simp only [cc0__rgcn_layer_relu_kernel_eq_skeleton]; unfold cc0__rgcn_layer_relu_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Defs1.lean ====
/- Region 1 of @main (the second pallas_call, the final layer with its output projection), at a PARAMETER `V`: the
   core's buffer contents when the region is entered. This module holds the definitions: each window's block at a grid
   point, the rectangles the body loads and stores through (those of region 0, and three more), the contents the body
   leaves in the output window's buffer as a function of the input blocks, and the pipeline's proof data with its
   projections. The obligations over them are in the next module. -/
import proofs.«176711_j5789615915676_2_alg».proof.Proof.K.Defs0

-- membership in a rectangle of the block's extents is decided by a structural recursion on the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: those of region 0's body, and -/

/-- the whole 256×384 projection weights, -/
abbrev rPw : Rect S256x384 := Rect.unit (s := S256x384) ![0, 0] S256x384.size inb_S256x384_S256x384_0_0
/-- the whole 1×384 projection bias, -/
abbrev rPb : Rect S1x384 := Rect.unit (s := S1x384) ![0, 0] S1x384.size inb_S1x384_S1x384_0_0
/-- and the whole 2000×384 output block. -/
abbrev rOut : Rect S2000x384 := Rect.unit (s := S2000x384) ![0, 0] S2000x384.size inb_S2000x384_S2000x384_0_0

/-! ## What the body leaves in the output window's buffer -/

/-- Window 8's staging buffer after the body, from the eight input windows' blocks: the body's one store, of the whole
    block, of the projection of the mean over the three relations of (scaled messages × weights + bias). -/
def out1_8 (x0 x1 x2 : Vec F S2000x256 .f32) (x3 : Vec F S2000x3 .f32) (x4 : Vec F S3x256x256 .f32) (x5 : Vec F S3x256 .f32)
    (x6 : Vec F S256x384 .f32) (x7 : Vec F S1x384 .f32) : Vec F S2000x384 .f32 :=
  View.canon [⟨rOut, k1_pay1
    (k1_pay3 (View.ld x3 rScl) (View.ld x0 rBlk) (View.ld x4 rW0) (View.ld x5 rB0) (View.ld x1 rBlk) (View.ld x4 rW1) (View.ld x5 rB1))
    (k1_pay4 (View.ld x2 rBlk)) (k1_pay5 (View.ld x3 rScl)) (View.ld x4 rW2) (View.ld x5 rB2) (View.ld x6 rPw) (View.ld x7 rPb)⟩]

/-- The one store is of the whole block, so it covers the buffer. -/
theorem cover1_8 (p0 : Vec F S2000x384 .f32) (y : S2000x384.Idx) :
    ∃ pc ∈ ([⟨rOut, p0⟩] : List (View.Piece (Elt F) S2000x384 .f32)), y ∈ pc.1.set :=
  View.cover_of_tiled [⟨rOut, p0⟩] S2000x384.size (by rfl) y

/-! ## The pipeline's proof data -/

/-- The proof data of pipeline 1 on core `c`: the arrays as the region finds them (`V`); after the body at point `t`
    each input's buffer at its block and the output's at `out1_8` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t =
    out1_8 (iblk1 V c 0 t) (iblk1 V c 1 t) (iblk1 V c 2 t) (iblk1 V c 3 t) (iblk1 V c 4 t) (iblk1 V c 5 t) (iblk1 V c 6 t) (iblk1 V c 7 t) := by dsimp only [dat1]

end Region1

end Cert.Kernel.Hand

end
-- ==== Proof.K.Region1.lean ====
/- Region 1 of @main at a parameter `V` (the core's buffer contents when the region is entered): what the body finds in
   each input window's buffer, the body's triple, and the pipeline's body obligation, over the definitions of the
   previous module. -/
import proofs.«176711_j5789615915676_2_alg».proof.Proof.K.Defs1

-- membership in a rectangle of the block's extents is decided by a structural recursion on the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
section Region1

variable (V : (c : Dev nD) → (b : Ref sig .tc) → Buf (Elt F) ((c : Thread nD τ).loc b))

/-! ## What the body finds in each input window's buffer -/

/-- Input window 0's current staging buffer holds its block at every point, fetched there or not, for any proof data
    whose array is `V`'s (`hA`) and whose body leaves the block in place (`hafter`): where the window is not fetched its
    block index has not moved, so the block already there is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is `V`'s (`hA`) and whose body leaves the block in place (`hafter`): where the window is not fetched its
    block index has not moved, so the block already there is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is `V`'s (`hA`) and whose body leaves the block in place (`hafter`): where the window is not fetched its
    block index has not moved, so the block already there is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is `V`'s (`hA`) and whose body leaves the block in place (`hafter`): where the window is not fetched its
    block index has not moved, so the block already there is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is `V`'s (`hA`) and whose body leaves the block in place (`hafter`): where the window is not fetched its
    block index has not moved, so the block already there is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof data
    whose array is `V`'s (`hA`) and whose body leaves the block in place (`hafter`): where the window is not fetched its
    block index has not moved, so the block already there is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof data
    whose array is `V`'s (`hA`) and whose body leaves the block in place (`hafter`): where the window is not fetched its
    block index has not moved, so the block already there is this point's. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for any proof data
    whose array is `V`'s (`hA`) and whose body leaves the block in place (`hafter`): where the window is not fetched its
    block index has not moved, so the block already there is this point's. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 4000000 in
/-- The kernel body on whole staging memrefs, the inputs' at read contents `xW` and the output's at anything, runs to the
    continuation holding the inputs' as they were and the output's at `out1_8` of the inputs': the body is a sequence of
    loads through literal rectangles and one store of the whole block, run statement by statement. -/
theorem sound_kernel1 (c : Dev nD) (E : Set ℕ) (i : grid1.Coords) (arg1 : Memref sig .tc .vmem S2000x256 .f32) (harg1 : arg1.IsWhole) (arg2 : Memref sig .tc .vmem S2000x256 .f32) (harg2 : arg2.IsWhole) (arg3 : Memref sig .tc .vmem S2000x256 .f32) (harg3 : arg3.IsWhole) (arg4 : Memref sig .tc .vmem S2000x3 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S256x384 .f32) (harg7 : arg7.IsWhole) (arg8 : Memref sig .tc .vmem S1x384 .f32) (harg8 : arg8.IsWhole) (arg9 : Memref sig .tc .vmem S2000x384 .f32) (harg9 : arg9.IsWhole)
    (x0 : Vec F S2000x256 .f32) (x1 : Vec F S2000x256 .f32) (x2 : Vec F S2000x256 .f32) (x3 : Vec F S2000x3 .f32) (x4 : Vec F S3x256x256 .f32) (x5 : Vec F S3x256 .f32) (x6 : Vec F S256x384 .f32) (x7 : Vec F S1x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__rgcn_final_kernel i arg1 harg1 arg2 harg2 arg3 harg3 arg4 harg4 arg5 harg5 arg6 harg6 arg7 harg7 arg8 harg8 arg9 harg9) K := by
  simp only [cc1__rgcn_final_kernel_eq_skeleton]; unfold cc1__rgcn_final_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/- THE RUN of @main: its 29 items as segments, the two regions entered at the valuations the host stretches leave, and the
   result's value read off the last valuation. First the run over any region records and any contents the regions leave,
   with the result buffer kept in the post; then the contents the regions really leave (each pipeline's output array after
   its last write-back), the proof data family, the two region records, and the run at them. -/
import proofs.«176711_j5789615915676_2_alg».proof.Proof.K.Region0
import proofs.«176711_j5789615915676_2_alg».proof.Proof.K.Region1
import proofs.«176711_j5789615915676_2_alg».proof.Proof.Gen.Kernel.Regions

-- membership in a rectangle of the block's extents is decided by a structural recursion on the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section FrameVal

variable (m : (ℓ : Loc nD τ sig) → Buf (Elt F) ℓ)

set_option backward.isDefEq.respectTransparency.types false in
/-- The run of @main over its segments, with the RESULT's value kept: for any rest states `E` the launch makes on every
    core at once (`hE0`) and that end owing nothing (`hE2`), any contents the regions leave (`outs`) and any proof data,
    given per region a segment record entered from the thread state before it and left at the one after it, every weakly
    fair execution of @main from memory `m` with zero counters terminates, and every final memory holds the result buffer
    at the last valuation's contents and each argument as launched. The host stretches, the chaining and the launch's
    first thread state are those of the conditional frame; the last thread state is read at the result as well. -/
theorem frame_val {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V27 m outs c) ∗ E 1 c) ⊢ R1.pre c)
    (hpost1 : ∀ c : Dev nD, R1.post c ⊢ iprop(StableHlo.held (c : Thread nD τ) (Pipeline.ucRefs τ sig) (V28 m outs c) ∗ E 2 c)) :
    θ_run defs (onTc (τ := τ) (main (F := F))) ⟨m, fun _ => 0, ρ⟩ (fun r => ∀ c : Dev nD,
      r.2.mem ((c.tc : Thread nD τ).loc main_v193) = V29 m outs c main_v193
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V29 m outs c))
    (hch := fun c => ⟨.rfl, .rfl, .rfl, .rfl, .rfl, .rfl, .rfl, .rfl, .rfl, .rfl, .rfl, .rfl, .rfl, hpre0 c, hpost0 c, .rfl, .rfl, .rfl, .rfl, .rfl, .rfl, .rfl, .rfl, .rfl, .rfl, .rfl, .rfl, hpre1 c, hpost1 c, sep_mono .rfl (hE2 c)⟩)
    (hinit := ?_) (QY := fun c s => s.mem ((c.tc : Thread nD τ).loc main_v193) = V29 m outs c main_v193 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V29 m outs c) s') $$ [Hh HSI]
    · isplitl [Hh] <;> iassumption
    icases Hr with ⟨%h, HSI⟩
    imodintro
    isplitr
    · ipureintro
      exact ⟨h (Proc.devRef .tc main_v193) (Finset.mem_filter.mpr ⟨StableHlo.devRef_mem_tcRefs main_v193, by decide⟩),
        (h (Proc.devRef .tc main_arg0) (Finset.mem_filter.mpr ⟨StableHlo.devRef_mem_tcRefs main_arg0, by decide⟩)).trans (V29_main_arg0 m outs c),
        (h (Proc.devRef .tc main_arg1) (Finset.mem_filter.mpr ⟨StableHlo.devRef_mem_tcRefs main_arg1, by decide⟩)).trans (V29_main_arg1 m outs c),
        (h (Proc.devRef .tc main_arg2) (Finset.mem_filter.mpr ⟨StableHlo.devRef_mem_tcRefs main_arg2, by decide⟩)).trans (V29_main_arg2 m outs c),
        (h (Proc.devRef .tc main_arg3) (Finset.mem_filter.mpr ⟨StableHlo.devRef_mem_tcRefs main_arg3, by decide⟩)).trans (V29_main_arg3 m outs c),
        (h (Proc.devRef .tc main_arg4) (Finset.mem_filter.mpr ⟨StableHlo.devRef_mem_tcRefs main_arg4, by decide⟩)).trans (V29_main_arg4 m outs c),
        (h (Proc.devRef .tc main_arg5) (Finset.mem_filter.mpr ⟨StableHlo.devRef_mem_tcRefs main_arg5, by decide⟩)).trans (V29_main_arg5 m outs c)⟩
    · iexact HSI

end FrameVal

section Run

variable (m : (ℓ : Loc nD τ sig) → Buf (Elt F) ℓ)

/-! ## What the two regions leave

The valuations between @main's items are written over unknowns `outs`: what region 0 leaves in `main_v98` and what
region 1 leaves in `main_v192`. Here they are named: each is its pipeline's output array after the last write-back, the
pipeline's proof data taken at the region's entry contents. Region 1's entry contents read region 0's result, so the two
are defined in that order. -/

/-- Region 0's entry contents, read at the TensorCore's references. -/
abbrev Vin0 : (c : Dev nD) → (b : Ref sig .tc) → Buf (Elt F) ((c : Thread nD τ).loc b) := fun c b => V13 m c b

/-- The buffers after region 0: `main_v98` at the output array's final contents, the rest as entered. -/
def W14 (c : Dev nD) : Valuation τ sig (Elt F) :=
  Function.update (V13 m c) main_v98 ((dat0 (fun c b => V13 m c b) c).arrAt 6 cfg0.N)

/-- The unknowns with only region 0's named. -/
def outsA : Outs (F := F) := fun _ r c => W14 m c r

/-- Region 1's entry contents over region 0's result alone, read at the TensorCore's references. -/
abbrev VinA : (c : Dev nD) → (b : Ref sig .tc) → Buf (Elt F) ((c : Thread nD τ).loc b) := fun c b => V27 m (outsA m) c b

/-- The buffers after region 1: `main_v192` at the output array's final contents, the rest as entered. -/
def W28 (c : Dev nD) : Valuation τ sig (Elt F) :=
  Function.update (V27 m (outsA m) c) main_v192 ((dat1 (VinA m) c).arrAt 8 cfg1.N)

/-- What the regions leave: after item 27 region 1's result, before it region 0's. -/
def outsOf : Outs (F := F) := fun J r c => if J = 28 then W28 m c r else W14 m c r

theorem outsOf_14 (c : Dev nD) : outsOf m 14 main_v98 c = outsA m 14 main_v98 c := by
  unfold outsOf outsA; rw [if_neg (by decide)]

/-- Region 0 leaves in `main_v98` its output array after the last write-back. -/
theorem outs14 (c : Dev nD) : outsOf m 14 main_v98 c = (dat0 (fun c b => V13 m c b) c).arrAt 6 cfg0.N := by
  rw [outsOf_14]; unfold outsA W14
  exact Function.update_self _ _ _

/-- The valuation region 1 is entered from reads the unknowns at region 0's result only. -/
theorem V27_congr (o o' : Outs (F := F)) (h : ∀ c, o 14 main_v98 c = o' 14 main_v98 c) (c : Dev nD) : V27 m o c = V27 m o' c := by
  dsimp only [V27, V26, V25, V24, V23, V22, V21, V20, V19, V18, V17, V16, V15, V14]
  rw [h c]

/-- Region 1's entry contents, read at the TensorCore's references. -/
abbrev Vin1 : (c : Dev nD) → (b : Ref sig .tc) → Buf (Elt F) ((c : Thread nD τ).loc b) := fun c b => V27 m (outsOf m) c b

theorem Vin1_eq : Vin1 m = VinA m :=
  funext fun c => funext fun b => congrFun (V27_congr m (outsOf m) (outsA m) (outsOf_14 m) c) b

/-- Region 1 leaves in `main_v192` its output array after the last write-back. -/
theorem outs28 (c : Dev nD) : outsOf m 28 main_v192 c = (dat1 (fun c b => V27 m (outsOf m) c b) c).arrAt 8 cfg1.N := by
  show outsOf m 28 main_v192 c = (dat1 (Vin1 m) c).arrAt 8 cfg1.N
  rw [Vin1_eq]; unfold outsOf; rw [if_pos rfl]; unfold W28
  exact Function.update_self _ _ _

/-- A region's output buffer holds, in the valuation after it, what the region leaves there. -/
theorem V14_out (o : Outs (F := F)) (c : Dev nD) : V14 m o c main_v98 = o 14 main_v98 c := by
  dsimp only [V14]; exact Function.update_self _ _ _
theorem V28_out (o : Outs (F := F)) (c : Dev nD) : V28 m o c main_v192 = o 28 main_v192 c := by
  dsimp only [V28]; exact Function.update_self _ _ _

/-- The exit contents of the two regions, read at the TensorCore's references. -/
abbrev Vout0 : (c : Dev nD) → (b : Ref sig .tc) → Buf (Elt F) ((c : Thread nD τ).loc b) := fun c b => V14 m (outsOf m) c b
abbrev Vout1 : (c : Dev nD) → (b : Ref sig .tc) → Buf (Elt F) ((c : Thread nD τ).loc b) := fun c b => V28 m (outsOf m) c b

/-! ## The proof data family and the thread state -/

/-- Every pipeline's proof data, each at its region's entry contents: a literal `match`, so that the proof data at a
    numeral reduces to the region's. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

abbrev 𝒱n : Variants := Variants.none
/-- No core owes another anything: no level is assigned. -/
abbrev Ln : GSem nD τ sig → Finset Unit := fun _ => ∅
abbrev lvn : GSem nD τ sig → Unit → ℕ := fun _ _ => 0
/-- What rides beside the buffers through every segment: the core's generator register at some state and its dues, at
    nothing. -/
abbrev Rc (c : Dev nD) : sProp 𝕄 := iprop((∃ r, prngReg c r) ∗ ∃ W, owes (c : Thread nD τ) (0 : CellTallies nD τ sig Unit) W)

/-! ## The regions' exits: each array at what the pipeline leaves, every other buffer as entered -/

/-- An input window's array ends as entered, and region 0 does not write it. -/
theorem hF0_in (c : Dev nD) (w : Fin cfg0.W) (hw : (cfg0.win w).isOut = false)
    (hne : Pipeline.arrRef spec0 w ∉ ([main_v98] : List (Ref sig .tc))) :
    (pdats m 0 c).arrAt w cfg0.N = Vout0 m c (Pipeline.arrRef spec0 w) :=
  ((pdats m 0 c).arrAt_in w hw _).trans ((A_eq0 (Vin0 m) c w).trans (V14_of m (outsOf m) c _ hne).symm)

theorem hF0 (c : Dev nD) : ∀ w : Fin cfg0.W, (pdats m 0 c).arrAt w cfg0.N = Vout0 m c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => hF0_in m c 5 rfl (by decide)
  | ⟨6, _⟩ => ((V14_out m (outsOf m) c).trans (outs14 m c)).symm

theorem hrest0 (c : Dev nD) : ∀ b, b ∉ Finset.univ.image (Pipeline.arrRef spec0) → Vout0 m c b = Vin0 m c b :=
  fun b hb => V14_of m (outsOf m) c b fun h =>
    hb (Finset.mem_image.mpr ⟨6, Finset.mem_univ _, (List.mem_singleton.mp h).symm⟩)

/-- An input window's array ends as entered, and region 1 does not write it. -/
theorem hF1_in (c : Dev nD) (w : Fin cfg1.W) (hw : (cfg1.win w).isOut = false)
    (hne : Pipeline.arrRef spec1 w ∉ ([main_v192] : List (Ref sig .tc))) :
    (pdats m 1 c).arrAt w cfg1.N = Vout1 m c (Pipeline.arrRef spec1 w) :=
  ((pdats m 1 c).arrAt_in w hw _).trans ((A_eq1 (Vin1 m) c w).trans (V28_of m (outsOf m) c _ hne).symm)

theorem hF1 (c : Dev nD) : ∀ w : Fin cfg1.W, (pdats m 1 c).arrAt w cfg1.N = Vout1 m c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => hF1_in m c 6 rfl (by decide)
  | ⟨7, _⟩ => hF1_in m c 7 rfl (by decide)
  | ⟨8, _⟩ => ((V28_out m (outsOf m) c).trans (outs28 m c)).symm

theorem hrest1 (c : Dev nD) : ∀ b, b ∉ Finset.univ.image (Pipeline.arrRef spec1) → Vout1 m c b = Vin1 m c b :=
  fun b hb => V28_of m (outsOf m) c b fun h =>
    hb (Finset.mem_image.mpr ⟨8, Finset.mem_univ _, (List.mem_singleton.mp h).symm⟩)

/-! ## The regions as segments -/

set_option backward.isDefEq.respectTransparency.types false in
/-- REGION 0 over the thread state: entered from every unscoped buffer at the valuation before it, left at the one after
    it. Its arrays are split out of the unscoped buffers and put back at the exit contents; the generator register goes
    into the pipeline's invariant and comes out; nothing is owed; the kernel has no semaphore of its own. -/
def reg0 : Pipeline.RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Ln lvn 0 fun _ _ => rfl
  pre c := iprop(StableHlo.held (c : Thread nD τ) (Pipeline.ucRefs τ sig) (V13 m c) ∗ Rc c)
  post c := iprop(StableHlo.held (c : Thread nD τ) (Pipeline.ucRefs τ sig) (V14 m (outsOf m) c) ∗ Rc c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the valuation before it, left at the one after
    it. Its arrays are split out of the unscoped buffers and put back at the exit contents; the generator register goes
    into the pipeline's invariant and comes out; nothing is owed; the kernel has no semaphore of its own. -/
def reg1 : Pipeline.RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Ln lvn 1 fun _ _ => rfl
  pre c := iprop(StableHlo.held (c : Thread nD τ) (Pipeline.ucRefs τ sig) (V27 m (outsOf m) c) ∗ Rc c)
  post c := iprop(StableHlo.held (c : Thread nD τ) (Pipeline.ucRefs τ sig) (V28 m (outsOf m) c) ∗ Rc c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- @main from any memory `m` with zero counters, on the compiled mesh: every weakly fair execution terminates, and every
    final memory holds the result buffer `main_v193` at the last valuation's contents — the host stretches folded from the
    launch memory, each region's output at what its pipeline leaves (`outsOf`) — and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v193) = V29 m (outsOf m) c main_v193
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_val m (Ix := Unit) (U := UR sig nD τ) (Lvl := ℕ) emb₁ () 𝒱n Ln lvn (fun _ _ => rfl) ρ (outsOf m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rc c)
    (hE0 := by
      refine Pipeline.initEach Ln lvn fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Run

end Cert.Kernel.Hand

end
-- ==== Proof.KI.Defs0.lean ====
/- Region 0 of @main (the first pallas_call, the relu layer), at a PARAMETER `V`: the core's buffer contents when the
   region is entered. This module holds the definitions: each window's block at a grid point, the rectangles the body
   loads and stores through, the contents the body leaves in the output window's buffer as a function of the input
   blocks, and the pipeline's proof data with its projections. The obligations over them are in the next module. -/
import proofs.«176711_j5789615915676_2_alg».proof.Proof.Gen.KernelIdeal.Launch
import proofs.«176711_j5789615915676_2_alg».proof.Proof.Gen.KernelIdeal.Skeleton
import proofs.«176711_j5789615915676_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents is decided by a structural recursion on the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and the one store go through a literal unit-stride rectangle -/

/-- A whole 2000×256 block (the three message blocks, and the output block). -/
abbrev rBlk : Rect S2000x256 := Rect.unit (s := S2000x256) ![0, 0] S2000x256.size inb_S2000x256_S2000x256_0_0
/-- The whole 2000×3 block of per-relation scales. -/
abbrev rScl : Rect S2000x3 := Rect.unit (s := S2000x3) ![0, 0] S2000x3.size inb_S2000x3_S2000x3_0_0
/-- Relation `k`'s 256×256 weight slab of the 3×256×256 weights. -/
abbrev rW0 : Rect S3x256x256 := Rect.unit (s := S3x256x256) ![0, 0, 0] S1x256x256.size inb_S3x256x256_S1x256x256_0_0_0
abbrev rW1 : Rect S3x256x256 := Rect.unit (s := S3x256x256) ![1, 0, 0] S1x256x256.size inb_S3x256x256_S1x256x256_1_0_0
abbrev rW2 : Rect S3x256x256 := Rect.unit (s := S3x256x256) ![2, 0, 0] S1x256x256.size inb_S3x256x256_S1x256x256_2_0_0
/-- Relation `k`'s bias row of the 3×256 biases. -/
abbrev rB0 : Rect S3x256 := Rect.unit (s := S3x256) ![0, 0] S1x256.size inb_S3x256_S1x256_0_0
abbrev rB1 : Rect S3x256 := Rect.unit (s := S3x256) ![1, 0] S1x256.size inb_S3x256_S1x256_1_0
abbrev rB2 : Rect S3x256 := Rect.unit (s := S3x256) ![2, 0] S1x256.size inb_S3x256_S1x256_2_0

/-! ## What the body leaves in the output window's buffer -/

/-- Window 6's staging buffer after the body, from the six input windows' blocks: the body's one store, of the whole
    block, of the relu of the mean over the three relations of (scaled messages × weights + bias). -/
def out0_6 (x0 x1 x2 : Vec F S2000x256 .f32) (x3 : Vec F S2000x3 .f32) (x4 : Vec F S3x256x256 .f32) (x5 : Vec F S3x256 .f32) :
    Vec F S2000x256 .f32 :=
  View.canon [⟨rBlk, k0_pay1
    (k0_pay3 (View.ld x3 rScl) (View.ld x0 rBlk) (View.ld x4 rW0) (View.ld x5 rB0) (View.ld x1 rBlk) (View.ld x4 rW1) (View.ld x5 rB1))
    (k0_pay4 (View.ld x2 rBlk)) (k0_pay5 (View.ld x3 rScl)) (View.ld x4 rW2) (View.ld x5 rB2)⟩]

/-- The one store is of the whole block, so it covers the buffer. -/
theorem cover0_6 (p0 : Vec F S2000x256 .f32) (y : S2000x256.Idx) :
    ∃ pc ∈ ([⟨rBlk, p0⟩] : List (View.Piece (Elt F) S2000x256 .f32)), y ∈ pc.1.set :=
  View.cover_of_tiled [⟨rBlk, p0⟩] S2000x256.size (by rfl) y

/-! ## The pipeline's proof data -/

/-- The proof data of pipeline 0 on core `c`: the arrays as the region finds them (`V`); after the body at point `t`
    each input's buffer at its block and the output's at `out0_6` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]

end Region0

end Cert.KernelIdeal.Hand

end
-- ==== Proof.KI.Region0.lean ====
/- Region 0 of @main at a parameter `V` (the core's buffer contents when the region is entered): what the body finds in
   each input window's buffer, the body's triple, and the pipeline's body obligation, over the definitions of the
   previous module. -/
import proofs.«176711_j5789615915676_2_alg».proof.Proof.KI.Defs0

-- membership in a rectangle of the block's extents is decided by a structural recursion on the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
section Region0

variable (V : (c : Dev nD) → (b : Ref sig .tc) → Buf (Elt F) ((c : Thread nD τ).loc b))

/-! ## What the body finds in each input window's buffer -/

/-- Input window 0's current staging buffer holds its block at every point, fetched there or not, for any proof data
    whose array is `V`'s (`hA`) and whose body leaves the block in place (`hafter`): where the window is not fetched its
    block index has not moved, so the block already there is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is `V`'s (`hA`) and whose body leaves the block in place (`hafter`): where the window is not fetched its
    block index has not moved, so the block already there is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is `V`'s (`hA`) and whose body leaves the block in place (`hafter`): where the window is not fetched its
    block index has not moved, so the block already there is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof data
    whose array is `V`'s (`hA`) and whose body leaves the block in place (`hafter`): where the window is not fetched its
    block index has not moved, so the block already there is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof data
    whose array is `V`'s (`hA`) and whose body leaves the block in place (`hafter`): where the window is not fetched its
    block index has not moved, so the block already there is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof data
    whose array is `V`'s (`hA`) and whose body leaves the block in place (`hafter`): where the window is not fetched its
    block index has not moved, so the block already there is this point's. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 4000000 in
/-- The kernel body on whole staging memrefs, the inputs' at read contents `xW` and the output's at anything, runs to the
    continuation holding the inputs' as they were and the output's at `out0_6` of the inputs': the body is a sequence of
    loads through literal rectangles and one store of the whole block, run statement by statement. -/
theorem sound_kernel0 (c : Dev nD) (E : Set ℕ) (i : grid0.Coords) (arg1 : Memref sig .tc .vmem S2000x256 .f32) (harg1 : arg1.IsWhole) (arg2 : Memref sig .tc .vmem S2000x256 .f32) (harg2 : arg2.IsWhole) (arg3 : Memref sig .tc .vmem S2000x256 .f32) (harg3 : arg3.IsWhole) (arg4 : Memref sig .tc .vmem S2000x3 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S2000x256 .f32) (harg7 : arg7.IsWhole)
    (x0 : Vec F S2000x256 .f32) (x1 : Vec F S2000x256 .f32) (x2 : Vec F S2000x256 .f32) (x3 : Vec F S2000x3 .f32) (x4 : Vec F S3x256x256 .f32) (x5 : Vec F S3x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__rgcn_layer_relu_kernel i arg1 harg1 arg2 harg2 arg3 harg3 arg4 harg4 arg5 harg5 arg6 harg6 arg7 harg7) K := by
  simp only [cc0__rgcn_layer_relu_kernel_eq_skeleton]; unfold cc0__rgcn_layer_relu_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Defs1.lean ====
/- Region 1 of @main (the second pallas_call, the final layer with its output projection), at a PARAMETER `V`: the
   core's buffer contents when the region is entered. This module holds the definitions: each window's block at a grid
   point, the rectangles the body loads and stores through (those of region 0, and three more), the contents the body
   leaves in the output window's buffer as a function of the input blocks, and the pipeline's proof data with its
   projections. The obligations over them are in the next module. -/
import proofs.«176711_j5789615915676_2_alg».proof.Proof.KI.Defs0

-- membership in a rectangle of the block's extents is decided by a structural recursion on the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: those of region 0's body, and -/

/-- the whole 256×384 projection weights, -/
abbrev rPw : Rect S256x384 := Rect.unit (s := S256x384) ![0, 0] S256x384.size inb_S256x384_S256x384_0_0
/-- the whole 1×384 projection bias, -/
abbrev rPb : Rect S1x384 := Rect.unit (s := S1x384) ![0, 0] S1x384.size inb_S1x384_S1x384_0_0
/-- and the whole 2000×384 output block. -/
abbrev rOut : Rect S2000x384 := Rect.unit (s := S2000x384) ![0, 0] S2000x384.size inb_S2000x384_S2000x384_0_0

/-! ## What the body leaves in the output window's buffer -/

/-- Window 8's staging buffer after the body, from the eight input windows' blocks: the body's one store, of the whole
    block, of the projection of the mean over the three relations of (scaled messages × weights + bias). -/
def out1_8 (x0 x1 x2 : Vec F S2000x256 .f32) (x3 : Vec F S2000x3 .f32) (x4 : Vec F S3x256x256 .f32) (x5 : Vec F S3x256 .f32)
    (x6 : Vec F S256x384 .f32) (x7 : Vec F S1x384 .f32) : Vec F S2000x384 .f32 :=
  View.canon [⟨rOut, k1_pay1
    (k1_pay3 (View.ld x3 rScl) (View.ld x0 rBlk) (View.ld x4 rW0) (View.ld x5 rB0) (View.ld x1 rBlk) (View.ld x4 rW1) (View.ld x5 rB1))
    (k1_pay4 (View.ld x2 rBlk)) (k1_pay5 (View.ld x3 rScl)) (View.ld x4 rW2) (View.ld x5 rB2) (View.ld x6 rPw) (View.ld x7 rPb)⟩]

/-- The one store is of the whole block, so it covers the buffer. -/
theorem cover1_8 (p0 : Vec F S2000x384 .f32) (y : S2000x384.Idx) :
    ∃ pc ∈ ([⟨rOut, p0⟩] : List (View.Piece (Elt F) S2000x384 .f32)), y ∈ pc.1.set :=
  View.cover_of_tiled [⟨rOut, p0⟩] S2000x384.size (by rfl) y

/-! ## The pipeline's proof data -/

/-- The proof data of pipeline 1 on core `c`: the arrays as the region finds them (`V`); after the body at point `t`
    each input's buffer at its block and the output's at `out1_8` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t =
    out1_8 (iblk1 V c 0 t) (iblk1 V c 1 t) (iblk1 V c 2 t) (iblk1 V c 3 t) (iblk1 V c 4 t) (iblk1 V c 5 t) (iblk1 V c 6 t) (iblk1 V c 7 t) := by dsimp only [dat1]

end Region1

end Cert.KernelIdeal.Hand

end
-- ==== Proof.KI.Region1.lean ====
/- Region 1 of @main at a parameter `V` (the core's buffer contents when the region is entered): what the body finds in
   each input window's buffer, the body's triple, and the pipeline's body obligation, over the definitions of the
   previous module. -/
import proofs.«176711_j5789615915676_2_alg».proof.Proof.KI.Defs1

-- membership in a rectangle of the block's extents is decided by a structural recursion on the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
section Region1

variable (V : (c : Dev nD) → (b : Ref sig .tc) → Buf (Elt F) ((c : Thread nD τ).loc b))

/-! ## What the body finds in each input window's buffer -/

/-- Input window 0's current staging buffer holds its block at every point, fetched there or not, for any proof data
    whose array is `V`'s (`hA`) and whose body leaves the block in place (`hafter`): where the window is not fetched its
    block index has not moved, so the block already there is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is `V`'s (`hA`) and whose body leaves the block in place (`hafter`): where the window is not fetched its
    block index has not moved, so the block already there is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is `V`'s (`hA`) and whose body leaves the block in place (`hafter`): where the window is not fetched its
    block index has not moved, so the block already there is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is `V`'s (`hA`) and whose body leaves the block in place (`hafter`): where the window is not fetched its
    block index has not moved, so the block already there is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is `V`'s (`hA`) and whose body leaves the block in place (`hafter`): where the window is not fetched its
    block index has not moved, so the block already there is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof data
    whose array is `V`'s (`hA`) and whose body leaves the block in place (`hafter`): where the window is not fetched its
    block index has not moved, so the block already there is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof data
    whose array is `V`'s (`hA`) and whose body leaves the block in place (`hafter`): where the window is not fetched its
    block index has not moved, so the block already there is this point's. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for any proof data
    whose array is `V`'s (`hA`) and whose body leaves the block in place (`hafter`): where the window is not fetched its
    block index has not moved, so the block already there is this point's. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 4000000 in
/-- The kernel body on whole staging memrefs, the inputs' at read contents `xW` and the output's at anything, runs to the
    continuation holding the inputs' as they were and the output's at `out1_8` of the inputs': the body is a sequence of
    loads through literal rectangles and one store of the whole block, run statement by statement. -/
theorem sound_kernel1 (c : Dev nD) (E : Set ℕ) (i : grid1.Coords) (arg1 : Memref sig .tc .vmem S2000x256 .f32) (harg1 : arg1.IsWhole) (arg2 : Memref sig .tc .vmem S2000x256 .f32) (harg2 : arg2.IsWhole) (arg3 : Memref sig .tc .vmem S2000x256 .f32) (harg3 : arg3.IsWhole) (arg4 : Memref sig .tc .vmem S2000x3 .f32) (harg4 : arg4.IsWhole) (arg5 : Memref sig .tc .vmem S3x256x256 .f32) (harg5 : arg5.IsWhole) (arg6 : Memref sig .tc .vmem S3x256 .f32) (harg6 : arg6.IsWhole) (arg7 : Memref sig .tc .vmem S256x384 .f32) (harg7 : arg7.IsWhole) (arg8 : Memref sig .tc .vmem S1x384 .f32) (harg8 : arg8.IsWhole) (arg9 : Memref sig .tc .vmem S2000x384 .f32) (harg9 : arg9.IsWhole)
    (x0 : Vec F S2000x256 .f32) (x1 : Vec F S2000x256 .f32) (x2 : Vec F S2000x256 .f32) (x3 : Vec F S2000x3 .f32) (x4 : Vec F S3x256x256 .f32) (x5 : Vec F S3x256 .f32) (x6 : Vec F S256x384 .f32) (x7 : Vec F S1x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__rgcn_final_kernel i arg1 harg1 arg2 harg2 arg3 harg3 arg4 harg4 arg5 harg5 arg6 harg6 arg7 harg7 arg8 harg8 arg9 harg9) K := by
  simp only [cc1__rgcn_final_kernel_eq_skeleton]; unfold cc1__rgcn_final_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/- THE RUN of @main: its 29 items as segments, the two regions entered at the valuations the host stretches leave, and the
   result's value read off the last valuation. First the run over any region records and any contents the regions leave,
   with the result buffer kept in the post; then the contents the regions really leave (each pipeline's output array after
   its last write-back), the proof data family, the two region records, and the run at them. -/
import proofs.«176711_j5789615915676_2_alg».proof.Proof.KI.Region0
import proofs.«176711_j5789615915676_2_alg».proof.Proof.KI.Region1
import proofs.«176711_j5789615915676_2_alg».proof.Proof.Gen.KernelIdeal.Regions

-- membership in a rectangle of the block's extents is decided by a structural recursion on the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

section FrameVal

variable (m : (ℓ : Loc nD τ sig) → Buf (Elt F) ℓ)

set_option backward.isDefEq.respectTransparency.types false in
/-- The run of @main over its segments, with the RESULT's value kept: for any rest states `E` the launch makes on every
    core at once (`hE0`) and that end owing nothing (`hE2`), any contents the regions leave (`outs`) and any proof data,
    given per region a segment record entered from the thread state before it and left at the one after it, every weakly
    fair execution of @main from memory `m` with zero counters terminates, and every final memory holds the result buffer
    at the last valuation's contents and each argument as launched. The host stretches, the chaining and the launch's
    first thread state are those of the conditional frame; the last thread state is read at the result as well. -/
theorem frame_val {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V27 m outs c) ∗ E 1 c) ⊢ R1.pre c)
    (hpost1 : ∀ c : Dev nD, R1.post c ⊢ iprop(StableHlo.held (c : Thread nD τ) (Pipeline.ucRefs τ sig) (V28 m outs c) ∗ E 2 c)) :
    θ_run defs (onTc (τ := τ) (main (F := F))) ⟨m, fun _ => 0, ρ⟩ (fun r => ∀ c : Dev nD,
      r.2.mem ((c.tc : Thread nD τ).loc main_v193) = V29 m outs c main_v193
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V29 m outs c))
    (hch := fun c => ⟨.rfl, .rfl, .rfl, .rfl, .rfl, .rfl, .rfl, .rfl, .rfl, .rfl, .rfl, .rfl, .rfl, hpre0 c, hpost0 c, .rfl, .rfl, .rfl, .rfl, .rfl, .rfl, .rfl, .rfl, .rfl, .rfl, .rfl, .rfl, hpre1 c, hpost1 c, sep_mono .rfl (hE2 c)⟩)
    (hinit := ?_) (QY := fun c s => s.mem ((c.tc : Thread nD τ).loc main_v193) = V29 m outs c main_v193 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V29 m outs c) s') $$ [Hh HSI]
    · isplitl [Hh] <;> iassumption
    icases Hr with ⟨%h, HSI⟩
    imodintro
    isplitr
    · ipureintro
      exact ⟨h (Proc.devRef .tc main_v193) (Finset.mem_filter.mpr ⟨StableHlo.devRef_mem_tcRefs main_v193, by decide⟩),
        (h (Proc.devRef .tc main_arg0) (Finset.mem_filter.mpr ⟨StableHlo.devRef_mem_tcRefs main_arg0, by decide⟩)).trans (V29_main_arg0 m outs c),
        (h (Proc.devRef .tc main_arg1) (Finset.mem_filter.mpr ⟨StableHlo.devRef_mem_tcRefs main_arg1, by decide⟩)).trans (V29_main_arg1 m outs c),
        (h (Proc.devRef .tc main_arg2) (Finset.mem_filter.mpr ⟨StableHlo.devRef_mem_tcRefs main_arg2, by decide⟩)).trans (V29_main_arg2 m outs c),
        (h (Proc.devRef .tc main_arg3) (Finset.mem_filter.mpr ⟨StableHlo.devRef_mem_tcRefs main_arg3, by decide⟩)).trans (V29_main_arg3 m outs c),
        (h (Proc.devRef .tc main_arg4) (Finset.mem_filter.mpr ⟨StableHlo.devRef_mem_tcRefs main_arg4, by decide⟩)).trans (V29_main_arg4 m outs c),
        (h (Proc.devRef .tc main_arg5) (Finset.mem_filter.mpr ⟨StableHlo.devRef_mem_tcRefs main_arg5, by decide⟩)).trans (V29_main_arg5 m outs c)⟩
    · iexact HSI

end FrameVal

section Run

variable (m : (ℓ : Loc nD τ sig) → Buf (Elt F) ℓ)

/-! ## What the two regions leave

The valuations between @main's items are written over unknowns `outs`: what region 0 leaves in `main_v98` and what
region 1 leaves in `main_v192`. Here they are named: each is its pipeline's output array after the last write-back, the
pipeline's proof data taken at the region's entry contents. Region 1's entry contents read region 0's result, so the two
are defined in that order. -/

/-- Region 0's entry contents, read at the TensorCore's references. -/
abbrev Vin0 : (c : Dev nD) → (b : Ref sig .tc) → Buf (Elt F) ((c : Thread nD τ).loc b) := fun c b => V13 m c b

/-- The buffers after region 0: `main_v98` at the output array's final contents, the rest as entered. -/
def W14 (c : Dev nD) : Valuation τ sig (Elt F) :=
  Function.update (V13 m c) main_v98 ((dat0 (fun c b => V13 m c b) c).arrAt 6 cfg0.N)

/-- The unknowns with only region 0's named. -/
def outsA : Outs (F := F) := fun _ r c => W14 m c r

/-- Region 1's entry contents over region 0's result alone, read at the TensorCore's references. -/
abbrev VinA : (c : Dev nD) → (b : Ref sig .tc) → Buf (Elt F) ((c : Thread nD τ).loc b) := fun c b => V27 m (outsA m) c b

/-- The buffers after region 1: `main_v192` at the output array's final contents, the rest as entered. -/
def W28 (c : Dev nD) : Valuation τ sig (Elt F) :=
  Function.update (V27 m (outsA m) c) main_v192 ((dat1 (VinA m) c).arrAt 8 cfg1.N)

/-- What the regions leave: after item 27 region 1's result, before it region 0's. -/
def outsOf : Outs (F := F) := fun J r c => if J = 28 then W28 m c r else W14 m c r

theorem outsOf_14 (c : Dev nD) : outsOf m 14 main_v98 c = outsA m 14 main_v98 c := by
  unfold outsOf outsA; rw [if_neg (by decide)]

/-- Region 0 leaves in `main_v98` its output array after the last write-back. -/
theorem outs14 (c : Dev nD) : outsOf m 14 main_v98 c = (dat0 (fun c b => V13 m c b) c).arrAt 6 cfg0.N := by
  rw [outsOf_14]; unfold outsA W14
  exact Function.update_self _ _ _

/-- The valuation region 1 is entered from reads the unknowns at region 0's result only. -/
theorem V27_congr (o o' : Outs (F := F)) (h : ∀ c, o 14 main_v98 c = o' 14 main_v98 c) (c : Dev nD) : V27 m o c = V27 m o' c := by
  dsimp only [V27, V26, V25, V24, V23, V22, V21, V20, V19, V18, V17, V16, V15, V14]
  rw [h c]

/-- Region 1's entry contents, read at the TensorCore's references. -/
abbrev Vin1 : (c : Dev nD) → (b : Ref sig .tc) → Buf (Elt F) ((c : Thread nD τ).loc b) := fun c b => V27 m (outsOf m) c b

theorem Vin1_eq : Vin1 m = VinA m :=
  funext fun c => funext fun b => congrFun (V27_congr m (outsOf m) (outsA m) (outsOf_14 m) c) b

/-- Region 1 leaves in `main_v192` its output array after the last write-back. -/
theorem outs28 (c : Dev nD) : outsOf m 28 main_v192 c = (dat1 (fun c b => V27 m (outsOf m) c b) c).arrAt 8 cfg1.N := by
  show outsOf m 28 main_v192 c = (dat1 (Vin1 m) c).arrAt 8 cfg1.N
  rw [Vin1_eq]; unfold outsOf; rw [if_pos rfl]; unfold W28
  exact Function.update_self _ _ _

/-- A region's output buffer holds, in the valuation after it, what the region leaves there. -/
theorem V14_out (o : Outs (F := F)) (c : Dev nD) : V14 m o c main_v98 = o 14 main_v98 c := by
  dsimp only [V14]; exact Function.update_self _ _ _
theorem V28_out (o : Outs (F := F)) (c : Dev nD) : V28 m o c main_v192 = o 28 main_v192 c := by
  dsimp only [V28]; exact Function.update_self _ _ _

/-- The exit contents of the two regions, read at the TensorCore's references. -/
abbrev Vout0 : (c : Dev nD) → (b : Ref sig .tc) → Buf (Elt F) ((c : Thread nD τ).loc b) := fun c b => V14 m (outsOf m) c b
abbrev Vout1 : (c : Dev nD) → (b : Ref sig .tc) → Buf (Elt F) ((c : Thread nD τ).loc b) := fun c b => V28 m (outsOf m) c b

/-! ## The proof data family and the thread state -/

/-- Every pipeline's proof data, each at its region's entry contents: a literal `match`, so that the proof data at a
    numeral reduces to the region's. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

abbrev 𝒱n : Variants := Variants.none
/-- No core owes another anything: no level is assigned. -/
abbrev Ln : GSem nD τ sig → Finset Unit := fun _ => ∅
abbrev lvn : GSem nD τ sig → Unit → ℕ := fun _ _ => 0
/-- What rides beside the buffers through every segment: the core's generator register at some state and its dues, at
    nothing. -/
abbrev Rc (c : Dev nD) : sProp 𝕄 := iprop((∃ r, prngReg c r) ∗ ∃ W, owes (c : Thread nD τ) (0 : CellTallies nD τ sig Unit) W)

/-! ## The regions' exits: each array at what the pipeline leaves, every other buffer as entered -/

/-- An input window's array ends as entered, and region 0 does not write it. -/
theorem hF0_in (c : Dev nD) (w : Fin cfg0.W) (hw : (cfg0.win w).isOut = false)
    (hne : Pipeline.arrRef spec0 w ∉ ([main_v98] : List (Ref sig .tc))) :
    (pdats m 0 c).arrAt w cfg0.N = Vout0 m c (Pipeline.arrRef spec0 w) :=
  ((pdats m 0 c).arrAt_in w hw _).trans ((A_eq0 (Vin0 m) c w).trans (V14_of m (outsOf m) c _ hne).symm)

theorem hF0 (c : Dev nD) : ∀ w : Fin cfg0.W, (pdats m 0 c).arrAt w cfg0.N = Vout0 m c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => hF0_in m c 5 rfl (by decide)
  | ⟨6, _⟩ => ((V14_out m (outsOf m) c).trans (outs14 m c)).symm

theorem hrest0 (c : Dev nD) : ∀ b, b ∉ Finset.univ.image (Pipeline.arrRef spec0) → Vout0 m c b = Vin0 m c b :=
  fun b hb => V14_of m (outsOf m) c b fun h =>
    hb (Finset.mem_image.mpr ⟨6, Finset.mem_univ _, (List.mem_singleton.mp h).symm⟩)

/-- An input window's array ends as entered, and region 1 does not write it. -/
theorem hF1_in (c : Dev nD) (w : Fin cfg1.W) (hw : (cfg1.win w).isOut = false)
    (hne : Pipeline.arrRef spec1 w ∉ ([main_v192] : List (Ref sig .tc))) :
    (pdats m 1 c).arrAt w cfg1.N = Vout1 m c (Pipeline.arrRef spec1 w) :=
  ((pdats m 1 c).arrAt_in w hw _).trans ((A_eq1 (Vin1 m) c w).trans (V28_of m (outsOf m) c _ hne).symm)

theorem hF1 (c : Dev nD) : ∀ w : Fin cfg1.W, (pdats m 1 c).arrAt w cfg1.N = Vout1 m c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => hF1_in m c 6 rfl (by decide)
  | ⟨7, _⟩ => hF1_in m c 7 rfl (by decide)
  | ⟨8, _⟩ => ((V28_out m (outsOf m) c).trans (outs28 m c)).symm

theorem hrest1 (c : Dev nD) : ∀ b, b ∉ Finset.univ.image (Pipeline.arrRef spec1) → Vout1 m c b = Vin1 m c b :=
  fun b hb => V28_of m (outsOf m) c b fun h =>
    hb (Finset.mem_image.mpr ⟨8, Finset.mem_univ _, (List.mem_singleton.mp h).symm⟩)

/-! ## The regions as segments -/

set_option backward.isDefEq.respectTransparency.types false in
/-- REGION 0 over the thread state: entered from every unscoped buffer at the valuation before it, left at the one after
    it. Its arrays are split out of the unscoped buffers and put back at the exit contents; the generator register goes
    into the pipeline's invariant and comes out; nothing is owed; the kernel has no semaphore of its own. -/
def reg0 : Pipeline.RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Ln lvn 0 fun _ _ => rfl
  pre c := iprop(StableHlo.held (c : Thread nD τ) (Pipeline.ucRefs τ sig) (V13 m c) ∗ Rc c)
  post c := iprop(StableHlo.held (c : Thread nD τ) (Pipeline.ucRefs τ sig) (V14 m (outsOf m) c) ∗ Rc c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the valuation before it, left at the one after
    it. Its arrays are split out of the unscoped buffers and put back at the exit contents; the generator register goes
    into the pipeline's invariant and comes out; nothing is owed; the kernel has no semaphore of its own. -/
def reg1 : Pipeline.RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Ln lvn 1 fun _ _ => rfl
  pre c := iprop(StableHlo.held (c : Thread nD τ) (Pipeline.ucRefs τ sig) (V27 m (outsOf m) c) ∗ Rc c)
  post c := iprop(StableHlo.held (c : Thread nD τ) (Pipeline.ucRefs τ sig) (V28 m (outsOf m) c) ∗ Rc c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- @main from any memory `m` with zero counters, on the compiled mesh: every weakly fair execution terminates, and every
    final memory holds the result buffer `main_v193` at the last valuation's contents — the host stretches folded from the
    launch memory, each region's output at what its pipeline leaves (`outsOf`) — and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v193) = V29 m (outsOf m) c main_v193
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_val m (Ix := Unit) (U := UR sig nD τ) (Lvl := ℕ) emb₁ () 𝒱n Ln lvn (fun _ _ => rfl) ρ (outsOf m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rc c)
    (hE0 := by
      refine Pipeline.initEach Ln lvn fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Run

end Cert.KernelIdeal.Hand

end
-- ==== Proof.Spec.lean ====
/-
  The arithmetic both programs compute for one output element, on the extended reals, and the law that joins
  their two spellings.

  One graph-convolution layer, for a node `i` and an output feature `j`: each of the three relations `r` contributes
  `Σ_k (a_r[i,k] · n_r[i]) · W_r[k,j] + b_r[j]` — `a_r` the relation's aggregated neighbour features, `n_r` the
  inverse square root of the node's in-degree, `W_r`, `b_r` the relation's weights and bias — and the layer's
  value is the mean of the three. The reference adds the three contributions, each already with its bias, onto
  zero and divides by three; the kernel accumulates product, bias, product, bias, product, bias onto zero and
  multiplies by the constant one third. Addition on the extended reals is commutative and associative (the
  infinities included), so the two sums agree; dividing by the real three is multiplying by its inverse.
-/
import Idealize.ShloMosaic.PureOps.Ideal

noncomputable section

namespace Cert.Spec

open Idealize.ShloMosaic

/-- One relation's contribution to one output element: the row of aggregated features, scaled by the node's
    normalisation, against one column of the weights, plus the bias. -/
def term (a : Fin 256 → EReal) (n : EReal) (w : Fin 256 → EReal) (b : EReal) : EReal :=
  (∑ k : Fin 256, (a k * n) * w k) + b

/-- The three contributions summed as the reference sums them: each with its bias, one after the other onto zero. -/
def rowSum (a0 a1 a2 : Fin 256 → EReal) (n0 n1 n2 : EReal) (w0 w1 w2 : Fin 256 → EReal) (b0 b1 b2 : EReal) : EReal :=
  ((0 + term a0 n0 w0 b0) + term a1 n1 w1 b1) + term a2 n2 w2 b2

/-- The same three contributions accumulated as the kernel accumulates them: product, bias, product, bias, … onto zero. -/
def rowSumK (a0 a1 a2 : Fin 256 → EReal) (n0 n1 n2 : EReal) (w0 w1 w2 : Fin 256 → EReal) (b0 b1 b2 : EReal) : EReal :=
  (((((0 + ∑ k : Fin 256, (a0 k * n0) * w0 k) + b0) + ∑ k : Fin 256, (a1 k * n1) * w1 k) + b1)
    + ∑ k : Fin 256, (a2 k * n2) * w2 k) + b2

/-- Addition on the extended reals is associative: the two groupings are one sum. -/
theorem rowSumK_eq (a0 a1 a2 : Fin 256 → EReal) (n0 n1 n2 : EReal) (w0 w1 w2 : Fin 256 → EReal) (b0 b1 b2 : EReal) :
    rowSumK a0 a1 a2 n0 n1 n2 w0 w1 w2 b0 b1 b2 = rowSum a0 a1 a2 n0 n1 n2 w0 w1 w2 b0 b1 b2 := by
  unfold rowSumK rowSum term
  simp only [add_assoc]

/-- The mean over the three relations, the kernel's way: times the real one third. -/
def meanK (s : EReal) : EReal := s * ((1 / 3 : ℝ) : EReal)

end Cert.Spec

end
-- ==== Proof.KI.Pay.lean ====
/-
  The two kernel bodies' stored values, each read at one index.

  Both bodies are built from the same few operations: a column of the per-relation normalisations cut out of the
  2000x3 block and repeated along the 256 features; a 1x256 bias row repeated along the 2000 nodes; one 256x256
  slab of the weights viewed as a matrix; and a product of a 2000x256 matrix with a 256xN matrix summed over
  the shared axis into a zero accumulator. At the extended reals each of them reads, at an index (p, q), one
  element of its operand, or the sum over the shared axis of products of elements; the changes of format are
  the identity.

  For a node `p` and a hidden feature `q` both bodies accumulate, onto zero, the three relations' products and
  biases in turn — product, bias, product, bias, product, bias — and multiply by the constant one third. Each
  product is the row of the relation's aggregated features, scaled by the node's normalisation for that relation,
  against column `q` of the relation's weights. The first layer then takes the maximum with zero
  (`pay0_apply`); the second multiplies the row of means by the output weights and adds the output bias
  (`pay1_apply`).
-/
import proofs.«176711_j5789615915676_2_alg».proof.Proof.Gen.KernelIdeal.Skeleton
import proofs.«176711_j5789615915676_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Spec

/-! ## The layout operations -/

/-- An `[a, 1]` column repeated along a second axis of extent `b` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `r` of the 2000x3 block of normalisations, cut out as a 2000x1 column, reads at `(p, 0)` the block at `(p, r)`. -/
theorem norm_col_apply {α : Type} (r : Fin 3) (x : S2000x3.Idx → α) (h : S2000x3.Slices ![0, r.val] S2000x1) (p : Fin 2000) :
    extractStridedSlice S2000x1 ![0, r.val] x h (ix2 p (0 : Fin 1)) = x (ix2 p r) :=
  slice2_axis1_apply r.val x h p (0 : Fin 1) r rfl

/-- A 1x256 row viewed as a 256-vector, viewed again as a 1x256 row and repeated along the 2000 nodes, reads at
    `(p, q)` the row at `q`. -/
theorem bias_row_apply {α : Type} (v : S1x256.Idx → α) (h1 : S1x256.ShapeCasts S256) (h2 : S256.ShapeCasts S1x256)
    (h3 : S1x256.Broadcasts S2000x256) (p : Fin 2000) (q : Fin 256) :
    broadcastTo S2000x256 (shapeCast S1x256 (shapeCast S256 v h1) h2) h3 (ix2 p q) = v (ix2 (0 : Fin 1) q) := by
  rw [shapeCast_shapeCast]
  exact broadcastTo_1b_ab_apply v h3 p q

/-! ## The products -/

section Products

/-- Off the shared axis, the left operand's index under the 2000x256 by 256x256 product is the output's row … -/
theorem lhs256_0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- … and the right operand's the output's column. -/
theorem rhs256_1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The product of a 2000x256 matrix with a 256x256 matrix into the zero accumulator reads, at `(p, q)`, the sum
    over the shared axis of row `p` against column `q`. -/
theorem mm256_apply {φ₁ φ₂ : FTy} (a : FVec Ideal S2000x256 φ₁) (b : FVec Ideal S256x256 φ₂) (p : Fin 2000) (q : Fin 256) :
    matmul dot_S2000x256_S256x256_S2000x256_1_0_0_1_n_n none a b (constant (F := Ideal) S2000x256 .f32 0x00000000#32) (ix2 p q)
      = ∑ k : Fin 256, a (ix2 p k) * b (ix2 k q) := by
  simp only [matmul]
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun ax => Fin.ext (by
      match ax with
      | ⟨0, _⟩ => exact lhs256_0 _ _
      | ⟨1, _⟩ => exact (dot_S2000x256_S256x256_S2000x256_1_0_0_1_n_n.lhsIdx_val_of_single rfl _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun ax => Fin.ext (by
      match ax with
      | ⟨0, _⟩ => exact (dot_S2000x256_S256x256_S2000x256_1_0_0_1_n_n.rhsIdx_val_of_single rfl _ _).trans hk
      | ⟨1, _⟩ => exact rhs256_1 _ _)
  rw [el, er]

end Products

/-! ## One relation's product -/

/-- One relation's product: the relation's aggregated features (through the identity view), each row scaled by
    column `r` of the normalisations repeated along the features, against slab 0 of the weights viewed as a
    matrix, into the zero accumulator. At `(p, q)` it is the sum over `k` of
    `(a[p, k] · n[p, r]) · w[0, k, q]` — the changes of format are the identity on extended reals. -/
theorem rel_apply (o : ℕ) (r : Fin 3) (hr : r.val = o)
    (a : Vec Ideal S2000x256 .f32) (n : Vec Ideal S2000x3 .f32) (w : Vec Ideal S1x256x256 .f32)
    (ha : S2000x256.ShapeCasts S2000x256) (hn : S2000x3.ShapeCasts S2000x3) (hs : S2000x3.Slices ![0, o] S2000x1)
    (hb : S2000x1.Broadcasts S2000x256) (hw : S1x256x256.ShapeCasts S256x256) (ht : FTy.bits .bf16 < FTy.bits .f32)
    (p : Fin 2000) (q : Fin 256) :
    matmul dot_S2000x256_S256x256_S2000x256_1_0_0_1_n_n none
        (truncf .bf16 (mulf (shapeCast S2000x256 a ha)
          (broadcastTo S2000x256 (extractStridedSlice S2000x1 ![0, o] (shapeCast S2000x3 n hn) hs) hb)) ht)
        (truncf .bf16 (shapeCast S256x256 w hw) ht)
        (constant (F := Ideal) S2000x256 .f32 0x00000000#32) (ix2 p q)
      = ∑ k : Fin 256, (a (ix2 p k) * n (ix2 p r)) * w (ix3 (0 : Fin 1) k q) := by
  subst hr
  refine (mm256_apply _ _ p q).trans (Finset.sum_congr rfl fun k _ => ?_)
  rw [truncf_apply, truncf_apply, mulf_apply, shapeCast_self, shapeCast_self, broadcastTo_a1_ab_apply, norm_col_apply,
    shapeCast_1ab_ab_apply]

/-- One relation's product with the scaling column given as a 2000x1 column: at `(p, q)` the sum over `k` of
    `(a[p, k] · c[p, 0]) · w[0, k, q]`. -/
theorem rel_col_apply (a : FVec Ideal S2000x256 .f32) (c : FVec Ideal S2000x1 .f32) (w : Vec Ideal S1x256x256 .f32)
    (hb : S2000x1.Broadcasts S2000x256) (hw : S1x256x256.ShapeCasts S256x256) (ht : FTy.bits .bf16 < FTy.bits .f32)
    (p : Fin 2000) (q : Fin 256) :
    matmul dot_S2000x256_S256x256_S2000x256_1_0_0_1_n_n none
        (truncf .bf16 (mulf a (broadcastTo S2000x256 c hb)) ht)
        (truncf .bf16 (shapeCast S256x256 w hw) ht)
        (constant (F := Ideal) S2000x256 .f32 0x00000000#32) (ix2 p q)
      = ∑ k : Fin 256, (a (ix2 p k) * c (ix2 p (0 : Fin 1))) * w (ix3 (0 : Fin 1) k q) := by
  refine (mm256_apply _ _ p q).trans (Finset.sum_congr rfl fun k _ => ?_)
  rw [truncf_apply, truncf_apply, mulf_apply, broadcastTo_a1_ab_apply, shapeCast_1ab_ab_apply]

/-- Off the shared axis, the left operand's index under the 2000x256 by 256x384 product is the output's row … -/
theorem lhs384_0 (i : S2000x384.Idx) (c : dot_S2000x256_S256x384_S2000x384_1_0_0_1_n_n.contr.Idx) :
    (dot_S2000x256_S256x384_S2000x384_1_0_0_1_n_n.lhsIdx i c 0).val = (i 0).val := by
  unfold DotDims.lhsIdx
  rw [dif_neg (show ¬(0 : Fin S2000x256.rank) ∈ dot_S2000x256_S256x384_S2000x384_1_0_0_1_n_n.lhsBatch by decide),
    dif_pos (show (0 : Fin S2000x256.rank) ∈ dot_S2000x256_S256x384_S2000x384_1_0_0_1_n_n.lhsNonContracting by decide)]
  rfl

/-- … and the right operand's the output's column. -/
theorem rhs384_1 (i : S2000x384.Idx) (c : dot_S2000x256_S256x384_S2000x384_1_0_0_1_n_n.contr.Idx) :
    (dot_S2000x256_S256x384_S2000x384_1_0_0_1_n_n.rhsIdx i c 1).val = (i 1).val := by
  unfold DotDims.rhsIdx
  rw [dif_neg (show ¬(1 : Fin S256x384.rank) ∈ dot_S2000x256_S256x384_S2000x384_1_0_0_1_n_n.rhsBatch by decide),
    dif_pos (show (1 : Fin S256x384.rank) ∈ dot_S2000x256_S256x384_S2000x384_1_0_0_1_n_n.rhsNonContracting by decide)]
  rfl

/-- The product of a 2000x256 matrix with a 256x384 matrix into the zero accumulator reads, at `(p, q)`, the sum
    over the shared axis of row `p` against column `q`. -/
theorem mm384_apply {φ₁ φ₂ : FTy} (a : FVec Ideal S2000x256 φ₁) (b : FVec Ideal S256x384 φ₂) (p : Fin 2000) (q : Fin 384) :
    matmul dot_S2000x256_S256x384_S2000x384_1_0_0_1_n_n none a b (constant (F := Ideal) S2000x384 .f32 0x00000000#32) (ix2 p q)
      = ∑ k : Fin 256, a (ix2 p k) * b (ix2 k q) := by
  simp only [matmul]
  rw [Ideal.matmul_constant_zero_apply,
    ← Equiv.sum_comp (contrEquiv1 dot_S2000x256_S256x384_S2000x384_1_0_0_1_n_n 256 rfl rfl).symm]
  refine Finset.sum_congr rfl fun k _ => ?_
  have hk := contrEquiv1_symm_val dot_S2000x256_S256x384_S2000x384_1_0_0_1_n_n 256 rfl rfl k
  have el : dot_S2000x256_S256x384_S2000x384_1_0_0_1_n_n.lhsIdx (ix2 p q)
      ((contrEquiv1 dot_S2000x256_S256x384_S2000x384_1_0_0_1_n_n 256 rfl rfl).symm k) = ix2 p k :=
    funext fun ax => Fin.ext (by
      match ax with
      | ⟨0, _⟩ => exact lhs384_0 _ _
      | ⟨1, _⟩ => exact (dot_S2000x256_S256x384_S2000x384_1_0_0_1_n_n.lhsIdx_val_of_single rfl _ _).trans hk)
  have er : dot_S2000x256_S256x384_S2000x384_1_0_0_1_n_n.rhsIdx (ix2 p q)
      ((contrEquiv1 dot_S2000x256_S256x384_S2000x384_1_0_0_1_n_n 256 rfl rfl).symm k) = ix2 k q :=
    funext fun ax => Fin.ext (by
      match ax with
      | ⟨0, _⟩ => exact (dot_S2000x256_S256x384_S2000x384_1_0_0_1_n_n.rhsIdx_val_of_single rfl _ _).trans hk
      | ⟨1, _⟩ => exact rhs384_1 _ _)
  rw [el, er]

/-! ## The mean of the three relations -/

/-- The constant both bodies multiply by is the real one third. -/
theorem inv_3 : Named.named (F := Ideal) Cert.KernelIdeal.κ "inv_3" (φ := .f32) 0x3EAAAAAB#32 = ((1 / 3 : ℝ) : EReal) :=
  IdealRules.named_const.ideal_named_scalar _ _ _ _ rfl

/-- The third relation added to what the first two accumulated, and the mean taken: at `(p, q)` the accumulated
    value plus the third product plus the third bias, times one third. -/
theorem mean_apply (acc a : FVec Ideal S2000x256 .f32) (c : FVec Ideal S2000x1 .f32) (w : Vec Ideal S1x256x256 .f32)
    (b : Vec Ideal S1x256 .f32) (hb : S2000x1.Broadcasts S2000x256) (hw : S1x256x256.ShapeCasts S256x256)
    (ht : FTy.bits .bf16 < FTy.bits .f32) (h1 : S1x256.ShapeCasts S256) (h2 : S256.ShapeCasts S1x256)
    (h3 : S1x256.Broadcasts S2000x256) (p : Fin 2000) (q : Fin 256) :
    mulf (addf (addf acc (matmul dot_S2000x256_S256x256_S2000x256_1_0_0_1_n_n none
            (truncf .bf16 (mulf a (broadcastTo S2000x256 c hb)) ht)
            (truncf .bf16 (shapeCast S256x256 w hw) ht)
            (constant (F := Ideal) S2000x256 .f32 0x00000000#32)))
          (broadcastTo S2000x256 (shapeCast S1x256 (shapeCast S256 b h1) h2) h3))
        (broadcast S2000x256 (Named.named (F := Ideal) Cert.KernelIdeal.κ "inv_3" (φ := .f32) 0x3EAAAAAB#32)) (ix2 p q)
      = ((acc (ix2 p q) + ∑ k : Fin 256, (a (ix2 p k) * c (ix2 p (0 : Fin 1))) * w (ix3 (0 : Fin 1) k q))
          + b (ix2 (0 : Fin 1) q)) * ((1 / 3 : ℝ) : EReal) := by
  rw [mulf_apply, addf_apply, addf_apply, broadcast_apply, rel_col_apply, bias_row_apply, inv_3]

/-! ## The first layer -/

/-- The third column of the normalisations, as the body carries it: at `(p, 0)` the block at `(p, 2)`. -/
theorem k0_pay5_apply (v0 : Vec Ideal S2000x3 .f32) (p : Fin 2000) :
    k0_pay5 (F := Ideal) v0 (ix2 p (0 : Fin 1)) = v0 (ix2 p (2 : Fin 3)) := by
  unfold k0_pay5 k0_pay2
  rw [shapeCast_self]
  exact norm_col_apply 2 v0 _ p

/-- The third relation's aggregated features, as the body carries them: unchanged. -/
theorem k0_pay4_eq (v35 : Vec Ideal S2000x256 .f32) : k0_pay4 (F := Ideal) v35 = v35 := by
  unfold k0_pay4
  exact shapeCast_self _ _

/-- The first two relations accumulated onto zero: product, bias, product, bias. -/
theorem k0_pay3_apply (v0 : Vec Ideal S2000x3 .f32) (v3 v19 : Vec Ideal S2000x256 .f32) (v9 v25 : Vec Ideal S1x256x256 .f32)
    (v14 v30 : Vec Ideal S1x256 .f32) (p : Fin 2000) (q : Fin 256) :
    k0_pay3 (F := Ideal) v0 v3 v9 v14 v19 v25 v30 (ix2 p q)
      = (((0 + ∑ k : Fin 256, (v3 (ix2 p k) * v0 (ix2 p (0 : Fin 3))) * v9 (ix3 (0 : Fin 1) k q)) + v14 (ix2 (0 : Fin 1) q))
          + ∑ k : Fin 256, (v19 (ix2 p k) * v0 (ix2 p (1 : Fin 3))) * v25 (ix3 (0 : Fin 1) k q)) + v30 (ix2 (0 : Fin 1) q) := by
  unfold k0_pay3 k0_pay2
  simp only [addf_apply, broadcast_apply]
  rw [rel_apply 0 0 rfl, rel_apply 1 1 rfl, bias_row_apply, bias_row_apply]
  rw [show (Scalar.ofBits (F := Ideal) .f32 0x00000000#32) = (0 : EReal) from Ideal.ofBits_zero_f32]

/-- THE FIRST LAYER'S STORED VALUE at node `p` and feature `q`: the three relations accumulated as the body
    accumulates them, times one third, and the maximum with zero. -/
theorem pay0_apply (v0 : Vec Ideal S2000x3 .f32) (v3 v19 v35 : Vec Ideal S2000x256 .f32)
    (v9 v25 v41 : Vec Ideal S1x256x256 .f32) (v14 v30 v46 : Vec Ideal S1x256 .f32) (p : Fin 2000) (q : Fin 256) :
    k0_pay1 (F := Ideal) (k0_pay3 v0 v3 v9 v14 v19 v25 v30) (k0_pay4 v35) (k0_pay5 v0) v41 v46 (ix2 p q)
      = max (meanK (rowSumK (fun k => v3 (ix2 p k)) (fun k => v19 (ix2 p k)) (fun k => v35 (ix2 p k))
                 (v0 (ix2 p 0)) (v0 (ix2 p 1)) (v0 (ix2 p 2))
                 (fun k => v9 (ix3 0 k q)) (fun k => v25 (ix3 0 k q)) (fun k => v41 (ix3 0 k q))
                 (v14 (ix2 0 q)) (v30 (ix2 0 q)) (v46 (ix2 0 q)))) 0 := by
  unfold k0_pay1
  simp only [maximumf_apply, mulf_apply, addf_apply, broadcast_apply]
  rw [rel_col_apply, bias_row_apply, k0_pay3_apply, inv_3]
  rw [show (Scalar.ofBits (F := Ideal) .f32 0x00000000#32) = (0 : EReal) from Ideal.ofBits_zero_f32]
  simp only [k0_pay4_eq, k0_pay5_apply]
  rfl

/-! ## The second layer -/

/-- The second layer's body carries the same three values as the first's, from the same loads. -/
theorem k1_pay3_eq (v0 : Vec Ideal S2000x3 .f32) (v3 v19 : Vec Ideal S2000x256 .f32) (v9 v25 : Vec Ideal S1x256x256 .f32)
    (v14 v30 : Vec Ideal S1x256 .f32) :
    k1_pay3 (F := Ideal) v0 v3 v9 v14 v19 v25 v30 = k0_pay3 v0 v3 v9 v14 v19 v25 v30 := rfl
theorem k1_pay4_eq (v35 : Vec Ideal S2000x256 .f32) : k1_pay4 (F := Ideal) v35 = k0_pay4 v35 := rfl
theorem k1_pay5_eq (v0 : Vec Ideal S2000x3 .f32) : k1_pay5 (F := Ideal) v0 = k0_pay5 v0 := rfl

/-- THE SECOND LAYER'S STORED VALUE at node `p` and output feature `q`: the hidden layer's mean of the three
    relations at each hidden feature `k` (no maximum with zero here), against column `q` of the output weights,
    summed over `k`, plus the output bias. -/
theorem pay1_apply (v0 : Vec Ideal S2000x3 .f32) (v3 v19 v35 : Vec Ideal S2000x256 .f32)
    (v9 v25 v41 : Vec Ideal S1x256x256 .f32) (v14 v30 v46 : Vec Ideal S1x256 .f32)
    (v54 : Vec Ideal S256x384 .f32) (v58 : Vec Ideal S1x384 .f32) (p : Fin 2000) (q : Fin 384) :
    k1_pay1 (F := Ideal) (k1_pay3 v0 v3 v9 v14 v19 v25 v30) (k1_pay4 v35) (k1_pay5 v0) v41 v46 v54 v58 (ix2 p q)
      = (∑ k : Fin 256, meanK (rowSumK (fun k' => v3 (ix2 p k')) (fun k' => v19 (ix2 p k')) (fun k' => v35 (ix2 p k'))
                 (v0 (ix2 p 0)) (v0 (ix2 p 1)) (v0 (ix2 p 2))
                 (fun k' => v9 (ix3 0 k' k)) (fun k' => v25 (ix3 0 k' k)) (fun k' => v41 (ix3 0 k' k))
                 (v14 (ix2 0 k)) (v30 (ix2 0 k)) (v46 (ix2 0 k))) * v54 (ix2 k q)) + v58 (ix2 0 q) := by
  rw [k1_pay3_eq, k1_pay4_eq, k1_pay5_eq]
  unfold k1_pay1
  refine (addf_apply _ _ _).trans ?_
  refine congrArg₂ (· + ·) ((mm384_apply _ _ p q).trans (Finset.sum_congr rfl fun k _ => ?_)) ?_
  · rw [truncf_apply, truncf_apply, shapeCast_self, mean_apply, k0_pay3_apply]
    simp only [k0_pay4_eq, k0_pay5_apply]
    rfl
  · rw [shapeCast_self]
    exact broadcastTo_1b_ab_apply v58 _ p q

end Cert.KernelIdeal.Pay

end
-- ==== Proof.KI.Final1.lean ====
/-
  The second layer's whole result array.

  At each of the 25 grid points the body leaves in the output window's buffer, at row `p` and output feature `q` of
  the point's 2000-row block, the row of hidden means — for each hidden feature `k` the mean over the three relations
  of (that row of the relation's aggregated features, scaled by the row's normalisation, against column `k` of the
  relation's weights, plus the bias) — against column `q` of the output weights, plus the output bias. The three
  feature blocks and the block of normalisations move with the output's row block, the four parameter arrays are
  whole at every point, and the 25 blocks of 2000 rows fill the 50000 rows: so the array ends holding one
  function `G1` of the eight arrays the region finds, index by index.
-/
import proofs.«176711_j5789615915676_2_alg».proof.Proof.KI.Defs1
import proofs.«176711_j5789615915676_2_alg».proof.Proof.KI.Pay
import proofs.«176711_j5789615915676_2_alg».proof.Proof.Gen.KernelIdeal.Points
import Idealize.ShloMosaic.Lib.Pipeline.Value

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat)

/-! ## The body's result at one index of the block -/

theorem zeros2_1 : (![0, 0] : Fin 2 → Nat) = fun _ => 0 := funext fun a => by fin_cases a <;> rfl

/-- Slab `r` of the 3x256x256 weights, loaded as a 1x256x256 block, reads at `(0, k, q)` the weights at `(r, k, q)`. -/
theorem ld_slab_1 {Val : EltTy → Type} {e : EltTy} (o : ℕ) (r : Fin 3) (hr : r.val = o) (X : S3x256x256.Idx → Val e)
    (inb : ∀ a, (![o, 0, 0] : Fin 3 → Nat) a + S1x256x256.size a ≤ S3x256x256.size a) (k q : Fin 256) :
    View.ld X (Rect.unit (s := S3x256x256) ![o, 0, 0] S1x256x256.size inb) (ix3 (0 : Fin 1) k q) = X (ix3 r k q) := by
  subst hr
  show X _ = X _
  congr 1
  funext a; apply Fin.ext
  match a with
  | ⟨0, _⟩ => show r.val + 1 * 0 = r.val; omega
  | ⟨1, _⟩ => show 0 + 1 * k.val = k.val; omega
  | ⟨2, _⟩ => show 0 + 1 * q.val = q.val; omega

/-- Row `r` of the 3x256 biases, loaded as a 1x256 row, reads at `(0, q)` the biases at `(r, q)`. -/
theorem ld_row_1 {Val : EltTy → Type} {e : EltTy} (o : ℕ) (r : Fin 3) (hr : r.val = o) (X : S3x256.Idx → Val e)
    (inb : ∀ a, (![o, 0] : Fin 2 → Nat) a + S1x256.size a ≤ S3x256.size a) (q : Fin 256) :
    View.ld X (Rect.unit (s := S3x256) ![o, 0] S1x256.size inb) (ix2 (0 : Fin 1) q) = X (ix2 r q) := by
  subst hr
  show X _ = X _
  congr 1
  funext a; apply Fin.ext
  match a with
  | ⟨0, _⟩ => show r.val + 1 * 0 = r.val; omega
  | ⟨1, _⟩ => show 0 + 1 * q.val = q.val; omega

/-- WHAT THE BODY LEAVES in the output window's buffer, at row `p` and output feature `q`, from the eight input blocks. -/
theorem out1_8_apply (x0 x1 x2 : Vec Ideal S2000x256 .f32) (x3 : Vec Ideal S2000x3 .f32) (x4 : Vec Ideal S3x256x256 .f32)
    (x5 : Vec Ideal S3x256 .f32) (x6 : Vec Ideal S256x384 .f32) (x7 : Vec Ideal S1x384 .f32) (p : Fin 2000) (q : Fin 384) :
    out1_8 (F := Ideal) x0 x1 x2 x3 x4 x5 x6 x7 (ix2 p q)
      = (∑ k : Fin 256, meanK (rowSumK (fun k' => x0 (ix2 p k')) (fun k' => x1 (ix2 p k')) (fun k' => x2 (ix2 p k'))
          (x3 (ix2 p 0)) (x3 (ix2 p 1)) (x3 (ix2 p 2))
          (fun k' => x4 (ix3 0 k' k)) (fun k' => x4 (ix3 1 k' k)) (fun k' => x4 (ix3 2 k' k))
          (x5 (ix2 0 k)) (x5 (ix2 1 k)) (x5 (ix2 2 k))) * x6 (ix2 k q)) + x7 (ix2 0 q) := by
  unfold out1_8
  rw [View.canon_unit_zero zeros2_1]
  simp only [View.ld_unit_zero (S := S2000x256) zeros2_1, View.ld_unit_zero (S := S2000x3) zeros2_1,
    View.ld_unit_zero (S := S256x384) zeros2_1, View.ld_unit_zero (S := S1x384) zeros2_1]
  refine (Pay.pay1_apply _ _ _ _ _ _ _ _ _ _ _ _ p q).trans ?_
  refine congrArg (· + x7 (ix2 0 q)) (Finset.sum_congr rfl fun k _ => ?_)
  have w0 : (fun k' => View.ld x4 rW0 (ix3 (0 : Fin 1) k' k)) = fun k' => x4 (ix3 (0 : Fin 3) k' k) :=
    funext fun k' => ld_slab_1 0 0 rfl x4 _ k' k
  have w1 : (fun k' => View.ld x4 rW1 (ix3 (0 : Fin 1) k' k)) = fun k' => x4 (ix3 (1 : Fin 3) k' k) :=
    funext fun k' => ld_slab_1 1 1 rfl x4 _ k' k
  have w2 : (fun k' => View.ld x4 rW2 (ix3 (0 : Fin 1) k' k)) = fun k' => x4 (ix3 (2 : Fin 3) k' k) :=
    funext fun k' => ld_slab_1 2 2 rfl x4 _ k' k
  rw [w0, w1, w2, ld_row_1 0 0 rfl, ld_row_1 1 1 rfl, ld_row_1 2 2 rfl]

/-! ## The whole array -/

/-- What the result array ends holding: at row `i 0` and output feature `i 1`, the row of hidden means against the
    output weights' column, plus the output bias — of the eight arrays the region finds: the three arrays of
    aggregated features, the normalisations, the hidden weights and biases, the output weights and bias. -/
def G1 (A0 A1 A2 : S50000x256.Idx → EReal) (Nm : S50000x3.Idx → EReal) (Wl : S3x256x256.Idx → EReal)
    (Bl : S3x256.Idx → EReal) (Wo : S256x384.Idx → EReal) (Bo : S1x384.Idx → EReal) : S50000x384.Idx → EReal :=
  fun i => (∑ k : Fin 256, meanK (rowSumK (fun k' => A0 (ix2 (i 0) k')) (fun k' => A1 (ix2 (i 0) k')) (fun k' => A2 (ix2 (i 0) k'))
    (Nm (ix2 (i 0) 0)) (Nm (ix2 (i 0) 1)) (Nm (ix2 (i 0) 2))
    (fun k' => Wl (ix3 0 k' k)) (fun k' => Wl (ix3 1 k' k)) (fun k' => Wl (ix3 2 k' k))
    (Bl (ix2 0 k)) (Bl (ix2 1 k)) (Bl (ix2 2 k))) * Wo (ix2 k (i 1))) + Bo (ix2 0 (i 1))

/-- `G1` at an index given by its coordinates. -/
theorem G1_ix2 (A0 A1 A2 : S50000x256.Idx → EReal) (Nm : S50000x3.Idx → EReal) (Wl : S3x256x256.Idx → EReal)
    (Bl : S3x256.Idx → EReal) (Wo : S256x384.Idx → EReal) (Bo : S1x384.Idx → EReal) (P : Fin 50000) (q : Fin 384) :
    G1 A0 A1 A2 Nm Wl Bl Wo Bo (ix2 P q)
      = (∑ k : Fin 256, meanK (rowSumK (fun k' => A0 (ix2 P k')) (fun k' => A1 (ix2 P k')) (fun k' => A2 (ix2 P k'))
          (Nm (ix2 P 0)) (Nm (ix2 P 1)) (Nm (ix2 P 2))
          (fun k' => Wl (ix3 0 k' k)) (fun k' => Wl (ix3 1 k' k)) (fun k' => Wl (ix3 2 k' k))
          (Bl (ix2 0 k)) (Bl (ix2 1 k)) (Bl (ix2 2 k))) * Wo (ix2 k q)) + Bo (ix2 0 q) := rfl

/-- One element of the block is that function at the element's place in the array: when the three feature
    blocks and the block of normalisations are rows `r, r + 1, …` of their arrays and the four parameter arrays are
    whole, the body's result at row `p`, feature `q` of the block is `G1` at row `r + p`, feature `q`. -/
theorem out1_8_point (A0 A1 A2 : S50000x256.Idx → EReal) (Nm : S50000x3.Idx → EReal) (Wl : S3x256x256.Idx → EReal)
    (Bl : S3x256.Idx → EReal) (Wo : S256x384.Idx → EReal) (Bo : S1x384.Idx → EReal)
    (x0 x1 x2 : Vec Ideal S2000x256 .f32) (x3 : Vec Ideal S2000x3 .f32)
    (x4 : Vec Ideal S3x256x256 .f32) (x5 : Vec Ideal S3x256 .f32) (x6 : Vec Ideal S256x384 .f32) (x7 : Vec Ideal S1x384 .f32)
    (r : ℕ)
    (h0 : ∀ (p : Fin 2000) (k : Fin 256) (P : Fin 50000), P.val = r + p.val → x0 (ix2 p k) = A0 (ix2 P k))
    (h1 : ∀ (p : Fin 2000) (k : Fin 256) (P : Fin 50000), P.val = r + p.val → x1 (ix2 p k) = A1 (ix2 P k))
    (h2 : ∀ (p : Fin 2000) (k : Fin 256) (P : Fin 50000), P.val = r + p.val → x2 (ix2 p k) = A2 (ix2 P k))
    (h3 : ∀ (p : Fin 2000) (s : Fin 3) (P : Fin 50000), P.val = r + p.val → x3 (ix2 p s) = Nm (ix2 P s))
    (h4 : x4 = Wl) (h5 : x5 = Bl) (h6 : x6 = Wo) (h7 : x7 = Bo)
    (p : Fin 2000) (q : Fin 384) (P : Fin 50000) (hP : P.val = r + p.val) :
    out1_8 (F := Ideal) x0 x1 x2 x3 x4 x5 x6 x7 (ix2 p q) = G1 A0 A1 A2 Nm Wl Bl Wo Bo (ix2 P q) := by
  subst h4 h5 h6 h7
  rw [out1_8_apply, G1_ix2]
  have e0 : (fun k => x0 (ix2 p k)) = fun k => A0 (ix2 P k) := funext fun k => h0 p k P hP
  have e1 : (fun k => x1 (ix2 p k)) = fun k => A1 (ix2 P k) := funext fun k => h1 p k P hP
  have e2 : (fun k => x2 (ix2 p k)) = fun k => A2 (ix2 P k) := funext fun k => h2 p k P hP
  rw [e0, e1, e2, h3 p 0 P hP, h3 p 1 P hP, h3 p 2 P hP]

section Region1

variable (V : (c : Dev nD) → (b : Ref sig .tc) → Buf (Elt Ideal) ((c : Thread nD τ).loc b))

/-- The printed index maps over the grid: the three feature windows, the normalisations' window and the output's
    window sit at row block `t`, column block 0; the four parameter windows at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 3) = 0 ∧ win1_4.index t (1 : Fin 3) = 0 ∧ win1_4.index t (2 : Fin 3) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- A feature window's block at point `t`, at row `p` and feature `k`, is its array at row `2000 t + p`. -/
theorem iblk1_0_apply (c : Dev nD) (t : Fin cfg1.N) (p : Fin 2000) (k : Fin 256) (P : Fin 50000)
    (hP : P.val = t.val * 2000 + p.val) :
    (iblk1 V c 0 t : Vec Ideal S2000x256 .f32) (ix2 p k)
      = (V c (Pipeline.arrRef spec1 0) : S50000x256.Idx → EReal) (ix2 P k) := by
  obtain ⟨f0, f1, -⟩ := idx_facts1 t
  unfold iblk1
  rw [View.read_apply]
  show V c (Pipeline.arrRef spec1 0) _ = V c (Pipeline.arrRef spec1 0) _
  congr 1
  funext a; apply Fin.ext
  match a with
  | ⟨0, _⟩ => show win1_0.index t (0 : Fin 2) * 2000 + 1 * p.val = P.val; rw [f0, hP]; omega
  | ⟨1, _⟩ => show win1_0.index t (1 : Fin 2) * 256 + 1 * k.val = k.val; rw [f1]; omega

theorem iblk1_1_apply (c : Dev nD) (t : Fin cfg1.N) (p : Fin 2000) (k : Fin 256) (P : Fin 50000)
    (hP : P.val = t.val * 2000 + p.val) :
    (iblk1 V c 1 t : Vec Ideal S2000x256 .f32) (ix2 p k)
      = (V c (Pipeline.arrRef spec1 1) : S50000x256.Idx → EReal) (ix2 P k) := by
  obtain ⟨-, -, f0, f1, -⟩ := idx_facts1 t
  unfold iblk1
  rw [View.read_apply]
  show V c (Pipeline.arrRef spec1 1) _ = V c (Pipeline.arrRef spec1 1) _
  congr 1
  funext a; apply Fin.ext
  match a with
  | ⟨0, _⟩ => show win1_1.index t (0 : Fin 2) * 2000 + 1 * p.val = P.val; rw [f0, hP]; omega
  | ⟨1, _⟩ => show win1_1.index t (1 : Fin 2) * 256 + 1 * k.val = k.val; rw [f1]; omega

theorem iblk1_2_apply (c : Dev nD) (t : Fin cfg1.N) (p : Fin 2000) (k : Fin 256) (P : Fin 50000)
    (hP : P.val = t.val * 2000 + p.val) :
    (iblk1 V c 2 t : Vec Ideal S2000x256 .f32) (ix2 p k)
      = (V c (Pipeline.arrRef spec1 2) : S50000x256.Idx → EReal) (ix2 P k) := by
  obtain ⟨-, -, -, -, f0, f1, -⟩ := idx_facts1 t
  unfold iblk1
  rw [View.read_apply]
  show V c (Pipeline.arrRef spec1 2) _ = V c (Pipeline.arrRef spec1 2) _
  congr 1
  funext a; apply Fin.ext
  match a with
  | ⟨0, _⟩ => show win1_2.index t (0 : Fin 2) * 2000 + 1 * p.val = P.val; rw [f0, hP]; omega
  | ⟨1, _⟩ => show win1_2.index t (1 : Fin 2) * 256 + 1 * k.val = k.val; rw [f1]; omega

/-- The normalisations' block at point `t`, at row `p` and relation `s`, is their array at row `2000 t + p`. -/
theorem iblk1_3_apply (c : Dev nD) (t : Fin cfg1.N) (p : Fin 2000) (s : Fin 3) (P : Fin 50000)
    (hP : P.val = t.val * 2000 + p.val) :
    (iblk1 V c 3 t : Vec Ideal S2000x3 .f32) (ix2 p s)
      = (V c (Pipeline.arrRef spec1 3) : S50000x3.Idx → EReal) (ix2 P s) := by
  obtain ⟨-, -, -, -, -, -, f0, f1, -⟩ := idx_facts1 t
  unfold iblk1
  rw [View.read_apply]
  show V c (Pipeline.arrRef spec1 3) _ = V c (Pipeline.arrRef spec1 3) _
  congr 1
  funext a; apply Fin.ext
  match a with
  | ⟨0, _⟩ => show win1_3.index t (0 : Fin 2) * 2000 + 1 * p.val = P.val; rw [f0, hP]; omega
  | ⟨1, _⟩ => show win1_3.index t (1 : Fin 2) * 3 + 1 * s.val = s.val; rw [f1]; omega

/-- The hidden weights' block is the whole array at every point. -/
theorem iblk1_4_eq (c : Dev nD) (t : Fin cfg1.N) :
    (iblk1 V c 4 t : Vec Ideal S3x256x256 .f32) = (V c (Pipeline.arrRef spec1 4) : S3x256x256.Idx → EReal) := by
  obtain ⟨-, -, -, -, -, -, -, -, f0, f1, f2, -⟩ := idx_facts1 t
  unfold iblk1
  funext y
  rw [View.read_apply]
  show V c (Pipeline.arrRef spec1 4) _ = V c (Pipeline.arrRef spec1 4) _
  congr 1
  funext a; apply Fin.ext
  match a with
  | ⟨0, _⟩ => show win1_4.index t (0 : Fin 3) * 3 + 1 * (y 0).val = (y 0).val; rw [f0]; omega
  | ⟨1, _⟩ => show win1_4.index t (1 : Fin 3) * 256 + 1 * (y 1).val = (y 1).val; rw [f1]; omega
  | ⟨2, _⟩ => show win1_4.index t (2 : Fin 3) * 256 + 1 * (y 2).val = (y 2).val; rw [f2]; omega

/-- The hidden biases' block is the whole array at every point. -/
theorem iblk1_5_eq (c : Dev nD) (t : Fin cfg1.N) :
    (iblk1 V c 5 t : Vec Ideal S3x256 .f32) = (V c (Pipeline.arrRef spec1 5) : S3x256.Idx → EReal) := by
  obtain ⟨-, -, -, -, -, -, -, -, -, -, -, f0, f1, -⟩ := idx_facts1 t
  unfold iblk1
  funext y
  rw [View.read_apply]
  show V c (Pipeline.arrRef spec1 5) _ = V c (Pipeline.arrRef spec1 5) _
  congr 1
  funext a; apply Fin.ext
  match a with
  | ⟨0, _⟩ => show win1_5.index t (0 : Fin 2) * 3 + 1 * (y 0).val = (y 0).val; rw [f0]; omega
  | ⟨1, _⟩ => show win1_5.index t (1 : Fin 2) * 256 + 1 * (y 1).val = (y 1).val; rw [f1]; omega

/-- The output weights' block is the whole array at every point. -/
theorem iblk1_6_eq (c : Dev nD) (t : Fin cfg1.N) :
    (iblk1 V c 6 t : Vec Ideal S256x384 .f32) = (V c (Pipeline.arrRef spec1 6) : S256x384.Idx → EReal) := by
  obtain ⟨-, -, -, -, -, -, -, -, -, -, -, -, -, f0, f1, -⟩ := idx_facts1 t
  unfold iblk1
  funext y
  rw [View.read_apply]
  show V c (Pipeline.arrRef spec1 6) _ = V c (Pipeline.arrRef spec1 6) _
  congr 1
  funext a; apply Fin.ext
  match a with
  | ⟨0, _⟩ => show win1_6.index t (0 : Fin 2) * 256 + 1 * (y 0).val = (y 0).val; rw [f0]; omega
  | ⟨1, _⟩ => show win1_6.index t (1 : Fin 2) * 384 + 1 * (y 1).val = (y 1).val; rw [f1]; omega

/-- The output bias's block is the whole array at every point. -/
theorem iblk1_7_eq (c : Dev nD) (t : Fin cfg1.N) :
    (iblk1 V c 7 t : Vec Ideal S1x384 .f32) = (V c (Pipeline.arrRef spec1 7) : S1x384.Idx → EReal) := by
  obtain ⟨-, -, -, -, -, -, -, -, -, -, -, -, -, -, -, f0, f1, -⟩ := idx_facts1 t
  unfold iblk1
  funext y
  rw [View.read_apply]
  show V c (Pipeline.arrRef spec1 7) _ = V c (Pipeline.arrRef spec1 7) _
  congr 1
  funext a; apply Fin.ext
  match a with
  | ⟨0, _⟩ => show win1_7.index t (0 : Fin 2) * 1 + 1 * (y 0).val = (y 0).val; rw [f0]; omega
  | ⟨1, _⟩ => show win1_7.index t (1 : Fin 2) * 384 + 1 * (y 1).val = (y 1).val; rw [f1]; omega

/-- WHAT POINT `t` WRITES BACK is block `t` of `G1` of the eight arrays as the region finds them. -/
theorem flushed1_eq (c : Dev nD) (t : Fin cfg1.N) :
    (dat1 (F := Ideal) V c).flushed 8 t = ((cfg1.win 8).blk t).view.read (Elt Ideal)
      (G1 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7))) := by
  show (cfg1.win 8).cut (grid1.coords t) ((dat1 V c).after 8 t) = _
  rw [after1_8]
  have ht : t.val < 25 := Nat.lt_of_lt_of_eq t.isLt N_1
  obtain ⟨-, -, -, -, -, -, -, -, -, -, -, -, -, -, -, -, -, f0, f1⟩ := idx_facts1 t
  funext j
  obtain ⟨p, q, rfl⟩ : ∃ (p : Fin 2000) (q : Fin 384), j = ix2 p q := ⟨j 0, j 1, eq_ix2 j⟩
  have hp : p.val < 2000 := p.isLt
  have hemb : ((cfg1.win 8).blk t).view.emb (ix2 p q)
      = (ix2 (⟨t.val * 2000 + p.val, by omega⟩ : Fin 50000) q : S50000x384.Idx) := by
    funext a; apply Fin.ext
    match a with
    | ⟨0, _⟩ => show win1_8.index t (0 : Fin 2) * 2000 + 1 * p.val = t.val * 2000 + p.val; rw [f0]; omega
    | ⟨1, _⟩ => show win1_8.index t (1 : Fin 2) * 384 + 1 * q.val = q.val; rw [f1]; omega
  rw [View.read_apply, hemb]
  exact out1_8_point _ _ _ _ _ _ _ _ _ _ _ _ _ _ _ _ (t.val * 2000)
    (fun p k P hP => iblk1_0_apply V c t p k P hP) (fun p k P hP => iblk1_1_apply V c t p k P hP)
    (fun p k P hP => iblk1_2_apply V c t p k P hP) (fun p s P hP => iblk1_3_apply V c t p s P hP)
    (iblk1_4_eq V c t) (iblk1_5_eq V c t) (iblk1_6_eq V c t) (iblk1_7_eq V c t) p q _ rfl

/-- An index of the array is in point `t`'s block iff each coordinate is in the block's range on its axis. -/
theorem mem_blk1 (t : Fin cfg1.N) (i : S50000x384.Idx) :
    i ∈ ((cfg1.win 8).blk t).view.set ↔ ∀ a : Fin 2, win1_8.index t a * S2000x384.size a ≤ (i a).val
      ∧ (i a).val < win1_8.index t a * S2000x384.size a + S2000x384.size a := by
  show i ∈ ((View.whole main_v192).slice (win1_8.rect t)).set ↔ _
  rw [View.set_slice_whole, Rect.mem_set_unit]
  exact Iff.rfl

/-- The 25 blocks of 2000 rows fill the 50000 rows: row `r` is in the block of point `r / 2000`. -/
theorem cover1 (i : S50000x384.Idx) :
    ∃ t : Fin cfg1.N, (cfg1.win 8).flush t = true ∧ i ∈ ((cfg1.win 8).blk t).view.set := by
  have hi0 : (i 0).val < 50000 := (i 0).isLt
  have hi1 : (i 1).val < 384 := (i 1).isLt
  have h25 : (i 0).val / 2000 < 25 := by omega
  refine ⟨⟨(i 0).val / 2000, Nat.lt_of_lt_of_eq h25 N_1.symm⟩, flush1_8 _, ?_⟩
  obtain ⟨-, -, -, -, -, -, -, -, -, -, -, -, -, -, -, -, -, f0, f1⟩ :=
    idx_facts1 ⟨(i 0).val / 2000, Nat.lt_of_lt_of_eq h25 N_1.symm⟩
  rw [mem_blk1]
  intro a
  match a with
  | ⟨0, _⟩ =>
    show win1_8.index _ (0 : Fin 2) * 2000 ≤ (i 0).val ∧ (i 0).val < win1_8.index _ (0 : Fin 2) * 2000 + 2000
    rw [f0]
    show (i 0).val / 2000 * 2000 ≤ (i 0).val ∧ (i 0).val < (i 0).val / 2000 * 2000 + 2000
    omega
  | ⟨1, _⟩ =>
    show win1_8.index _ (1 : Fin 2) * 384 ≤ (i 1).val ∧ (i 1).val < win1_8.index _ (1 : Fin 2) * 384 + 384
    rw [f1]
    omega

/-- THE ARRAY after the region: `G1` of the eight arrays the region finds. -/
theorem final1 (c : Dev nD) :
    (dat1 (F := Ideal) V c).arrAt 8 cfg1.N
      = G1 (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7)) :=
  (dat1 V c).arrAt_eq_of_cover 8 _ (fun t _ => flushed1_eq V c t) cover1

end Region1

end Cert.KernelIdeal.Hand

end
-- ==== Proof.KI.Glue.lean ====
/-
  The graph side of one layer, as whole-array functions of the node features and of one relation's edge list, in
  the program's own operations: the degree of every node under an index list (the number of edges naming it, at
  least one), the inverse square root of the in-degree, and the aggregate — every node's sum, over the edges
  that point at it, of the source node's features scaled by the inverse square root of the source's out-degree.
  Both programs compute these with the same host operations; nothing here opens a scatter or a gather.
-/
import proofs.«176711_j5789615915676_2_alg».proof.Proof.Gen.KernelIdeal
import Idealize.ShloMosaic.PureOps.Ideal

noncomputable section

namespace Cert.KernelIdeal.Glue

open Cert.KernelIdeal Cert.KernelIdeal.Gen Idealize.ShloMosaic

/-- The number of listed edges naming each node, clipped below at one. -/
def deg (idx : IVec S250000 32) : FVec Ideal S50000 .f32 :=
  maximumf (broadcastInDim S50000 ![] bcast_S_S50000 (id (constant (F := Ideal) S_ .f32 0x3F800000#32)))
    (Host.scatterAdd (F := Ideal) scatter_S50000_S250000x1_S250000_n_0_0_1
      (broadcastInDim S50000 ![] bcast_S_S50000 (constant (F := Ideal) S_ .f32 0x00000000#32))
      (broadcastInDim S250000x1 ![0] bcast_S250000_S250000x1_0 idx)
      (broadcastInDim S250000 ![] bcast_S_S250000 (constant (F := Ideal) S_ .f32 0x3F800000#32)))

/-- The inverse square root of every node's degree under the list. -/
def nrm (idx : IVec S250000 32) : FVec Ideal S50000 .f32 := Host.rsqrt (F := Ideal) (deg idx)

/-- The source list with negative entries wrapped around, as the gather reads it. -/
def wrap (src : IVec S250000 32) : IVec S250000 32 :=
  select (cmpi .slt src (broadcastInDim S250000 ![] bcast_S_S250000 (constantI S_ 32 0#32)))
    (addi src (broadcastInDim S250000 ![] bcast_S_S250000 (constantI S_ 32 50000#32))) src

/-- Every node's sum, over the edges that point at it, of the source's features scaled by the inverse square
    root of the source's out-degree. -/
def agg (h : FVec Ideal S50000x256 .f32) (src dst : IVec S250000 32) : FVec Ideal S50000x256 .f32 :=
  Host.scatterAdd (F := Ideal) scatter_S50000x256_S250000x1_S250000x256_1_0_0_1
    (broadcastInDim S50000x256 ![] bcast_S_S50000x256 (constant (F := Ideal) S_ .f32 0x00000000#32))
    (broadcastInDim S250000x1 ![0] bcast_S250000_S250000x1_0 dst)
    (Host.gather gather_S50000x256_S250000x1_S250000x256_1_0_n_n_0_1_1256
      (mulf h (broadcastInDim S50000x256 ![0, 1] bcast_S50000x1_S50000x256_0_1
        (broadcastInDim S50000x1 ![0] bcast_S50000_S50000x1_0 (nrm src))))
      (broadcastInDim S250000x1 ![0] bcast_S250000_S250000x1_0 (wrap src)))

end Cert.KernelIdeal.Glue

end
-- ==== Proof.KI.Edges.lean ====
/-
  The twelve edge lists the program cuts out of its one edge array — layer `l`, relation `r`, end `s` (0 the
  sources, 1 the destinations): a unit slice of the first three axes, the last axis whole, reshaped to a vector.
-/
import proofs.«176711_j5789615915676_2_alg».proof.Proof.KI.Glue

noncomputable section

namespace Cert.KernelIdeal.Glue

open Cert.KernelIdeal Cert.KernelIdeal.Gen Idealize.ShloMosaic

/-- Layer 0, relation 0: the edges' sources. -/
abbrev e000 (e : IVec S2x3x2x250000 32) : IVec S250000 32 :=
  shapeCast _ (extractStridedSlice S1x1x1x250000 ![0, 0, 0, 0] e slices_S2x3x2x250000_S1x1x1x250000_0_0_0_0) shapeCasts_S1x1x1x250000_S250000
/-- Layer 0, relation 0: the edges' destinations. -/
abbrev e001 (e : IVec S2x3x2x250000 32) : IVec S250000 32 :=
  shapeCast _ (extractStridedSlice S1x1x1x250000 ![0, 0, 1, 0] e slices_S2x3x2x250000_S1x1x1x250000_0_0_1_0) shapeCasts_S1x1x1x250000_S250000
/-- Layer 0, relation 1: the edges' sources. -/
abbrev e010 (e : IVec S2x3x2x250000 32) : IVec S250000 32 :=
  shapeCast _ (extractStridedSlice S1x1x1x250000 ![0, 1, 0, 0] e slices_S2x3x2x250000_S1x1x1x250000_0_1_0_0) shapeCasts_S1x1x1x250000_S250000
/-- Layer 0, relation 1: the edges' destinations. -/
abbrev e011 (e : IVec S2x3x2x250000 32) : IVec S250000 32 :=
  shapeCast _ (extractStridedSlice S1x1x1x250000 ![0, 1, 1, 0] e slices_S2x3x2x250000_S1x1x1x250000_0_1_1_0) shapeCasts_S1x1x1x250000_S250000
/-- Layer 0, relation 2: the edges' sources. -/
abbrev e020 (e : IVec S2x3x2x250000 32) : IVec S250000 32 :=
  shapeCast _ (extractStridedSlice S1x1x1x250000 ![0, 2, 0, 0] e slices_S2x3x2x250000_S1x1x1x250000_0_2_0_0) shapeCasts_S1x1x1x250000_S250000
/-- Layer 0, relation 2: the edges' destinations. -/
abbrev e021 (e : IVec S2x3x2x250000 32) : IVec S250000 32 :=
  shapeCast _ (extractStridedSlice S1x1x1x250000 ![0, 2, 1, 0] e slices_S2x3x2x250000_S1x1x1x250000_0_2_1_0) shapeCasts_S1x1x1x250000_S250000
/-- Layer 1, relation 0: the edges' sources. -/
abbrev e100 (e : IVec S2x3x2x250000 32) : IVec S250000 32 :=
  shapeCast _ (extractStridedSlice S1x1x1x250000 ![1, 0, 0, 0] e slices_S2x3x2x250000_S1x1x1x250000_1_0_0_0) shapeCasts_S1x1x1x250000_S250000
/-- Layer 1, relation 0: the edges' destinations. -/
abbrev e101 (e : IVec S2x3x2x250000 32) : IVec S250000 32 :=
  shapeCast _ (extractStridedSlice S1x1x1x250000 ![1, 0, 1, 0] e slices_S2x3x2x250000_S1x1x1x250000_1_0_1_0) shapeCasts_S1x1x1x250000_S250000
/-- Layer 1, relation 1: the edges' sources. -/
abbrev e110 (e : IVec S2x3x2x250000 32) : IVec S250000 32 :=
  shapeCast _ (extractStridedSlice S1x1x1x250000 ![1, 1, 0, 0] e slices_S2x3x2x250000_S1x1x1x250000_1_1_0_0) shapeCasts_S1x1x1x250000_S250000
/-- Layer 1, relation 1: the edges' destinations. -/
abbrev e111 (e : IVec S2x3x2x250000 32) : IVec S250000 32 :=
  shapeCast _ (extractStridedSlice S1x1x1x250000 ![1, 1, 1, 0] e slices_S2x3x2x250000_S1x1x1x250000_1_1_1_0) shapeCasts_S1x1x1x250000_S250000
/-- Layer 1, relation 2: the edges' sources. -/
abbrev e120 (e : IVec S2x3x2x250000 32) : IVec S250000 32 :=
  shapeCast _ (extractStridedSlice S1x1x1x250000 ![1, 2, 0, 0] e slices_S2x3x2x250000_S1x1x1x250000_1_2_0_0) shapeCasts_S1x1x1x250000_S250000
/-- Layer 1, relation 2: the edges' destinations. -/
abbrev e121 (e : IVec S2x3x2x250000 32) : IVec S250000 32 :=
  shapeCast _ (extractStridedSlice S1x1x1x250000 ![1, 2, 1, 0] e slices_S2x3x2x250000_S1x1x1x250000_1_2_1_0) shapeCasts_S1x1x1x250000_S250000

/-- The three relations' inverse-square-root in-degrees side by side, one column each: what the kernel's fourth
    window holds. -/
def stack (n0 n1 n2 : FVec Ideal S50000 .f32) : FVec Ideal S50000x3 .f32 :=
  concatenate S50000x3 1 [⟨S50000x1, broadcastInDim S50000x1 ![0] bcast_S50000_S50000x1_0 n0⟩,
    ⟨S50000x1, broadcastInDim S50000x1 ![0] bcast_S50000_S50000x1_0 n1⟩,
    ⟨S50000x1, broadcastInDim S50000x1 ![0] bcast_S50000_S50000x1_0 n2⟩] concatenates_S50000x1_S50000x1_S50000x1_S50000x3_d1

/-- Layer `l`'s three weight matrices, as the kernel's fifth window holds them. -/
abbrev w0 (w : FVec Ideal S2x3x256x256 .f32) : FVec Ideal S3x256x256 .f32 :=
  shapeCast _ (extractStridedSlice S1x3x256x256 ![0, 0, 0, 0] w slices_S2x3x256x256_S1x3x256x256_0_0_0_0) shapeCasts_S1x3x256x256_S3x256x256
abbrev w1 (w : FVec Ideal S2x3x256x256 .f32) : FVec Ideal S3x256x256 .f32 :=
  shapeCast _ (extractStridedSlice S1x3x256x256 ![1, 0, 0, 0] w slices_S2x3x256x256_S1x3x256x256_1_0_0_0) shapeCasts_S1x3x256x256_S3x256x256
/-- Layer `l`'s three bias rows, as the kernel's sixth window holds them. -/
abbrev b0 (b : FVec Ideal S2x3x256 .f32) : FVec Ideal S3x256 .f32 :=
  shapeCast _ (extractStridedSlice S1x3x256 ![0, 0, 0] b slices_S2x3x256_S1x3x256_0_0_0) shapeCasts_S1x3x256_S3x256
abbrev b1 (b : FVec Ideal S2x3x256 .f32) : FVec Ideal S3x256 .f32 :=
  shapeCast _ (extractStridedSlice S1x3x256 ![1, 0, 0] b slices_S2x3x256_S1x3x256_1_0_0) shapeCasts_S1x3x256_S3x256

end Cert.KernelIdeal.Glue

end
-- ==== Proof.KI.Host1a.lean ====
/-
  What the second kernel finds in its three aggregate windows: the host operations between the two kernels, folded
  over the buffers as the first kernel left them, leave in each the layer's aggregate of the first kernel's result
  under that relation's edge lists.
-/
import proofs.«176711_j5789615915676_2_alg».proof.Proof.Gen.KernelIdeal.Regions
import proofs.«176711_j5789615915676_2_alg».proof.Proof.KI.Glue
import Idealize.ShloMosaic.Lib.StableHlo.Run
import proofs.«176711_j5789615915676_2_alg».proof.Proof.KI.Edges

noncomputable section
namespace Cert.KernelIdeal.Host

open Cert.KernelIdeal Cert.KernelIdeal.Gen Cert.KernelIdeal.Glue Idealize.ShloMosaic Idealize.ShloMosaic.TcCoe Idealize.SL.Sem Idealize.ShloMosaic.StableHlo

variable (m : (ℓ : Loc nD τ sig) → Buf (Elt Ideal) ℓ) (outs : Gen.Outs (F := Ideal)) (c : Dev nD)

set_option maxHeartbeats 4000000 in
set_option maxRecDepth 8192 in
/-- Relation 0's aggregate of the hidden features. -/
theorem V27_agg0 : Gen.V27 (F := Ideal) m outs c main_v125 = agg (Gen.V14 m outs c main_v98) (e100 (Gen.V14 m outs c main_arg5)) (e101 (Gen.V14 m outs c main_arg5)) := by
  simp only [Gen.V15, Gen.V16, Gen.V17, Gen.V18, Gen.V19, Gen.V20, Gen.V21, Gen.V22, Gen.V23, Gen.V24, Gen.V25, Gen.V26, Gen.V27, hostOps1, hostOps1_1, hostOps1_2, hostOps1_3, hostOps1_4, hostOps1_5, hostOps1_6, hostOps1_7, hostOps1_8, hostOps1_9, hostOps1_10, hostOps1_11, hostOps1_12]
  after_results_simp
  rfl

set_option maxHeartbeats 4000000 in
set_option maxRecDepth 8192 in
/-- Relation 1's aggregate of the hidden features. -/
theorem V27_agg1 : Gen.V27 (F := Ideal) m outs c main_v153 = agg (Gen.V14 m outs c main_v98) (e110 (Gen.V14 m outs c main_arg5)) (e111 (Gen.V14 m outs c main_arg5)) := by
  simp only [Gen.V15, Gen.V16, Gen.V17, Gen.V18, Gen.V19, Gen.V20, Gen.V21, Gen.V22, Gen.V23, Gen.V24, Gen.V25, Gen.V26, Gen.V27, hostOps1, hostOps1_1, hostOps1_2, hostOps1_3, hostOps1_4, hostOps1_5, hostOps1_6, hostOps1_7, hostOps1_8, hostOps1_9, hostOps1_10, hostOps1_11, hostOps1_12]
  after_results_simp
  rfl

set_option maxHeartbeats 4000000 in
set_option maxRecDepth 8192 in
/-- Relation 2's aggregate of the hidden features. -/
theorem V27_agg2 : Gen.V27 (F := Ideal) m outs c main_v181 = agg (Gen.V14 m outs c main_v98) (e120 (Gen.V14 m outs c main_arg5)) (e121 (Gen.V14 m outs c main_arg5)) := by
  simp only [Gen.V15, Gen.V16, Gen.V17, Gen.V18, Gen.V19, Gen.V20, Gen.V21, Gen.V22, Gen.V23, Gen.V24, Gen.V25, Gen.V26, Gen.V27, hostOps1, hostOps1_1, hostOps1_2, hostOps1_3, hostOps1_4, hostOps1_5, hostOps1_6, hostOps1_7, hostOps1_8, hostOps1_9, hostOps1_10, hostOps1_11, hostOps1_12]
  after_results_simp
  rfl

end Cert.KernelIdeal.Host

end
-- ==== Proof.KI.Host1b.lean ====
/-
  What the second kernel finds in its other windows: the three relations' inverse-square-root in-degrees side by
  side, layer 1's weight matrices and bias rows, and the padded read-out bias as one row.
-/
import proofs.«176711_j5789615915676_2_alg».proof.Proof.Gen.KernelIdeal.Regions
import proofs.«176711_j5789615915676_2_alg».proof.Proof.KI.Glue
import Idealize.ShloMosaic.Lib.StableHlo.Run
import proofs.«176711_j5789615915676_2_alg».proof.Proof.KI.Edges

noncomputable section
namespace Cert.KernelIdeal.Host

open Cert.KernelIdeal Cert.KernelIdeal.Gen Cert.KernelIdeal.Glue Idealize.ShloMosaic Idealize.ShloMosaic.TcCoe Idealize.SL.Sem Idealize.ShloMosaic.StableHlo

variable (m : (ℓ : Loc nD τ sig) → Buf (Elt Ideal) ℓ) (outs : Gen.Outs (F := Ideal)) (c : Dev nD)

set_option maxHeartbeats 4000000 in
set_option maxRecDepth 8192 in
/-- The normalisations, one column per relation. -/
theorem V27_norm : Gen.V27 (F := Ideal) m outs c main_v186 = stack (nrm (e101 (Gen.V14 m outs c main_arg5))) (nrm (e111 (Gen.V14 m outs c main_arg5))) (nrm (e121 (Gen.V14 m outs c main_arg5))) := by
  simp only [Gen.V15, Gen.V16, Gen.V17, Gen.V18, Gen.V19, Gen.V20, Gen.V21, Gen.V22, Gen.V23, Gen.V24, Gen.V25, Gen.V26, Gen.V27, hostOps1, hostOps1_1, hostOps1_2, hostOps1_3, hostOps1_4, hostOps1_5, hostOps1_6, hostOps1_7, hostOps1_8, hostOps1_9, hostOps1_10, hostOps1_11, hostOps1_12]
  after_results_simp
  rfl

set_option maxHeartbeats 4000000 in
set_option maxRecDepth 8192 in
/-- Layer 1's weights. -/
theorem V27_w : Gen.V27 (F := Ideal) m outs c main_v188 = w1 (Gen.V14 m outs c main_arg1) := by
  simp only [Gen.V15, Gen.V16, Gen.V17, Gen.V18, Gen.V19, Gen.V20, Gen.V21, Gen.V22, Gen.V23, Gen.V24, Gen.V25, Gen.V26, Gen.V27, hostOps1, hostOps1_1, hostOps1_2, hostOps1_3, hostOps1_4, hostOps1_5, hostOps1_6, hostOps1_7, hostOps1_8, hostOps1_9, hostOps1_10, hostOps1_11, hostOps1_12]
  after_results_simp
  rfl

set_option maxHeartbeats 4000000 in
set_option maxRecDepth 8192 in
/-- Layer 1's biases. -/
theorem V27_b : Gen.V27 (F := Ideal) m outs c main_v190 = b1 (Gen.V14 m outs c main_arg2) := by
  simp only [Gen.V15, Gen.V16, Gen.V17, Gen.V18, Gen.V19, Gen.V20, Gen.V21, Gen.V22, Gen.V23, Gen.V24, Gen.V25, Gen.V26, Gen.V27, hostOps1, hostOps1_1, hostOps1_2, hostOps1_3, hostOps1_4, hostOps1_5, hostOps1_6, hostOps1_7, hostOps1_8, hostOps1_9, hostOps1_10, hostOps1_11, hostOps1_12]
  after_results_simp
  rfl

set_option maxHeartbeats 4000000 in
set_option maxRecDepth 8192 in
/-- The padded read-out weights are untouched between the kernels. -/
theorem V27_wo : Gen.V27 (F := Ideal) m outs c main_v2 = Gen.V14 m outs c main_v2 := by
  simp only [Gen.V15, Gen.V16, Gen.V17, Gen.V18, Gen.V19, Gen.V20, Gen.V21, Gen.V22, Gen.V23, Gen.V24, Gen.V25, Gen.V26, Gen.V27, hostOps1, hostOps1_1, hostOps1_2, hostOps1_3, hostOps1_4, hostOps1_5, hostOps1_6, hostOps1_7, hostOps1_8, hostOps1_9, hostOps1_10, hostOps1_11, hostOps1_12]
  after_results_simp

set_option maxHeartbeats 4000000 in
set_option maxRecDepth 8192 in
/-- The padded read-out bias, reshaped to one row. -/
theorem V27_bo : Gen.V27 (F := Ideal) m outs c main_v191 = shapeCast _ (Gen.V14 m outs c main_v5) shapeCasts_S384_S1x384 := by
  simp only [Gen.V15, Gen.V16, Gen.V17, Gen.V18, Gen.V19, Gen.V20, Gen.V21, Gen.V22, Gen.V23, Gen.V24, Gen.V25, Gen.V26, Gen.V27, hostOps1, hostOps1_1, hostOps1_2, hostOps1_3, hostOps1_4, hostOps1_5, hostOps1_6, hostOps1_7, hostOps1_8, hostOps1_9, hostOps1_10, hostOps1_11, hostOps1_12]
  after_results_simp
  rfl

end Cert.KernelIdeal.Host

end
-- ==== Proof.KI.HostBase.lean ====
/-
  The buffers the two kernels do not write, read back through the host stretches: an argument array, or a buffer
  written once before the first kernel, still holds at the second kernel's entry what it held at launch or when
  written; and the program's result is the second kernel's result array with its padding columns cut off.
-/
import proofs.«176711_j5789615915676_2_alg».proof.Proof.Gen.KernelIdeal.Regions
import proofs.«176711_j5789615915676_2_alg».proof.Proof.KI.Glue
import Idealize.ShloMosaic.Lib.StableHlo.Run
import proofs.«176711_j5789615915676_2_alg».proof.Proof.KI.Edges

noncomputable section
namespace Cert.KernelIdeal.Host

open Cert.KernelIdeal Cert.KernelIdeal.Gen Cert.KernelIdeal.Glue Idealize.ShloMosaic Idealize.ShloMosaic.TcCoe Idealize.SL.Sem Idealize.ShloMosaic.StableHlo

variable (m : (ℓ : Loc nD τ sig) → Buf (Elt Ideal) ℓ) (outs : Gen.Outs (F := Ideal)) (c : Dev nD)

/-- The first kernel's result array holds, after it, what the kernel left there. -/
theorem V14_h : Gen.V14 (F := Ideal) m outs c main_v98 = outs 14 main_v98 c := by
  simp only [Gen.V14, Function.update_self]

/-- The second kernel's result array holds, after it, what the kernel left there. -/
theorem V28_out : Gen.V28 (F := Ideal) m outs c main_v192 = outs 28 main_v192 c := by
  simp only [Gen.V28, Function.update_self]

/-- The weights, the biases and the edge array are as launched when the first kernel has run. -/
theorem V14_w : Gen.V14 (F := Ideal) m outs c main_arg1 = m ((c.tc : Thread nD τ).loc main_arg1) :=
  (Gen.V14_of m outs c main_arg1 (by decide)).trans <|
    (Gen.V13_of m c main_arg1 (by decide)).trans <|
    (Gen.V12_of m c main_arg1 (by decide)).trans <|
    (Gen.V11_of m c main_arg1 (by decide)).trans <|
    (Gen.V10_of m c main_arg1 (by decide)).trans <|
    (Gen.V9_of m c main_arg1 (by decide)).trans <|
    (Gen.V8_of m c main_arg1 (by decide)).trans <|
    (Gen.V7_of m c main_arg1 (by decide)).trans <|
    (Gen.V6_of m c main_arg1 (by decide)).trans <|
    (Gen.V5_of m c main_arg1 (by decide)).trans <|
    (Gen.V4_of m c main_arg1 (by decide)).trans <|
    (Gen.V3_of m c main_arg1 (by decide)).trans <|
    (Gen.V2_of m c main_arg1 (by decide)).trans <|
    (Gen.V1_of m c main_arg1 (by decide)).trans rfl
theorem V14_b : Gen.V14 (F := Ideal) m outs c main_arg2 = m ((c.tc : Thread nD τ).loc main_arg2) :=
  (Gen.V14_of m outs c main_arg2 (by decide)).trans <|
    (Gen.V13_of m c main_arg2 (by decide)).trans <|
    (Gen.V12_of m c main_arg2 (by decide)).trans <|
    (Gen.V11_of m c main_arg2 (by decide)).trans <|
    (Gen.V10_of m c main_arg2 (by decide)).trans <|
    (Gen.V9_of m c main_arg2 (by decide)).trans <|
    (Gen.V8_of m c main_arg2 (by decide)).trans <|
    (Gen.V7_of m c main_arg2 (by decide)).trans <|
    (Gen.V6_of m c main_arg2 (by decide)).trans <|
    (Gen.V5_of m c main_arg2 (by decide)).trans <|
    (Gen.V4_of m c main_arg2 (by decide)).trans <|
    (Gen.V3_of m c main_arg2 (by decide)).trans <|
    (Gen.V2_of m c main_arg2 (by decide)).trans <|
    (Gen.V1_of m c main_arg2 (by decide)).trans rfl
theorem V14_e : Gen.V14 (F := Ideal) m outs c main_arg5 = m ((c.tc : Thread nD τ).loc main_arg5) :=
  (Gen.V14_of m outs c main_arg5 (by decide)).trans <|
    (Gen.V13_of m c main_arg5 (by decide)).trans <|
    (Gen.V12_of m c main_arg5 (by decide)).trans <|
    (Gen.V11_of m c main_arg5 (by decide)).trans <|
    (Gen.V10_of m c main_arg5 (by decide)).trans <|
    (Gen.V9_of m c main_arg5 (by decide)).trans <|
    (Gen.V8_of m c main_arg5 (by decide)).trans <|
    (Gen.V7_of m c main_arg5 (by decide)).trans <|
    (Gen.V6_of m c main_arg5 (by decide)).trans <|
    (Gen.V5_of m c main_arg5 (by decide)).trans <|
    (Gen.V4_of m c main_arg5 (by decide)).trans <|
    (Gen.V3_of m c main_arg5 (by decide)).trans <|
    (Gen.V2_of m c main_arg5 (by decide)).trans <|
    (Gen.V1_of m c main_arg5 (by decide)).trans rfl

/-- The padded read-out weights and bias, written by the first host stretch, are untouched until the second kernel. -/
theorem V14_wo : Gen.V14 (F := Ideal) m outs c main_v2 = Gen.V1 m c main_v2 :=
  (Gen.V14_of m outs c main_v2 (by decide)).trans <|
    (Gen.V13_of m c main_v2 (by decide)).trans <|
    (Gen.V12_of m c main_v2 (by decide)).trans <|
    (Gen.V11_of m c main_v2 (by decide)).trans <|
    (Gen.V10_of m c main_v2 (by decide)).trans <|
    (Gen.V9_of m c main_v2 (by decide)).trans <|
    (Gen.V8_of m c main_v2 (by decide)).trans <|
    (Gen.V7_of m c main_v2 (by decide)).trans <|
    (Gen.V6_of m c main_v2 (by decide)).trans <|
    (Gen.V5_of m c main_v2 (by decide)).trans <|
    (Gen.V4_of m c main_v2 (by decide)).trans <|
    (Gen.V3_of m c main_v2 (by decide)).trans <|
    (Gen.V2_of m c main_v2 (by decide))
theorem V14_bo : Gen.V14 (F := Ideal) m outs c main_v5 = Gen.V1 m c main_v5 :=
  (Gen.V14_of m outs c main_v5 (by decide)).trans <|
    (Gen.V13_of m c main_v5 (by decide)).trans <|
    (Gen.V12_of m c main_v5 (by decide)).trans <|
    (Gen.V11_of m c main_v5 (by decide)).trans <|
    (Gen.V10_of m c main_v5 (by decide)).trans <|
    (Gen.V9_of m c main_v5 (by decide)).trans <|
    (Gen.V8_of m c main_v5 (by decide)).trans <|
    (Gen.V7_of m c main_v5 (by decide)).trans <|
    (Gen.V6_of m c main_v5 (by decide)).trans <|
    (Gen.V5_of m c main_v5 (by decide)).trans <|
    (Gen.V4_of m c main_v5 (by decide)).trans <|
    (Gen.V3_of m c main_v5 (by decide)).trans <|
    (Gen.V2_of m c main_v5 (by decide))

/-- The read-out weights padded with zero columns: the first host stretch writes them from the argument. -/
theorem V1_wo : Gen.V1 (F := Ideal) m c main_v2
    = (Host.scatter scatter_S256x384_S1_S256x349_01_n_1_0 (fun _ b => b)
        (broadcastInDim S256x384 ![] bcast_S_S256x384 (constant (F := Ideal) S_ .f32 0x00000000#32))
        (broadcastInDim S1 ![] bcast_S_S1 (constantI S_ 32 0#32))
        (m ((c.tc : Thread nD τ).loc main_arg3) : FVec Ideal S256x349 .f32) : FVec Ideal S256x384 .f32) := by
  simp only [Gen.V1, Gen.V0, hostOps0]
  after_results_simp

/-- The read-out bias padded with zeros. -/
theorem V1_bo : Gen.V1 (F := Ideal) m c main_v5
    = (Host.scatter scatter_S384_S1_S349_0_n_0_0 (fun _ b => b)
        (broadcastInDim S384 ![] bcast_S_S384 (constant (F := Ideal) S_ .f32 0x00000000#32))
        (broadcastInDim S1 ![] bcast_S_S1 (constantI S_ 32 0#32))
        (m ((c.tc : Thread nD τ).loc main_arg4) : FVec Ideal S349 .f32) : FVec Ideal S384 .f32) := by
  simp only [Gen.V1, Gen.V0, hostOps0]
  after_results_simp

/-- The program's result: the second kernel's result array without its padding columns. -/
theorem V29_res : Gen.V29 (F := Ideal) m outs c main_v193
    = extractStridedSlice S50000x349 ![0, 0] (Gen.V28 m outs c main_v192) slices_S50000x384_S50000x349_0_0 := by
  simp only [Gen.V29, hostOps2]
  after_results_simp

end Cert.KernelIdeal.Host

end
-- ==== Proof.KI.Reads.lean ====
/-
  The layout operations the host applies around the two kernels, read at an index: layer `l`'s three weight
  matrices and bias rows cut out of the stacked arguments; the three normalisation vectors laid side by side as
  columns; the padded read-out bias as one row; the result with its padding columns cut off.
-/
import proofs.«176711_j5789615915676_2_alg».proof.Proof.KI.Edges
import Idealize.ShloMosaic.Lib.ValueIdx
import Idealize.ShloMosaic.Lib.Pipeline.Value

noncomputable section

namespace Cert.KernelIdeal.Reads

open Cert.KernelIdeal Cert.KernelIdeal.Gen Cert.KernelIdeal.Glue Idealize.ShloMosaic Idealize.ShloMosaic.ValueIdx

/-- Matrix `r` of layer `o`: entry (k, j) of the cut is entry (o, r, k, j) of the stacked weights. -/
theorem wslab_apply (o : Nat) (ho : o < 2) (w : FVec Ideal S2x3x256x256 .f32)
    (hs : S2x3x256x256.Slices ![o, 0, 0, 0] S1x3x256x256) (r : Fin 3) (k j : Fin 256) :
    (shapeCast S3x256x256 (extractStridedSlice S1x3x256x256 ![o, 0, 0, 0] w hs) shapeCasts_S1x3x256x256_S3x256x256)
      (ix3 r k j) = w (ix4 ⟨o, ho⟩ r k j) := by
  refine (shapeCast_apply _ shapeCasts_S1x3x256x256_S3x256x256 (ix3 r k j) (ix4 (0 : Fin 1) r k j) ?_).trans ?_
  · rewrite [Shape.rowMajor_val_four, Shape.rowMajor_val_three]
    show ((0 * 3 + r.val) * 256 + k.val) * 256 + j.val = (r.val * 256 + k.val) * 256 + j.val
    omega
  · exact extractStridedSlice_apply ![o, 0, 0, 0] w hs (ix4 (0 : Fin 1) r k j) (ix4 ⟨o, ho⟩ r k j) (fun a => match a with
      | ⟨0, _⟩ => by show o = o + 0; omega
      | ⟨1, _⟩ => by show r.val = 0 + r.val; omega
      | ⟨2, _⟩ => by show k.val = 0 + k.val; omega
      | ⟨3, _⟩ => by show j.val = 0 + j.val; omega)

/-- Row `r` of layer `o`: entry j of the cut is entry (o, r, j) of the stacked biases. -/
theorem bslab_apply (o : Nat) (ho : o < 2) (b : FVec Ideal S2x3x256 .f32)
    (hs : S2x3x256.Slices ![o, 0, 0] S1x3x256) (r : Fin 3) (j : Fin 256) :
    (shapeCast S3x256 (extractStridedSlice S1x3x256 ![o, 0, 0] b hs) shapeCasts_S1x3x256_S3x256)
      (ix2 r j) = b (ix3 ⟨o, ho⟩ r j) := by
  refine (shapeCast_apply _ shapeCasts_S1x3x256_S3x256 (ix2 r j) (ix3 (0 : Fin 1) r j) ?_).trans ?_
  · rewrite [Shape.rowMajor_val_three, Shape.rowMajor_val_two]
    show (0 * 3 + r.val) * 256 + j.val = r.val * 256 + j.val
    omega
  · exact extractStridedSlice_apply ![o, 0, 0] b hs (ix3 (0 : Fin 1) r j) (ix3 ⟨o, ho⟩ r j) (fun a => match a with
      | ⟨0, _⟩ => by show o = o + 0; omega
      | ⟨1, _⟩ => by show r.val = 0 + r.val; omega
      | ⟨2, _⟩ => by show j.val = 0 + j.val; omega)

/-- A vector laid out as one column: row i holds entry i. -/
theorem col_apply (n : FVec Ideal S50000 .f32) (i : Fin 50000) :
    broadcastInDim S50000x1 ![0] bcast_S50000_S50000x1_0 n (ix2 i (0 : Fin 1)) = n (ix1 i) :=
  broadcastInDim_apply _ bcast_S50000_S50000x1_0 n (ix2 i (0 : Fin 1)) (ix1 i) (fun a => match a with
    | ⟨0, _⟩ => by show i.val = if (50000 : Nat) = 1 then 0 else i.val; rw [if_neg (by decide)])

/-- The padded bias as one row: entry (0, j) of the row is entry j of the vector. -/
theorem row1_apply (v : FVec Ideal S384 .f32) (j : Fin 384) :
    (shapeCast S1x384 v shapeCasts_S384_S1x384) (ix2 (0 : Fin 1) j) = v (ix1 j) := by
  refine shapeCast_apply v shapeCasts_S384_S1x384 (ix2 (0 : Fin 1) j) (ix1 j) ?_
  rewrite [Shape.rowMajor_val_one, Shape.rowMajor_val_two]
  show j.val = 0 * 384 + j.val
  omega

/-- The result without its padding: entry (i, j), j < 349, is the padded array's entry (i, j). -/
theorem cut_apply (y : FVec Ideal S50000x384 .f32) (i : Fin 50000) (j : Fin 349) :
    extractStridedSlice S50000x349 ![0, 0] y slices_S50000x384_S50000x349_0_0 (ix2 i j)
      = y (ix2 i (⟨j.val, by omega⟩ : Fin 384)) :=
  extractStridedSlice_apply ![0, 0] y slices_S50000x384_S50000x349_0_0 (ix2 i j) (ix2 i (⟨j.val, by omega⟩ : Fin 384)) (fun a => match a with
    | ⟨0, _⟩ => by show i.val = 0 + i.val; omega
    | ⟨1, _⟩ => by show j.val = 0 + j.val; omega)

/-- The three normalisation vectors side by side: column `r` of row `i` holds entry `i` of vector `r`. -/
theorem stack_apply (n0 n1 n2 : FVec Ideal S50000 .f32) (i : Fin 50000) (r : Fin 3) :
    stack n0 n1 n2 (ix2 i r) = (![n0, n1, n2] r) (ix1 i) := by
  unfold stack
  refine (concatenate_ofFn_unit_apply (t := S50000x3) (s₁ := S50000x1) (1 : Fin 2)
    (fun n : Fin 3 => broadcastInDim S50000x1 ![0] bcast_S50000_S50000x1_0 (![n0, n1, n2] n))
    concatenates_S50000x1_S50000x1_S50000x1_S50000x3_d1 rfl rfl (ix2 i r) r rfl (ix2 i (0 : Fin 1))
    (fun b hb => match b with
      | ⟨0, _⟩ => rfl
      | ⟨1, _⟩ => absurd rfl hb)).trans ?_
  exact col_apply _ i

theorem stack_apply0 (n0 n1 n2 : FVec Ideal S50000 .f32) (i : Fin 50000) : stack n0 n1 n2 (ix2 i (0 : Fin 3)) = n0 (ix1 i) :=
  stack_apply n0 n1 n2 i 0
theorem stack_apply1 (n0 n1 n2 : FVec Ideal S50000 .f32) (i : Fin 50000) : stack n0 n1 n2 (ix2 i (1 : Fin 3)) = n1 (ix1 i) :=
  stack_apply n0 n1 n2 i 1
theorem stack_apply2 (n0 n1 n2 : FVec Ideal S50000 .f32) (i : Fin 50000) : stack n0 n1 n2 (ix2 i (2 : Fin 3)) = n2 (ix1 i) :=
  stack_apply n0 n1 n2 i 2

end Cert.KernelIdeal.Reads

end
-- ==== Proof.LibScatter.lean ====
/-
  Reading a scatter at one index.

  `Host.scatter` is a left fold over the update indices in row-major order: each step replaces the
  element of the accumulated array at the index the update lands on (when it lands inside the
  operand) by the body applied to that element and the update's.  This module proves, first for any
  such fold over a list without repetitions and then for `Host.scatter` itself, that at a result
  index which exactly one update lands on the fold's value is the body applied to the operand's
  element and that update's, and that at a result index no update lands on it is the operand's
  element.  Nothing here depends on a particular shape or on the element type.
-/
import Idealize.ShloMosaic.PureOps.ShapeOps

namespace Cert.LibScatter

open Idealize.ShloMosaic

section Fold

variable {κ ι α β : Type} [DecidableEq ι]

/-- One step of a scatter-like fold: the update numbered `m` lands on `g m`; when that is `some i`
    the element at `i` becomes `f` of the old element and the update's value, and every other
    element stays; when it is `none` the update is dropped. -/
def step (g : κ → Option ι) (f : α → β → α) (upd : κ → β) (r : ι → α) (m : κ) : ι → α :=
  match g m with
  | some i => fun i' => if i' = i then f (r i) (upd m) else r i'
  | none => r

variable (g : κ → Option ι) (f : α → β → α) (upd : κ → β)

/-- A step whose update does not land on `i` leaves the element at `i`. -/
theorem step_apply_of_ne (r : ι → α) (m : κ) (i : ι) (h : g m ≠ some i) : step g f upd r m i = r i := by
  unfold step
  cases hgm : g m with
  | none => rfl
  | some i₀ =>
    have hne : i ≠ i₀ := fun e => h (by rw [hgm, e])
    exact if_neg hne

/-- A step whose update lands on `i` combines the element at `i` with the update's value. -/
theorem step_apply_of_eq (r : ι → α) (m : κ) (i : ι) (h : g m = some i) :
    step g f upd r m i = f (r i) (upd m) := by
  unfold step
  rw [h]
  exact if_pos rfl

/-- A fold none of whose updates lands on `i` leaves the element at `i`. -/
theorem foldl_step_apply_of_forall_ne (i : ι) :
    ∀ (l : List κ) (x : ι → α), (∀ m ∈ l, g m ≠ some i) → l.foldl (step g f upd) x i = x i
  | [], _, _ => rfl
  | m :: l, x, h => by
    rw [List.foldl_cons, foldl_step_apply_of_forall_ne i l _ fun b hb => h b (List.mem_cons_of_mem _ hb)]
    exact step_apply_of_ne g f upd x m i (h m List.mem_cons_self)

/-- THE FOLD READ AT `i`: over a list without repetitions in which `a` is the one update that lands
    on `i`, the fold's element at `i` is `f` of the start's element and `a`'s value. -/
theorem foldl_step_apply (i : ι) (a : κ) (ha : g a = some i) :
    ∀ (l : List κ) (x : ι → α), l.Nodup → a ∈ l → (∀ b ∈ l, g b = some i → b = a) →
      l.foldl (step g f upd) x i = f (x i) (upd a)
  | [], _, _, hm, _ => absurd hm List.not_mem_nil
  | m :: l, x, hnd, hm, huniq => by
    rw [List.foldl_cons]
    have hml : m ∉ l := (List.nodup_cons.mp hnd).1
    have hl : l.Nodup := (List.nodup_cons.mp hnd).2
    rcases List.mem_cons.mp hm with rfl | hal
    · -- the first update is the one: none of the later ones lands on `i`
      rw [foldl_step_apply_of_forall_ne g f upd i l _ fun b hb hbi =>
        hml (huniq b (List.mem_cons_of_mem _ hb) hbi ▸ hb)]
      exact step_apply_of_eq g f upd x a i ha
    · -- the one is among the later updates: the first does not land on `i`
      have hmi : g m ≠ some i := fun hmi => hml (huniq m List.mem_cons_self hmi ▸ hal)
      rw [foldl_step_apply i a ha l _ hl hal fun b hb => huniq b (List.mem_cons_of_mem _ hb),
        step_apply_of_ne g f upd x m i hmi]

end Fold

section Scatter

variable {s si u : Shape} {α : Type} {w : Nat}

/-- `Host.scatter` is the fold of `step` over the update numbers `0 … numel − 1`, the update numbered
    `n` being the one at the `n`-th index in row-major order. -/
theorem scatter_eq_foldl (d : ScatterDims s si u) (f : α → α → α) (x : s.Idx → α) (idx : IVec si w)
    (upd : u.Idx → α) :
    Host.scatter d f x idx upd
      = (List.finRange u.numel).foldl
          (step (fun n => d.resultIdx? (u.rowMajor.symm n) idx) f fun n => upd (u.rowMajor.symm n)) x := by
  unfold Host.scatter
  refine congrArg (fun F => List.foldl F x (List.finRange u.numel)) ?_
  funext r n
  unfold step
  dsimp only
  cases d.resultIdx? (u.rowMajor.symm n) idx <;> rfl

/-- THE SCATTER READ AT AN INDEX ONE UPDATE LANDS ON: when update index `j` lands on `i` and no other
    update index does, the result's element at `i` is the body applied to the operand's element and
    the update's element at `j`. -/
theorem scatter_apply_of_unique (d : ScatterDims s si u) (f : α → α → α) (x : s.Idx → α) (idx : IVec si w)
    (upd : u.Idx → α) (i : s.Idx) (j : u.Idx) (hj : d.resultIdx? j idx = some i)
    (huniq : ∀ j', d.resultIdx? j' idx = some i → j' = j) :
    Host.scatter d f x idx upd i = f (x i) (upd j) := by
  rw [scatter_eq_foldl]
  have h := foldl_step_apply (fun n => d.resultIdx? (u.rowMajor.symm n) idx) f
    (fun n => upd (u.rowMajor.symm n)) i (u.rowMajor j)
    (by show d.resultIdx? (u.rowMajor.symm (u.rowMajor j)) idx = some i
        rw [Equiv.symm_apply_apply]; exact hj)
    (List.finRange u.numel) x (List.nodup_finRange _) (List.mem_finRange _)
    (fun b _ hb => by
      have := huniq _ hb
      rw [← this, Equiv.apply_symm_apply])
  rw [h, Equiv.symm_apply_apply]

/-- THE SCATTER READ AT AN INDEX NO UPDATE LANDS ON: the operand's element. -/
theorem scatter_apply_of_forall_ne (d : ScatterDims s si u) (f : α → α → α) (x : s.Idx → α) (idx : IVec si w)
    (upd : u.Idx → α) (i : s.Idx) (hnone : ∀ j, d.resultIdx? j idx ≠ some i) :
    Host.scatter d f x idx upd i = x i := by
  rw [scatter_eq_foldl]
  exact foldl_step_apply_of_forall_ne _ f _ i _ x fun b _ => hnone _

/-- Where an update lands: update index `j` lands on `i` exactly when, on every operand axis, the
    window's start plus `j`'s window coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hin
      have hi := Option.some.inj h
      intro a
      rw [← hi]
      exact (Int.toNat_of_nonneg (hin a).1).symm
    · exact absurd h (by simp)
  · intro h
    have hin : ∀ a, 0 ≤ d.start j idx a + (d.window j a : Int) ∧
        d.start j idx a + (d.window j a : Int) < s.size a := fun a => by
      rw [h a]; exact ⟨Int.natCast_nonneg _, Int.ofNat_lt.mpr (i a).isLt⟩
    rw [dif_pos hin]
    congr 1
    funext a
    refine Fin.ext ?_
    show (d.start j idx a + (d.window j a : Int)).toNat = (i a).val
    rw [h a]; exact Int.toNat_natCast _

/-- Scatter indices that are all zero start every window at the operand's origin. -/
theorem start_eq_zero (d : ScatterDims s si u) (j : u.Idx) (idx : IVec si w) (hidx : ∀ k, idx k = 0#w)
    (a : Fin s.rank) : d.start j idx a = 0 := by
  unfold ScatterDims.start
  split
  · rw [hidx]; exact BitVec.toInt_zero
  · rfl

end Scatter

end Cert.LibScatter
-- ==== Proof.KI.Pad.lean ====
/-
  The zero-padded weight matrix and bias vector, read at an index.

  The program pads a 256×349 matrix with zero columns up to 384 columns, and a 349-vector with
  zeros up to length 384, by scattering the matrix (the vector) as ONE window, starting at the
  origin, into an array of zeros.  Update index `(k, j)` then lands on result index `(k, j)` and on
  no other, so the padded array at `(k, j)`, `j < 349`, is the matrix's element at `(k, j)`.
-/
import proofs.«176711_j5789615915676_2_alg».proof.Proof.Gen.KernelIdeal
import proofs.«176711_j5789615915676_2_alg».proof.Proof.LibScatter
import Idealize.ShloMosaic.Lib.ValueIdx

namespace Cert.KernelIdeal.Pad

open Idealize.ShloMosaic Idealize.ShloMosaic.ValueIdx
open Cert.KernelIdeal Cert.KernelIdeal.Gen
open Cert.LibScatter

/-- The scatter indices are all zero: the one window starts at the origin. -/
theorem zero_idx (k : S1.Idx) : broadcastInDim S1 ![] bcast_S_S1 (constantI S_ 32 0#32) k = 0#32 := rfl

/-- The matrix's window coordinate on each operand axis is the update index's coordinate on that axis. -/
theorem w_window0 (j : S256x349.Idx) : scatter_S256x384_S1_S256x349_01_n_1_0.window j 0 = (j 0).val := rfl
theorem w_window1 (j : S256x349.Idx) : scatter_S256x384_S1_S256x349_01_n_1_0.window j 1 = (j 1).val := rfl

/-- The vector's window coordinate is the update index's coordinate. -/
theorem b_window0 (j : S349.Idx) : scatter_S384_S1_S349_0_n_0_0.window j 0 = (j 0).val := rfl

/-- THE PADDED MATRIX AT `(k, j)`, `j < 349`: the matrix's element at `(k, j)`. -/
theorem woutp_apply (wo : FVec Ideal S256x349 .f32) (k : Fin 256) (j : Fin 349) :
    Host.scatter scatter_S256x384_S1_S256x349_01_n_1_0 (fun _ b => b)
      (broadcastInDim S256x384 ![] bcast_S_S256x384 (constant (F := Ideal) S_ .f32 0x00000000#32))
      (broadcastInDim S1 ![] bcast_S_S1 (constantI S_ 32 0#32)) wo (ix2 k ⟨j.val, by omega⟩) = wo (ix2 k j) := by
  refine scatter_apply_of_unique _ _ _ _ wo _ (ix2 k j) ?_ ?_
  · rw [resultIdx?_eq_some_iff]
    intro a
    rw [start_eq_zero _ _ _ zero_idx]
    match a with
    | ⟨0, _⟩ => exact (congrArg (fun n : Nat => (0 : Int) + (n : Int)) (w_window0 (ix2 k j))).trans (Int.zero_add _)
    | ⟨1, _⟩ => exact (congrArg (fun n : Nat => (0 : Int) + (n : Int)) (w_window1 (ix2 k j))).trans (Int.zero_add _)
  · intro j' hj'
    rw [resultIdx?_eq_some_iff] at hj'
    have h0 := hj' 0
    have h1 := hj' 1
    rw [start_eq_zero _ _ _ zero_idx, w_window0] at h0
    rw [start_eq_zero _ _ _ zero_idx, w_window1] at h1
    have e0 : (j' 0).val = k.val := by
      have : ((j' 0).val : Int) = (k.val : Int) := (Int.zero_add _).symm.trans h0
      exact Int.ofNat_inj.mp this
    have e1 : (j' 1).val = j.val := by
      have : ((j' 1).val : Int) = (j.val : Int) := (Int.zero_add _).symm.trans h1
      exact Int.ofNat_inj.mp this
    rw [eq_ix2 j']
    exact congrArg₂ ix2 (Fin.ext e0) (Fin.ext e1)

/-- THE PADDED VECTOR AT `j < 349`: the vector's element at `j`. -/
theorem boutp_apply (bo : FVec Ideal S349 .f32) (j : Fin 349) :
    Host.scatter scatter_S384_S1_S349_0_n_0_0 (fun _ b => b)
      (broadcastInDim S384 ![] bcast_S_S384 (constant (F := Ideal) S_ .f32 0x00000000#32))
      (broadcastInDim S1 ![] bcast_S_S1 (constantI S_ 32 0#32)) bo (ix1 ⟨j.val, by omega⟩) = bo (ix1 j) := by
  refine scatter_apply_of_unique _ _ _ _ bo _ (ix1 j) ?_ ?_
  · rw [resultIdx?_eq_some_iff]
    intro a
    rw [start_eq_zero _ _ _ zero_idx]
    match a with
    | ⟨0, _⟩ => exact (congrArg (fun n : Nat => (0 : Int) + (n : Int)) (b_window0 (ix1 j))).trans (Int.zero_add _)
  · intro j' hj'
    rw [resultIdx?_eq_some_iff] at hj'
    have h0 := hj' 0
    rw [start_eq_zero _ _ _ zero_idx, b_window0] at h0
    have e0 : (j' 0).val = j.val := by
      have : ((j' 0).val : Int) = (j.val : Int) := (Int.zero_add _).symm.trans h0
      exact Int.ofNat_inj.mp this
    rw [eq_ix1 j']
    exact congrArg ix1 (Fin.ext e0)

end Cert.KernelIdeal.Pad
-- ==== Proof.Ref.Dense.lean ====
/-
  The dense part of one graph-convolution layer and the read-out, as functions of their operands, each read
  at one element.

  `contrib a n w b`  one relation's contribution: the aggregated rows `a`, each scaled by its node's normalisation
                     `n`, times the weights `w`, plus the bias `b` on every row;
  `mean3 c0 c1 c2`   the three contributions added one after the other onto zero, divided by three;
  `relu x`           the larger of `x` and zero;
  `outR h wo bo`     the read-out: `h` times `wo`, plus `bo` on every row;
  and a relation's weights and bias as slices of the stacked arrays. The float operations are read at the extended
  reals, where a matrix product's element is the sum of the products along the contracted axis, a broadcast reads
  its operand at the coordinates it keeps, and dividing by the real three is multiplying by one third.
-/
import proofs.«176711_j5789615915676_2_alg».proof.Proof.Gen.ReferenceIdeal
import proofs.«176711_j5789615915676_2_alg».proof.Proof.Spec
import Idealize.ShloMosaic.Lib.ValueIdx
import Idealize.ShloMosaic.Lib.Pipeline.Value
import Idealize.ShloMosaic.PureOps.Ideal.Laws

noncomputable section

namespace Cert.ReferenceIdeal.Dense

open Cert.ReferenceIdeal Cert.ReferenceIdeal.Gen Idealize.ShloMosaic Idealize.ShloMosaic.ValueIdx Cert.Spec

/-! ## The constants -/

/-- The word 0x40400000 is the real three. -/
theorem ofBits_three : Ideal.ofBits .f32 0x40400000#32 = ((3 : ℝ) : EReal) := by
  simp [Ideal.ofBits, Ideal.ieee, -EReal.coe_mul]; norm_num

/-- The zero word, broadcast to every element, reads as zero. -/
theorem zeros_apply (i : Fin 50000) (j : Fin 256) :
    broadcastInDim S50000x256 ![] bcast_S_S50000x256 (constant (F := Ideal) S_ .f32 0x00000000#32) (ix2 i j) = 0 := by
  rw [broadcastInDim_apply _ bcast_S_S50000x256 _ (ix2 i j) ix0 (fun a => a.elim0), constant_apply, Ideal.ofBits_zero_f32]

/-- The word of three, broadcast to every element, reads as the real three. -/
theorem threes_apply (i : Fin 50000) (j : Fin 256) :
    broadcastInDim S50000x256 ![] bcast_S_S50000x256 (constant (F := Ideal) S_ .f32 0x40400000#32) (ix2 i j) = ((3 : ℝ) : EReal) := by
  rw [broadcastInDim_apply _ bcast_S_S50000x256 _ (ix2 i j) ix0 (fun a => a.elim0), constant_apply, ofBits_three]

/-! ## One relation's contribution -/

/-- The aggregated rows scaled by the nodes' normalisation, times the weights, plus the bias on every row. -/
def contrib (a : FVec Ideal S50000x256 .f32) (n : FVec Ideal S50000 .f32) (w : FVec Ideal S256x256 .f32) (b : FVec Ideal S256 .f32) :
    FVec Ideal S50000x256 .f32 :=
  addf (Host.dotGeneral dot_S50000x256_S256x256_S50000x256_1_0_0_1_n_n none (mulf a (broadcastInDim S50000x256 ![0, 1] bcast_S50000x1_S50000x256_0_1 (broadcastInDim S50000x1 ![0] bcast_S50000_S50000x1_0 n))) w) (broadcastInDim S50000x256 ![0, 1] bcast_S1x256_S50000x256_0_1 (broadcastInDim S1x256 ![1] bcast_S256_S1x256_1 b))

/-- A column of normalisations broadcast along the rows reads the node's own normalisation. -/
theorem ncol_apply (n : FVec Ideal S50000 .f32) (i : Fin 50000) (k : Fin 256) :
    broadcastInDim S50000x256 ![0, 1] bcast_S50000x1_S50000x256_0_1 (broadcastInDim S50000x1 ![0] bcast_S50000_S50000x1_0 n) (ix2 i k) = n (ix1 i) := by
  rw [broadcastInDim_apply _ bcast_S50000x1_S50000x256_0_1 _ (ix2 i k) (ix2 i (⟨0, Nat.one_pos⟩ : Fin 1)) (fun a => match a with
      | ⟨0, _⟩ => by show i.val = if (50000 : Nat) = 1 then 0 else i.val; rw [if_neg (by decide)]
      | ⟨1, _⟩ => by show 0 = if (1 : Nat) = 1 then 0 else k.val; rw [if_pos rfl]),
    broadcastInDim_apply _ bcast_S50000_S50000x1_0 n (ix2 i (⟨0, Nat.one_pos⟩ : Fin 1)) (ix1 i) (fun a => match a with
      | ⟨0, _⟩ => by show i.val = if (50000 : Nat) = 1 then 0 else i.val; rw [if_neg (by decide)])]

/-- A bias broadcast to every row reads the column's bias. -/
theorem brow_apply (b : FVec Ideal S256 .f32) (i : Fin 50000) (j : Fin 256) :
    broadcastInDim S50000x256 ![0, 1] bcast_S1x256_S50000x256_0_1 (broadcastInDim S1x256 ![1] bcast_S256_S1x256_1 b) (ix2 i j) = b (ix1 j) := by
  rw [broadcastInDim_apply _ bcast_S1x256_S50000x256_0_1 _ (ix2 i j) (ix2 (⟨0, Nat.one_pos⟩ : Fin 1) j) (fun a => match a with
      | ⟨0, _⟩ => by show 0 = if (1 : Nat) = 1 then 0 else i.val; rw [if_pos rfl]
      | ⟨1, _⟩ => by show j.val = if (256 : Nat) = 1 then 0 else j.val; rw [if_neg (by decide)]),
    broadcastInDim_apply _ bcast_S256_S1x256_1 b (ix2 (⟨0, Nat.one_pos⟩ : Fin 1) j) (ix1 j) (fun a => match a with
      | ⟨0, _⟩ => by show j.val = if (256 : Nat) = 1 then 0 else j.val; rw [if_neg (by decide)])]

/-! The operand indices of a product at an output index and a contraction index, coordinate by coordinate. -/
theorem dot256_lhs0 (i : S50000x256.Idx) (q : dot_S50000x256_S256x256_S50000x256_1_0_0_1_n_n.contr.Idx) :
    (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
theorem dot256_lhs1 (i : S50000x256.Idx) (q : dot_S50000x256_S256x256_S50000x256_1_0_0_1_n_n.contr.Idx) :
    (dot_S50000x256_S256x256_S50000x256_1_0_0_1_n_n.lhsIdx i q 1).val = (q ⟨0, by decide⟩).val :=
  dot_S50000x256_S256x256_S50000x256_1_0_0_1_n_n.lhsIdx_val_of_single rfl i q
theorem dot256_rhs0 (i : S50000x256.Idx) (q : dot_S50000x256_S256x256_S50000x256_1_0_0_1_n_n.contr.Idx) :
    (dot_S50000x256_S256x256_S50000x256_1_0_0_1_n_n.rhsIdx i q 0).val = (q ⟨0, by decide⟩).val :=
  dot_S50000x256_S256x256_S50000x256_1_0_0_1_n_n.rhsIdx_val_of_single rfl i q
theorem dot256_rhs1 (i : S50000x256.Idx) (q : dot_S50000x256_S256x256_S50000x256_1_0_0_1_n_n.contr.Idx) :
    (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl

/-- The product of a 50000×256 and a 256×256 array at an element: the sum of the products along the shared axis. -/
theorem dot256_apply (l : FVec Ideal S50000x256 .f32) (r : FVec Ideal S256x256 .f32) (i : Fin 50000) (j : Fin 256) :
    Host.dotGeneral dot_S50000x256_S256x256_S50000x256_1_0_0_1_n_n none l r (ix2 i j) = ∑ k : Fin 256, l (ix2 i k) * r (ix2 k j) := by
  simp only [Host.dotGeneral]
  rw [Ideal.dotGeneral_apply, ← Equiv.sum_comp (contrEquiv1 dot_S50000x256_S256x256_S50000x256_1_0_0_1_n_n 256 rfl rfl).symm]
  refine Finset.sum_congr rfl fun k _ => ?_
  have hk := contrEquiv1_symm_val dot_S50000x256_S256x256_S50000x256_1_0_0_1_n_n 256 rfl rfl k
  have el : dot_S50000x256_S256x256_S50000x256_1_0_0_1_n_n.lhsIdx (ix2 i j) ((contrEquiv1 dot_S50000x256_S256x256_S50000x256_1_0_0_1_n_n 256 rfl rfl).symm k) = ix2 i k := funext fun a => Fin.ext (by
    match a with
    | ⟨0, _⟩ => exact dot256_lhs0 _ _
    | ⟨1, _⟩ => exact (dot256_lhs1 _ _).trans hk)
  have er : dot_S50000x256_S256x256_S50000x256_1_0_0_1_n_n.rhsIdx (ix2 i j) ((contrEquiv1 dot_S50000x256_S256x256_S50000x256_1_0_0_1_n_n 256 rfl rfl).symm k) = ix2 k j := funext fun a => Fin.ext (by
    match a with
    | ⟨0, _⟩ => exact (dot256_rhs0 _ _).trans hk
    | ⟨1, _⟩ => exact dot256_rhs1 _ _)
  rw [el, er]

/-- One relation's contribution at an element is the specification's term. -/
theorem contrib_apply (a : FVec Ideal S50000x256 .f32) (n : FVec Ideal S50000 .f32) (w : FVec Ideal S256x256 .f32) (b : FVec Ideal S256 .f32)
    (i : Fin 50000) (j : Fin 256) :
    contrib a n w b (ix2 i j) = term (fun k => a (ix2 i k)) (n (ix1 i)) (fun k => w (ix2 k j)) (b (ix1 j)) := by
  unfold contrib term
  rw [addf_apply, dot256_apply, brow_apply]
  refine congrArg (· + b (ix1 j)) (Finset.sum_congr rfl fun k _ => ?_)
  rw [mulf_apply, ncol_apply]

/-! ## The mean over the three relations -/

/-- The three contributions added one after the other onto zero, divided by three. -/
def mean3 (c0 c1 c2 : FVec Ideal S50000x256 .f32) : FVec Ideal S50000x256 .f32 :=
  Host.divf (addf (addf (addf (broadcastInDim S50000x256 ![] bcast_S_S50000x256 (constant S_ .f32 0x00000000#32)) c0) c1) c2) (broadcastInDim S50000x256 ![] bcast_S_S50000x256 (constant S_ .f32 0x40400000#32))

/-- The quotient by the real three is the product with one third. -/
theorem mean3_apply (c0 c1 c2 : FVec Ideal S50000x256 .f32) (i : Fin 50000) (j : Fin 256) :
    mean3 c0 c1 c2 (ix2 i j) = meanK (((0 + c0 (ix2 i j)) + c1 (ix2 i j)) + c2 (ix2 i j)) := by
  unfold mean3 meanK
  show Ideal.div (((broadcastInDim S50000x256 ![] bcast_S_S50000x256 (constant (F := Ideal) S_ .f32 0x00000000#32) (ix2 i j) + c0 (ix2 i j)) + c1 (ix2 i j)) + c2 (ix2 i j))
      (broadcastInDim S50000x256 ![] bcast_S_S50000x256 (constant (F := Ideal) S_ .f32 0x40400000#32) (ix2 i j)) = _
  rw [zeros_apply, threes_apply, Ideal.div_coe (by norm_num : (3 : ℝ) ≠ 0)]

/-! ## The rectifier -/

/-- The larger of each element and zero. -/
def relu (x : FVec Ideal S50000x256 .f32) : FVec Ideal S50000x256 .f32 :=
  maximumf x (broadcastInDim S50000x256 ![] bcast_S_S50000x256 (constant S_ .f32 0x00000000#32))

theorem relu_apply (x : FVec Ideal S50000x256 .f32) (i : Fin 50000) (j : Fin 256) :
    relu x (ix2 i j) = max (x (ix2 i j)) 0 := by
  unfold relu
  rw [maximumf_apply, zeros_apply]

/-! ## The read-out -/

theorem dot349_lhs0 (i : S50000x349.Idx) (q : dot_S50000x256_S256x349_S50000x349_1_0_0_1_n_n.contr.Idx) :
    (dot_S50000x256_S256x349_S50000x349_1_0_0_1_n_n.lhsIdx i q 0).val = (i 0).val := by
  unfold DotDims.lhsIdx
  rw [dif_neg (show ¬(0 : Fin S50000x256.rank) ∈ dot_S50000x256_S256x349_S50000x349_1_0_0_1_n_n.lhsBatch by decide), dif_pos (show (0 : Fin S50000x256.rank) ∈ dot_S50000x256_S256x349_S50000x349_1_0_0_1_n_n.lhsNonContracting by decide)]
  rfl
theorem dot349_lhs1 (i : S50000x349.Idx) (q : dot_S50000x256_S256x349_S50000x349_1_0_0_1_n_n.contr.Idx) :
    (dot_S50000x256_S256x349_S50000x349_1_0_0_1_n_n.lhsIdx i q 1).val = (q ⟨0, by decide⟩).val :=
  dot_S50000x256_S256x349_S50000x349_1_0_0_1_n_n.lhsIdx_val_of_single rfl i q
theorem dot349_rhs0 (i : S50000x349.Idx) (q : dot_S50000x256_S256x349_S50000x349_1_0_0_1_n_n.contr.Idx) :
    (dot_S50000x256_S256x349_S50000x349_1_0_0_1_n_n.rhsIdx i q 0).val = (q ⟨0, by decide⟩).val :=
  dot_S50000x256_S256x349_S50000x349_1_0_0_1_n_n.rhsIdx_val_of_single rfl i q
theorem dot349_rhs1 (i : S50000x349.Idx) (q : dot_S50000x256_S256x349_S50000x349_1_0_0_1_n_n.contr.Idx) :
    (dot_S50000x256_S256x349_S50000x349_1_0_0_1_n_n.rhsIdx i q 1).val = (i 1).val := by
  unfold DotDims.rhsIdx
  rw [dif_neg (show ¬(1 : Fin S256x349.rank) ∈ dot_S50000x256_S256x349_S50000x349_1_0_0_1_n_n.rhsBatch by decide), dif_pos (show (1 : Fin S256x349.rank) ∈ dot_S50000x256_S256x349_S50000x349_1_0_0_1_n_n.rhsNonContracting by decide)]
  rfl

/-- The product of a 50000×256 and a 256×349 array at an element: the sum of the products along the shared axis. -/
theorem dot349_apply (l : FVec Ideal S50000x256 .f32) (r : FVec Ideal S256x349 .f32) (i : Fin 50000) (j : Fin 349) :
    Host.dotGeneral dot_S50000x256_S256x349_S50000x349_1_0_0_1_n_n none l r (ix2 i j) = ∑ k : Fin 256, l (ix2 i k) * r (ix2 k j) := by
  simp only [Host.dotGeneral]
  rw [Ideal.dotGeneral_apply, ← Equiv.sum_comp (contrEquiv1 dot_S50000x256_S256x349_S50000x349_1_0_0_1_n_n 256 rfl rfl).symm]
  refine Finset.sum_congr rfl fun k _ => ?_
  have hk := contrEquiv1_symm_val dot_S50000x256_S256x349_S50000x349_1_0_0_1_n_n 256 rfl rfl k
  have el : dot_S50000x256_S256x349_S50000x349_1_0_0_1_n_n.lhsIdx (ix2 i j) ((contrEquiv1 dot_S50000x256_S256x349_S50000x349_1_0_0_1_n_n 256 rfl rfl).symm k) = ix2 i k := funext fun a => Fin.ext (by
    match a with
    | ⟨0, _⟩ => exact dot349_lhs0 _ _
    | ⟨1, _⟩ => exact (dot349_lhs1 _ _).trans hk)
  have er : dot_S50000x256_S256x349_S50000x349_1_0_0_1_n_n.rhsIdx (ix2 i j) ((contrEquiv1 dot_S50000x256_S256x349_S50000x349_1_0_0_1_n_n 256 rfl rfl).symm k) = ix2 k j := funext fun a => Fin.ext (by
    match a with
    | ⟨0, _⟩ => exact (dot349_rhs0 _ _).trans hk
    | ⟨1, _⟩ => exact dot349_rhs1 _ _)
  rw [el, er]

/-- The hidden rows times the read-out weights, plus the read-out bias on every row. -/
def outR (h : FVec Ideal S50000x256 .f32) (wo : FVec Ideal S256x349 .f32) (bo : FVec Ideal S349 .f32) : FVec Ideal S50000x349 .f32 :=
  addf (Host.dotGeneral dot_S50000x256_S256x349_S50000x349_1_0_0_1_n_n none h wo) (broadcastInDim S50000x349 ![0, 1] bcast_S1x349_S50000x349_0_1 (broadcastInDim S1x349 ![1] bcast_S349_S1x349_1 bo))

theorem outR_apply (h : FVec Ideal S50000x256 .f32) (wo : FVec Ideal S256x349 .f32) (bo : FVec Ideal S349 .f32) (i : Fin 50000) (j : Fin 349) :
    outR h wo bo (ix2 i j) = (∑ k : Fin 256, h (ix2 i k) * wo (ix2 k j)) + bo (ix1 j) := by
  unfold outR
  rw [addf_apply, dot349_apply,
    broadcastInDim_apply _ bcast_S1x349_S50000x349_0_1 _ (ix2 i j) (ix2 (⟨0, Nat.one_pos⟩ : Fin 1) j) (fun a => match a with
      | ⟨0, _⟩ => by show 0 = if (1 : Nat) = 1 then 0 else i.val; rw [if_pos rfl]
      | ⟨1, _⟩ => by show j.val = if (349 : Nat) = 1 then 0 else j.val; rw [if_neg (by decide)]),
    broadcastInDim_apply _ bcast_S349_S1x349_1 bo (ix2 (⟨0, Nat.one_pos⟩ : Fin 1) j) (ix1 j) (fun a => match a with
      | ⟨0, _⟩ => by show j.val = if (349 : Nat) = 1 then 0 else j.val; rw [if_neg (by decide)])]

/-! ## A relation's weights and bias: slices of the stacked arrays -/

/-- The 256×256 block at layer `o0`, relation `o1` of the stacked weights, read at an element. -/
theorem wslice_apply (o0 o1 : Nat) (h0 : o0 < 2) (h1 : o1 < 3) (W : FVec Ideal S2x3x256x256 .f32)
    (hs : S2x3x256x256.Slices ![o0, o1, 0, 0] S1x1x256x256) (k j : Fin 256) :
    (shapeCast S256x256 (extractStridedSlice S1x1x256x256 ![o0, o1, 0, 0] W hs) shapeCasts_S1x1x256x256_S256x256) (ix2 k j)
      = W (ix4 (⟨o0, h0⟩ : Fin 2) (⟨o1, h1⟩ : Fin 3) k j) := by
  rw [shapeCast_apply _ shapeCasts_S1x1x256x256_S256x256 (ix2 k j) (ix4 (⟨0, Nat.one_pos⟩ : Fin 1) (⟨0, Nat.one_pos⟩ : Fin 1) k j)
      (by rewrite [Shape.rowMajor_val_four, Shape.rowMajor_val_two]; show ((0 * 1 + 0) * 256 + k.val) * 256 + j.val = k.val * 256 + j.val; omega)]
  exact extractStridedSlice_apply ![o0, o1, 0, 0] W hs _ (ix4 (⟨o0, h0⟩ : Fin 2) (⟨o1, h1⟩ : Fin 3) k j) (fun a => match a with
    | ⟨0, _⟩ => by show o0 = o0 + 0; omega
    | ⟨1, _⟩ => by show o1 = o1 + 0; omega
    | ⟨2, _⟩ => by show k.val = 0 + k.val; omega
    | ⟨3, _⟩ => by show j.val = 0 + j.val; omega)

/-- The 256 biases at layer `o0`, relation `o1` of the stacked biases, read at an element. -/
theorem bslice_apply (o0 o1 : Nat) (h0 : o0 < 2) (h1 : o1 < 3) (B : FVec Ideal S2x3x256 .f32)
    (hs : S2x3x256.Slices ![o0, o1, 0] S1x1x256) (j : Fin 256) :
    (shapeCast S256 (extractStridedSlice S1x1x256 ![o0, o1, 0] B hs) shapeCasts_S1x1x256_S256) (ix1 j)
      = B (ix3 (⟨o0, h0⟩ : Fin 2) (⟨o1, h1⟩ : Fin 3) j) := by
  rw [shapeCast_apply _ shapeCasts_S1x1x256_S256 (ix1 j) (ix3 (⟨0, Nat.one_pos⟩ : Fin 1) (⟨0, Nat.one_pos⟩ : Fin 1) j)
      (by rewrite [Shape.rowMajor_val_three, Shape.rowMajor_val_one]; show (0 * 1 + 0) * 256 + j.val = j.val; omega)]
  exact extractStridedSlice_apply ![o0, o1, 0] B hs _ (ix3 (⟨o0, h0⟩ : Fin 2) (⟨o1, h1⟩ : Fin 3) j) (fun a => match a with
    | ⟨0, _⟩ => by show o0 = o0 + 0; omega
    | ⟨1, _⟩ => by show o1 = o1 + 0; omega
    | ⟨2, _⟩ => by show j.val = 0 + j.val; omega)

end Cert.ReferenceIdeal.Dense

end
-- ==== Proof.Ref.Shape.lean ====
/-
  The reference program's result as a composition of named parts, and that composition read at one element.

  Per layer and relation the edge list gives the sources and destinations; a node's degree under an index list is the
  number of its occurrences, at least one; `nrm` is the inverse square root of the degree; `agg h src dst` adds, at
  every destination, the source's row of `h` scaled by the inverse square root of the source's degree under `src`.
  A layer is the mean over its three relations of `contrib (agg …) (nrm dst) W b`; the first layer is followed by the
  rectifier, the second by the read-out. The aggregation, the degrees and the normalisations are kept as they are
  spelt; only the dense part is read at an element.
-/
import proofs.«176711_j5789615915676_2_alg».proof.Proof.Ref.Dense

noncomputable section

namespace Cert.ReferenceIdeal.Dense

open Cert.ReferenceIdeal Cert.ReferenceIdeal.Gen Idealize.ShloMosaic Idealize.ShloMosaic.ValueIdx Cert.Spec

/-! ## The slices of the edge list, the weights and the biases -/

/-- The sources of layer 0, relation 0's edges. -/
def s00 (e : IVec S2x3x2x250000 32) : IVec S250000 32 :=
  shapeCast _ (extractStridedSlice S1x1x1x250000 ![0, 0, 0, 0] e slices_S2x3x2x250000_S1x1x1x250000_0_0_0_0) shapeCasts_S1x1x1x250000_S250000
/-- The destinations of layer 0, relation 0's edges. -/
def d00 (e : IVec S2x3x2x250000 32) : IVec S250000 32 :=
  shapeCast _ (extractStridedSlice S1x1x1x250000 ![0, 0, 1, 0] e slices_S2x3x2x250000_S1x1x1x250000_0_0_1_0) shapeCasts_S1x1x1x250000_S250000
/-- The sources of layer 0, relation 1's edges. -/
def s01 (e : IVec S2x3x2x250000 32) : IVec S250000 32 :=
  shapeCast _ (extractStridedSlice S1x1x1x250000 ![0, 1, 0, 0] e slices_S2x3x2x250000_S1x1x1x250000_0_1_0_0) shapeCasts_S1x1x1x250000_S250000
/-- The destinations of layer 0, relation 1's edges. -/
def d01 (e : IVec S2x3x2x250000 32) : IVec S250000 32 :=
  shapeCast _ (extractStridedSlice S1x1x1x250000 ![0, 1, 1, 0] e slices_S2x3x2x250000_S1x1x1x250000_0_1_1_0) shapeCasts_S1x1x1x250000_S250000
/-- The sources of layer 0, relation 2's edges. -/
def s02 (e : IVec S2x3x2x250000 32) : IVec S250000 32 :=
  shapeCast _ (extractStridedSlice S1x1x1x250000 ![0, 2, 0, 0] e slices_S2x3x2x250000_S1x1x1x250000_0_2_0_0) shapeCasts_S1x1x1x250000_S250000
/-- The destinations of layer 0, relation 2's edges. -/
def d02 (e : IVec S2x3x2x250000 32) : IVec S250000 32 :=
  shapeCast _ (extractStridedSlice S1x1x1x250000 ![0, 2, 1, 0] e slices_S2x3x2x250000_S1x1x1x250000_0_2_1_0) shapeCasts_S1x1x1x250000_S250000
/-- The sources of layer 1, relation 0's edges. -/
def s10 (e : IVec S2x3x2x250000 32) : IVec S250000 32 :=
  shapeCast _ (extractStridedSlice S1x1x1x250000 ![1, 0, 0, 0] e slices_S2x3x2x250000_S1x1x1x250000_1_0_0_0) shapeCasts_S1x1x1x250000_S250000
/-- The destinations of layer 1, relation 0's edges. -/
def d10 (e : IVec S2x3x2x250000 32) : IVec S250000 32 :=
  shapeCast _ (extractStridedSlice S1x1x1x250000 ![1, 0, 1, 0] e slices_S2x3x2x250000_S1x1x1x250000_1_0_1_0) shapeCasts_S1x1x1x250000_S250000
/-- The sources of layer 1, relation 1's edges. -/
def s11 (e : IVec S2x3x2x250000 32) : IVec S250000 32 :=
  shapeCast _ (extractStridedSlice S1x1x1x250000 ![1, 1, 0, 0] e slices_S2x3x2x250000_S1x1x1x250000_1_1_0_0) shapeCasts_S1x1x1x250000_S250000
/-- The destinations of layer 1, relation 1's edges. -/
def d11 (e : IVec S2x3x2x250000 32) : IVec S250000 32 :=
  shapeCast _ (extractStridedSlice S1x1x1x250000 ![1, 1, 1, 0] e slices_S2x3x2x250000_S1x1x1x250000_1_1_1_0) shapeCasts_S1x1x1x250000_S250000
/-- The sources of layer 1, relation 2's edges. -/
def s12 (e : IVec S2x3x2x250000 32) : IVec S250000 32 :=
  shapeCast _ (extractStridedSlice S1x1x1x250000 ![1, 2, 0, 0] e slices_S2x3x2x250000_S1x1x1x250000_1_2_0_0) shapeCasts_S1x1x1x250000_S250000
/-- The destinations of layer 1, relation 2's edges. -/
def d12 (e : IVec S2x3x2x250000 32) : IVec S250000 32 :=
  shapeCast _ (extractStridedSlice S1x1x1x250000 ![1, 2, 1, 0] e slices_S2x3x2x250000_S1x1x1x250000_1_2_1_0) shapeCasts_S1x1x1x250000_S250000
/-- The weights of layer 0, relation 0. -/
def wsl00 (W : FVec Ideal S2x3x256x256 .f32) : FVec Ideal S256x256 .f32 :=
  shapeCast _ (extractStridedSlice S1x1x256x256 ![0, 0, 0, 0] W slices_S2x3x256x256_S1x1x256x256_0_0_0_0) shapeCasts_S1x1x256x256_S256x256
/-- The bias of layer 0, relation 0. -/
def bsl00 (b : FVec Ideal S2x3x256 .f32) : FVec Ideal S256 .f32 :=
  shapeCast _ (extractStridedSlice S1x1x256 ![0, 0, 0] b slices_S2x3x256_S1x1x256_0_0_0) shapeCasts_S1x1x256_S256
/-- The weights of layer 0, relation 1. -/
def wsl01 (W : FVec Ideal S2x3x256x256 .f32) : FVec Ideal S256x256 .f32 :=
  shapeCast _ (extractStridedSlice S1x1x256x256 ![0, 1, 0, 0] W slices_S2x3x256x256_S1x1x256x256_0_1_0_0) shapeCasts_S1x1x256x256_S256x256
/-- The bias of layer 0, relation 1. -/
def bsl01 (b : FVec Ideal S2x3x256 .f32) : FVec Ideal S256 .f32 :=
  shapeCast _ (extractStridedSlice S1x1x256 ![0, 1, 0] b slices_S2x3x256_S1x1x256_0_1_0) shapeCasts_S1x1x256_S256
/-- The weights of layer 0, relation 2. -/
def wsl02 (W : FVec Ideal S2x3x256x256 .f32) : FVec Ideal S256x256 .f32 :=
  shapeCast _ (extractStridedSlice S1x1x256x256 ![0, 2, 0, 0] W slices_S2x3x256x256_S1x1x256x256_0_2_0_0) shapeCasts_S1x1x256x256_S256x256
/-- The bias of layer 0, relation 2. -/
def bsl02 (b : FVec Ideal S2x3x256 .f32) : FVec Ideal S256 .f32 :=
  shapeCast _ (extractStridedSlice S1x1x256 ![0, 2, 0] b slices_S2x3x256_S1x1x256_0_2_0) shapeCasts_S1x1x256_S256
/-- The weights of layer 1, relation 0. -/
def wsl10 (W : FVec Ideal S2x3x256x256 .f32) : FVec Ideal S256x256 .f32 :=
  shapeCast _ (extractStridedSlice S1x1x256x256 ![1, 0, 0, 0] W slices_S2x3x256x256_S1x1x256x256_1_0_0_0) shapeCasts_S1x1x256x256_S256x256
/-- The bias of layer 1, relation 0. -/
def bsl10 (b : FVec Ideal S2x3x256 .f32) : FVec Ideal S256 .f32 :=
  shapeCast _ (extractStridedSlice S1x1x256 ![1, 0, 0] b slices_S2x3x256_S1x1x256_1_0_0) shapeCasts_S1x1x256_S256
/-- The weights of layer 1, relation 1. -/
def wsl11 (W : FVec Ideal S2x3x256x256 .f32) : FVec Ideal S256x256 .f32 :=
  shapeCast _ (extractStridedSlice S1x1x256x256 ![1, 1, 0, 0] W slices_S2x3x256x256_S1x1x256x256_1_1_0_0) shapeCasts_S1x1x256x256_S256x256
/-- The bias of layer 1, relation 1. -/
def bsl11 (b : FVec Ideal S2x3x256 .f32) : FVec Ideal S256 .f32 :=
  shapeCast _ (extractStridedSlice S1x1x256 ![1, 1, 0] b slices_S2x3x256_S1x1x256_1_1_0) shapeCasts_S1x1x256_S256
/-- The weights of layer 1, relation 2. -/
def wsl12 (W : FVec Ideal S2x3x256x256 .f32) : FVec Ideal S256x256 .f32 :=
  shapeCast _ (extractStridedSlice S1x1x256x256 ![1, 2, 0, 0] W slices_S2x3x256x256_S1x1x256x256_1_2_0_0) shapeCasts_S1x1x256x256_S256x256
/-- The bias of layer 1, relation 2. -/
def bsl12 (b : FVec Ideal S2x3x256 .f32) : FVec Ideal S256 .f32 :=
  shapeCast _ (extractStridedSlice S1x1x256 ![1, 2, 0] b slices_S2x3x256_S1x1x256_1_2_0) shapeCasts_S1x1x256_S256

/-! ## Degrees, normalisations, aggregation -/

/-- A node's degree under an index list: the number of its occurrences, at least one. -/
def deg (idx : IVec S250000 32) : FVec Ideal S50000 .f32 :=
  maximumf (broadcastInDim S50000 ![] bcast_S_S50000 (id (constant S_ .f32 0x3F800000#32))) (Host.scatterAdd scatter_S50000_S250000x1_S250000_n_0_0_1 (broadcastInDim S50000 ![] bcast_S_S50000 (constant S_ .f32 0x00000000#32)) (broadcastInDim S250000x1 ![0] bcast_S250000_S250000x1_0 idx) (broadcastInDim S250000 ![] bcast_S_S250000 (constant S_ .f32 0x3F800000#32)))

/-- The inverse square root of the degree. -/
def nrm (idx : IVec S250000 32) : FVec Ideal S50000 .f32 :=
  Host.rsqrt (deg idx)

/-- At every destination, the sum of the sources' rows of `h`, each scaled by the inverse square root of the source's
    degree under `src` (a negative source index counts from the end). -/
def agg (h : FVec Ideal S50000x256 .f32) (src dst : IVec S250000 32) : FVec Ideal S50000x256 .f32 :=
  Host.scatterAdd scatter_S50000x256_S250000x1_S250000x256_1_0_0_1 (broadcastInDim S50000x256 ![] bcast_S_S50000x256 (constant S_ .f32 0x00000000#32)) (broadcastInDim S250000x1 ![0] bcast_S250000_S250000x1_0 dst) (Host.gather gather_S50000x256_S250000x1_S250000x256_1_0_n_n_0_1_1256 (mulf h (broadcastInDim S50000x256 ![0, 1] bcast_S50000x1_S50000x256_0_1 (broadcastInDim S50000x1 ![0] bcast_S50000_S50000x1_0 (nrm src)))) (broadcastInDim S250000x1 ![0] bcast_S250000_S250000x1_0 (select (cmpi .slt src (broadcastInDim S250000 ![] bcast_S_S250000 (constantI S_ 32 0#32))) (addi src (broadcastInDim S250000 ![] bcast_S_S250000 (constantI S_ 32 50000#32))) src)))

/-! ## The two layers and the read-out -/

/-- The first layer: the mean over the three relations, then the rectifier. -/
def h1 (x : FVec Ideal S50000x256 .f32) (W : FVec Ideal S2x3x256x256 .f32) (b : FVec Ideal S2x3x256 .f32) (e : IVec S2x3x2x250000 32) :
    FVec Ideal S50000x256 .f32 :=
  relu (mean3 (contrib (agg x (s00 e) (d00 e)) (nrm (d00 e)) (wsl00 W) (bsl00 b)) (contrib (agg x (s01 e) (d01 e)) (nrm (d01 e)) (wsl01 W) (bsl01 b)) (contrib (agg x (s02 e) (d02 e)) (nrm (d02 e)) (wsl02 W) (bsl02 b)))

/-- The result: the second layer over the first layer's rows, then the read-out. -/
def res (x : FVec Ideal S50000x256 .f32) (W : FVec Ideal S2x3x256x256 .f32) (b : FVec Ideal S2x3x256 .f32)
    (wo : FVec Ideal S256x349 .f32) (bo : FVec Ideal S349 .f32) (e : IVec S2x3x2x250000 32) : FVec Ideal S50000x349 .f32 :=
  outR (mean3 (contrib (agg (h1 x W b e) (s10 e) (d10 e)) (nrm (d10 e)) (wsl10 W) (bsl10 b)) (contrib (agg (h1 x W b e) (s11 e) (d11 e)) (nrm (d11 e)) (wsl11 W) (bsl11 b)) (contrib (agg (h1 x W b e) (s12 e) (d12 e)) (nrm (d12 e)) (wsl12 W) (bsl12 b))) wo bo

/-! ## The slices read at an element -/

theorem wsl00_apply (W : FVec Ideal S2x3x256x256 .f32) (k j : Fin 256) : wsl00 W (ix2 k j) = W (ix4 0 0 k j) :=
  wslice_apply 0 0 (by decide) (by decide) W slices_S2x3x256x256_S1x1x256x256_0_0_0_0 k j
theorem bsl00_apply (b : FVec Ideal S2x3x256 .f32) (j : Fin 256) : bsl00 b (ix1 j) = b (ix3 0 0 j) :=
  bslice_apply 0 0 (by decide) (by decide) b slices_S2x3x256_S1x1x256_0_0_0 j
theorem wsl01_apply (W : FVec Ideal S2x3x256x256 .f32) (k j : Fin 256) : wsl01 W (ix2 k j) = W (ix4 0 1 k j) :=
  wslice_apply 0 1 (by decide) (by decide) W slices_S2x3x256x256_S1x1x256x256_0_1_0_0 k j
theorem bsl01_apply (b : FVec Ideal S2x3x256 .f32) (j : Fin 256) : bsl01 b (ix1 j) = b (ix3 0 1 j) :=
  bslice_apply 0 1 (by decide) (by decide) b slices_S2x3x256_S1x1x256_0_1_0 j
theorem wsl02_apply (W : FVec Ideal S2x3x256x256 .f32) (k j : Fin 256) : wsl02 W (ix2 k j) = W (ix4 0 2 k j) :=
  wslice_apply 0 2 (by decide) (by decide) W slices_S2x3x256x256_S1x1x256x256_0_2_0_0 k j
theorem bsl02_apply (b : FVec Ideal S2x3x256 .f32) (j : Fin 256) : bsl02 b (ix1 j) = b (ix3 0 2 j) :=
  bslice_apply 0 2 (by decide) (by decide) b slices_S2x3x256_S1x1x256_0_2_0 j
theorem wsl10_apply (W : FVec Ideal S2x3x256x256 .f32) (k j : Fin 256) : wsl10 W (ix2 k j) = W (ix4 1 0 k j) :=
  wslice_apply 1 0 (by decide) (by decide) W slices_S2x3x256x256_S1x1x256x256_1_0_0_0 k j
theorem bsl10_apply (b : FVec Ideal S2x3x256 .f32) (j : Fin 256) : bsl10 b (ix1 j) = b (ix3 1 0 j) :=
  bslice_apply 1 0 (by decide) (by decide) b slices_S2x3x256_S1x1x256_1_0_0 j
theorem wsl11_apply (W : FVec Ideal S2x3x256x256 .f32) (k j : Fin 256) : wsl11 W (ix2 k j) = W (ix4 1 1 k j) :=
  wslice_apply 1 1 (by decide) (by decide) W slices_S2x3x256x256_S1x1x256x256_1_1_0_0 k j
theorem bsl11_apply (b : FVec Ideal S2x3x256 .f32) (j : Fin 256) : bsl11 b (ix1 j) = b (ix3 1 1 j) :=
  bslice_apply 1 1 (by decide) (by decide) b slices_S2x3x256_S1x1x256_1_1_0 j
theorem wsl12_apply (W : FVec Ideal S2x3x256x256 .f32) (k j : Fin 256) : wsl12 W (ix2 k j) = W (ix4 1 2 k j) :=
  wslice_apply 1 2 (by decide) (by decide) W slices_S2x3x256x256_S1x1x256x256_1_2_0_0 k j
theorem bsl12_apply (b : FVec Ideal S2x3x256 .f32) (j : Fin 256) : bsl12 b (ix1 j) = b (ix3 1 2 j) :=
  bslice_apply 1 2 (by decide) (by decide) b slices_S2x3x256_S1x1x256_1_2_0 j

/-! ## The layers read at an element, over the aggregation and the normalisations as they stand -/

/-- An element of the first layer: the rectified mean of the three relations' terms. -/
theorem h1_apply (x : FVec Ideal S50000x256 .f32) (W : FVec Ideal S2x3x256x256 .f32) (b : FVec Ideal S2x3x256 .f32) (e : IVec S2x3x2x250000 32)
    (i : Fin 50000) (j : Fin 256) :
    h1 x W b e (ix2 i j) = max (meanK (rowSum (fun k => agg x (s00 e) (d00 e) (ix2 i k)) (fun k => agg x (s01 e) (d01 e) (ix2 i k)) (fun k => agg x (s02 e) (d02 e) (ix2 i k))
        (nrm (d00 e) (ix1 i)) (nrm (d01 e) (ix1 i)) (nrm (d02 e) (ix1 i))
        (fun k => W (ix4 0 0 k j)) (fun k => W (ix4 0 1 k j)) (fun k => W (ix4 0 2 k j))
        (b (ix3 0 0 j)) (b (ix3 0 1 j)) (b (ix3 0 2 j)))) 0 := by
  unfold h1
  rw [relu_apply, mean3_apply, contrib_apply, contrib_apply, contrib_apply]
  unfold rowSum
  simp only [wsl00_apply, wsl01_apply, wsl02_apply, bsl00_apply, bsl01_apply, bsl02_apply]

/-- An element of the result: the second layer's row against a column of the read-out weights, plus the read-out bias. -/
theorem res_apply (x : FVec Ideal S50000x256 .f32) (W : FVec Ideal S2x3x256x256 .f32) (b : FVec Ideal S2x3x256 .f32)
    (wo : FVec Ideal S256x349 .f32) (bo : FVec Ideal S349 .f32) (e : IVec S2x3x2x250000 32) (i : Fin 50000) (j : Fin 349) :
    res x W b wo bo e (ix2 i j)
      = (∑ k : Fin 256, meanK (rowSum (fun k' => agg (h1 x W b e) (s10 e) (d10 e) (ix2 i k')) (fun k' => agg (h1 x W b e) (s11 e) (d11 e) (ix2 i k')) (fun k' => agg (h1 x W b e) (s12 e) (d12 e) (ix2 i k'))
        (nrm (d10 e) (ix1 i)) (nrm (d11 e) (ix1 i)) (nrm (d12 e) (ix1 i))
        (fun k' => W (ix4 1 0 k' k)) (fun k' => W (ix4 1 1 k' k)) (fun k' => W (ix4 1 2 k' k))
        (b (ix3 1 0 k)) (b (ix3 1 1 k)) (b (ix3 1 2 k))) * wo (ix2 k j)) + bo (ix1 j) := by
  unfold res
  rw [outR_apply]
  refine congrArg (· + bo (ix1 j)) (Finset.sum_congr rfl fun k _ => ?_)
  rw [mean3_apply, contrib_apply, contrib_apply, contrib_apply]
  unfold rowSum
  simp only [wsl10_apply, wsl11_apply, wsl12_apply, bsl10_apply, bsl11_apply, bsl12_apply]

end Cert.ReferenceIdeal.Dense

end
-- ==== Proof.Ref.Glue.lean ====
/-
  The reference program's composed result — the one long term its run is stated with — is the composition of named
  parts of Ref/Shape.lean applied to the program's six arguments: the two spell the same operations in the same order.
-/
import proofs.«176711_j5789615915676_2_alg».proof.Proof.RefRun
import proofs.«176711_j5789615915676_2_alg».proof.Proof.Ref.Shape

noncomputable section

namespace Cert.ReferenceIdeal.Dense

open Cert.ReferenceIdeal Cert.ReferenceIdeal.Gen Idealize.ShloMosaic Idealize.ShloMosaic.TcCoe Idealize.SL.Sem Idealize.ShloMosaic.ValueIdx Cert.Spec

set_option maxRecDepth 16384 in
/-- The program's composed result is this composition of the arguments. -/
theorem res_eq (m : (ℓ : Loc nD τ sig) → Buf (Elt Ideal) ℓ) (c : Dev nD) :
    ValueP.res_main_v250 (F := Ideal) m c
      = res (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rfl

end Cert.ReferenceIdeal.Dense

end
-- ==== Proof.GlueEq.lean ====
/-
  The graph side of a layer is spelt twice, once over each program's own shape records: the degree under an index
  list, its inverse square root, the aggregate, and the twelve edge lists cut out of the edge array. The two
  spellings apply the same operations to the same operands with records of the same content, so each pair is one
  function. No scatter and no gather is opened: the two sides agree operand by operand.
-/
import proofs.«176711_j5789615915676_2_alg».proof.Proof.KI.Edges
import proofs.«176711_j5789615915676_2_alg».proof.Proof.Ref.Shape

noncomputable section

namespace Cert.Bridge

open Idealize.ShloMosaic

/-- The degree under an index list. -/
theorem deg_eq (idx : IVec Cert.KernelIdeal.S250000 32) :
    Cert.KernelIdeal.Glue.deg idx = Cert.ReferenceIdeal.Dense.deg idx := rfl

/-- The inverse square root of the degree. -/
theorem nrm_eq (idx : IVec Cert.KernelIdeal.S250000 32) :
    Cert.KernelIdeal.Glue.nrm idx = Cert.ReferenceIdeal.Dense.nrm idx := rfl

/-- The aggregate of the rows of `h` along one relation's edges. -/
theorem agg_eq (h : FVec Ideal Cert.KernelIdeal.S50000x256 .f32) (src dst : IVec Cert.KernelIdeal.S250000 32) :
    Cert.KernelIdeal.Glue.agg h src dst = Cert.ReferenceIdeal.Dense.agg h src dst := rfl

/-! The twelve edge lists: layer, relation, end (sources, destinations). -/
theorem e000_eq (e : IVec Cert.KernelIdeal.S2x3x2x250000 32) :
    Cert.KernelIdeal.Glue.e000 e = Cert.ReferenceIdeal.Dense.s00 e := rfl
theorem e001_eq (e : IVec Cert.KernelIdeal.S2x3x2x250000 32) :
    Cert.KernelIdeal.Glue.e001 e = Cert.ReferenceIdeal.Dense.d00 e := rfl
theorem e010_eq (e : IVec Cert.KernelIdeal.S2x3x2x250000 32) :
    Cert.KernelIdeal.Glue.e010 e = Cert.ReferenceIdeal.Dense.s01 e := rfl
theorem e011_eq (e : IVec Cert.KernelIdeal.S2x3x2x250000 32) :
    Cert.KernelIdeal.Glue.e011 e = Cert.ReferenceIdeal.Dense.d01 e := rfl
theorem e020_eq (e : IVec Cert.KernelIdeal.S2x3x2x250000 32) :
    Cert.KernelIdeal.Glue.e020 e = Cert.ReferenceIdeal.Dense.s02 e := rfl
theorem e021_eq (e : IVec Cert.KernelIdeal.S2x3x2x250000 32) :
    Cert.KernelIdeal.Glue.e021 e = Cert.ReferenceIdeal.Dense.d02 e := rfl
theorem e100_eq (e : IVec Cert.KernelIdeal.S2x3x2x250000 32) :
    Cert.KernelIdeal.Glue.e100 e = Cert.ReferenceIdeal.Dense.s10 e := rfl
theorem e101_eq (e : IVec Cert.KernelIdeal.S2x3x2x250000 32) :
    Cert.KernelIdeal.Glue.e101 e = Cert.ReferenceIdeal.Dense.d10 e := rfl
theorem e110_eq (e : IVec Cert.KernelIdeal.S2x3x2x250000 32) :
    Cert.KernelIdeal.Glue.e110 e = Cert.ReferenceIdeal.Dense.s11 e := rfl
theorem e111_eq (e : IVec Cert.KernelIdeal.S2x3x2x250000 32) :
    Cert.KernelIdeal.Glue.e111 e = Cert.ReferenceIdeal.Dense.d11 e := rfl
theorem e120_eq (e : IVec Cert.KernelIdeal.S2x3x2x250000 32) :
    Cert.KernelIdeal.Glue.e120 e = Cert.ReferenceIdeal.Dense.s12 e := rfl
theorem e121_eq (e : IVec Cert.KernelIdeal.S2x3x2x250000 32) :
    Cert.KernelIdeal.Glue.e121 e = Cert.ReferenceIdeal.Dense.d12 e := rfl

end Cert.Bridge

end
-- ==== Proof.KI.Final0.lean ====
/-
  The first layer's whole result array.

  At each of the 25 grid points the body leaves in the output window's buffer, at row `p` and feature `q` of the
  point's 2000-row block, the maximum with zero of the mean over the three relations of (that row of the
  relation's aggregated features, scaled by the row's normalisation, against column `q` of the relation's weights,
  plus the bias). The three feature blocks and the block of normalisations move with the output's row block, the
  weights and biases are whole at every point, and the 25 blocks of 2000 rows fill the 50000 rows: so the array
  ends holding one function `G0` of the six arrays the region finds, index by index.
-/
import proofs.«176711_j5789615915676_2_alg».proof.Proof.KI.Defs0
import proofs.«176711_j5789615915676_2_alg».proof.Proof.KI.Pay
import proofs.«176711_j5789615915676_2_alg».proof.Proof.Gen.KernelIdeal.Points
import Idealize.ShloMosaic.Lib.Pipeline.Value

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat)

/-! ## The body's result at one index of the block -/

theorem zeros2 : (![0, 0] : Fin 2 → Nat) = fun _ => 0 := funext fun a => by fin_cases a <;> rfl

/-- Slab `r` of the 3x256x256 weights, loaded as a 1x256x256 block, reads at `(0, k, q)` the weights at `(r, k, q)`. -/
theorem ld_slab {Val : EltTy → Type} {e : EltTy} (o : ℕ) (r : Fin 3) (hr : r.val = o) (X : S3x256x256.Idx → Val e)
    (inb : ∀ a, (![o, 0, 0] : Fin 3 → Nat) a + S1x256x256.size a ≤ S3x256x256.size a) (k q : Fin 256) :
    View.ld X (Rect.unit (s := S3x256x256) ![o, 0, 0] S1x256x256.size inb) (ix3 (0 : Fin 1) k q) = X (ix3 r k q) := by
  subst hr
  show X _ = X _
  congr 1
  funext a; apply Fin.ext
  match a with
  | ⟨0, _⟩ => show r.val + 1 * 0 = r.val; omega
  | ⟨1, _⟩ => show 0 + 1 * k.val = k.val; omega
  | ⟨2, _⟩ => show 0 + 1 * q.val = q.val; omega

/-- Row `r` of the 3x256 biases, loaded as a 1x256 row, reads at `(0, q)` the biases at `(r, q)`. -/
theorem ld_row {Val : EltTy → Type} {e : EltTy} (o : ℕ) (r : Fin 3) (hr : r.val = o) (X : S3x256.Idx → Val e)
    (inb : ∀ a, (![o, 0] : Fin 2 → Nat) a + S1x256.size a ≤ S3x256.size a) (q : Fin 256) :
    View.ld X (Rect.unit (s := S3x256) ![o, 0] S1x256.size inb) (ix2 (0 : Fin 1) q) = X (ix2 r q) := by
  subst hr
  show X _ = X _
  congr 1
  funext a; apply Fin.ext
  match a with
  | ⟨0, _⟩ => show r.val + 1 * 0 = r.val; omega
  | ⟨1, _⟩ => show 0 + 1 * q.val = q.val; omega

/-- WHAT THE BODY LEAVES in the output window's buffer, at row `p` and feature `q`, from the six input blocks. -/
theorem out0_6_apply (x0 x1 x2 : Vec Ideal S2000x256 .f32) (x3 : Vec Ideal S2000x3 .f32) (x4 : Vec Ideal S3x256x256 .f32)
    (x5 : Vec Ideal S3x256 .f32) (p : Fin 2000) (q : Fin 256) :
    out0_6 (F := Ideal) x0 x1 x2 x3 x4 x5 (ix2 p q)
      = max (meanK (rowSumK (fun k => x0 (ix2 p k)) (fun k => x1 (ix2 p k)) (fun k => x2 (ix2 p k))
          (x3 (ix2 p 0)) (x3 (ix2 p 1)) (x3 (ix2 p 2))
          (fun k => x4 (ix3 0 k q)) (fun k => x4 (ix3 1 k q)) (fun k => x4 (ix3 2 k q))
          (x5 (ix2 0 q)) (x5 (ix2 1 q)) (x5 (ix2 2 q)))) 0 := by
  unfold out0_6
  rw [View.canon_unit_zero zeros2]
  simp only [View.ld_unit_zero (S := S2000x256) zeros2, View.ld_unit_zero (S := S2000x3) zeros2]
  refine (Pay.pay0_apply _ _ _ _ _ _ _ _ _ _ p q).trans ?_
  have w0 : (fun k => View.ld x4 rW0 (ix3 (0 : Fin 1) k q)) = fun k => x4 (ix3 (0 : Fin 3) k q) :=
    funext fun k => ld_slab 0 0 rfl x4 _ k q
  have w1 : (fun k => View.ld x4 rW1 (ix3 (0 : Fin 1) k q)) = fun k => x4 (ix3 (1 : Fin 3) k q) :=
    funext fun k => ld_slab 1 1 rfl x4 _ k q
  have w2 : (fun k => View.ld x4 rW2 (ix3 (0 : Fin 1) k q)) = fun k => x4 (ix3 (2 : Fin 3) k q) :=
    funext fun k => ld_slab 2 2 rfl x4 _ k q
  rw [w0, w1, w2, ld_row 0 0 rfl, ld_row 1 1 rfl, ld_row 2 2 rfl]

/-! ## The whole array -/

/-- What the result array ends holding: at row `i 0` and feature `i 1`, the maximum with zero of the mean over the three
    relations, of the six arrays the region finds — the three arrays of aggregated features, the normalisations,
    the weights and the biases. -/
def G0 (A0 A1 A2 : S50000x256.Idx → EReal) (Nm : S50000x3.Idx → EReal) (Wl : S3x256x256.Idx → EReal)
    (Bl : S3x256.Idx → EReal) : S50000x256.Idx → EReal :=
  fun i => max (meanK (rowSumK (fun k => A0 (ix2 (i 0) k)) (fun k => A1 (ix2 (i 0) k)) (fun k => A2 (ix2 (i 0) k))
    (Nm (ix2 (i 0) 0)) (Nm (ix2 (i 0) 1)) (Nm (ix2 (i 0) 2))
    (fun k => Wl (ix3 0 k (i 1))) (fun k => Wl (ix3 1 k (i 1))) (fun k => Wl (ix3 2 k (i 1)))
    (Bl (ix2 0 (i 1))) (Bl (ix2 1 (i 1))) (Bl (ix2 2 (i 1))))) 0

/-- `G0` at an index given by its coordinates. -/
theorem G0_ix2 (A0 A1 A2 : S50000x256.Idx → EReal) (Nm : S50000x3.Idx → EReal) (Wl : S3x256x256.Idx → EReal)
    (Bl : S3x256.Idx → EReal) (P : Fin 50000) (q : Fin 256) :
    G0 A0 A1 A2 Nm Wl Bl (ix2 P q)
      = max (meanK (rowSumK (fun k => A0 (ix2 P k)) (fun k => A1 (ix2 P k)) (fun k => A2 (ix2 P k))
          (Nm (ix2 P 0)) (Nm (ix2 P 1)) (Nm (ix2 P 2))
          (fun k => Wl (ix3 0 k q)) (fun k => Wl (ix3 1 k q)) (fun k => Wl (ix3 2 k q))
          (Bl (ix2 0 q)) (Bl (ix2 1 q)) (Bl (ix2 2 q)))) 0 := rfl

/-- One element of the block is that function at the element's place in the array: when the three feature
    blocks and the block of normalisations are rows `r, r + 1, …` of their arrays and the weights and biases are
    whole, the body's result at row `p`, feature `q` of the block is `G0` at row `r + p`, feature `q`. -/
theorem out0_6_point (A0 A1 A2 : S50000x256.Idx → EReal) (Nm : S50000x3.Idx → EReal) (Wl : S3x256x256.Idx → EReal)
    (Bl : S3x256.Idx → EReal) (x0 x1 x2 : Vec Ideal S2000x256 .f32) (x3 : Vec Ideal S2000x3 .f32)
    (x4 : Vec Ideal S3x256x256 .f32) (x5 : Vec Ideal S3x256 .f32) (r : ℕ)
    (h0 : ∀ (p : Fin 2000) (k : Fin 256) (P : Fin 50000), P.val = r + p.val → x0 (ix2 p k) = A0 (ix2 P k))
    (h1 : ∀ (p : Fin 2000) (k : Fin 256) (P : Fin 50000), P.val = r + p.val → x1 (ix2 p k) = A1 (ix2 P k))
    (h2 : ∀ (p : Fin 2000) (k : Fin 256) (P : Fin 50000), P.val = r + p.val → x2 (ix2 p k) = A2 (ix2 P k))
    (h3 : ∀ (p : Fin 2000) (s : Fin 3) (P : Fin 50000), P.val = r + p.val → x3 (ix2 p s) = Nm (ix2 P s))
    (h4 : x4 = Wl) (h5 : x5 = Bl)
    (p : Fin 2000) (q : Fin 256) (P : Fin 50000) (hP : P.val = r + p.val) :
    out0_6 (F := Ideal) x0 x1 x2 x3 x4 x5 (ix2 p q) = G0 A0 A1 A2 Nm Wl Bl (ix2 P q) := by
  subst h4 h5
  rw [out0_6_apply, G0_ix2]
  have e0 : (fun k => x0 (ix2 p k)) = fun k => A0 (ix2 P k) := funext fun k => h0 p k P hP
  have e1 : (fun k => x1 (ix2 p k)) = fun k => A1 (ix2 P k) := funext fun k => h1 p k P hP
  have e2 : (fun k => x2 (ix2 p k)) = fun k => A2 (ix2 P k) := funext fun k => h2 p k P hP
  rw [e0, e1, e2, h3 p 0 P hP, h3 p 1 P hP, h3 p 2 P hP]

section Region0

variable (V : (c : Dev nD) → (b : Ref sig .tc) → Buf (Elt Ideal) ((c : Thread nD τ).loc b))

/-- The printed index maps over the grid: the three feature windows, the normalisations' window and the output's
    window sit at row block `t`, column block 0; the weights' and the biases' windows at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A feature window's block at point `t`, at row `p` and feature `k`, is its array at row `2000 t + p`. -/
theorem iblk0_0_apply (c : Dev nD) (t : Fin cfg0.N) (p : Fin 2000) (k : Fin 256) (P : Fin 50000)
    (hP : P.val = t.val * 2000 + p.val) :
    (iblk0 V c 0 t : Vec Ideal S2000x256 .f32) (ix2 p k)
      = (V c (Pipeline.arrRef spec0 0) : S50000x256.Idx → EReal) (ix2 P k) := by
  obtain ⟨f0, f1, -⟩ := idx_facts0 t
  unfold iblk0
  rw [View.read_apply]
  show V c (Pipeline.arrRef spec0 0) _ = V c (Pipeline.arrRef spec0 0) _
  congr 1
  funext a; apply Fin.ext
  match a with
  | ⟨0, _⟩ => show win0_0.index t (0 : Fin 2) * 2000 + 1 * p.val = P.val; rw [f0, hP]; omega
  | ⟨1, _⟩ => show win0_0.index t (1 : Fin 2) * 256 + 1 * k.val = k.val; rw [f1]; omega

theorem iblk0_1_apply (c : Dev nD) (t : Fin cfg0.N) (p : Fin 2000) (k : Fin 256) (P : Fin 50000)
    (hP : P.val = t.val * 2000 + p.val) :
    (iblk0 V c 1 t : Vec Ideal S2000x256 .f32) (ix2 p k)
      = (V c (Pipeline.arrRef spec0 1) : S50000x256.Idx → EReal) (ix2 P k) := by
  obtain ⟨-, -, f0, f1, -⟩ := idx_facts0 t
  unfold iblk0
  rw [View.read_apply]
  show V c (Pipeline.arrRef spec0 1) _ = V c (Pipeline.arrRef spec0 1) _
  congr 1
  funext a; apply Fin.ext
  match a with
  | ⟨0, _⟩ => show win0_1.index t (0 : Fin 2) * 2000 + 1 * p.val = P.val; rw [f0, hP]; omega
  | ⟨1, _⟩ => show win0_1.index t (1 : Fin 2) * 256 + 1 * k.val = k.val; rw [f1]; omega

theorem iblk0_2_apply (c : Dev nD) (t : Fin cfg0.N) (p : Fin 2000) (k : Fin 256) (P : Fin 50000)
    (hP : P.val = t.val * 2000 + p.val) :
    (iblk0 V c 2 t : Vec Ideal S2000x256 .f32) (ix2 p k)
      = (V c (Pipeline.arrRef spec0 2) : S50000x256.Idx → EReal) (ix2 P k) := by
  obtain ⟨-, -, -, -, f0, f1, -⟩ := idx_facts0 t
  unfold iblk0
  rw [View.read_apply]
  show V c (Pipeline.arrRef spec0 2) _ = V c (Pipeline.arrRef spec0 2) _
  congr 1
  funext a; apply Fin.ext
  match a with
  | ⟨0, _⟩ => show win0_2.index t (0 : Fin 2) * 2000 + 1 * p.val = P.val; rw [f0, hP]; omega
  | ⟨1, _⟩ => show win0_2.index t (1 : Fin 2) * 256 + 1 * k.val = k.val; rw [f1]; omega

/-- The normalisations' block at point `t`, at row `p` and relation `s`, is their array at row `2000 t + p`. -/
theorem iblk0_3_apply (c : Dev nD) (t : Fin cfg0.N) (p : Fin 2000) (s : Fin 3) (P : Fin 50000)
    (hP : P.val = t.val * 2000 + p.val) :
    (iblk0 V c 3 t : Vec Ideal S2000x3 .f32) (ix2 p s)
      = (V c (Pipeline.arrRef spec0 3) : S50000x3.Idx → EReal) (ix2 P s) := by
  obtain ⟨-, -, -, -, -, -, f0, f1, -⟩ := idx_facts0 t
  unfold iblk0
  rw [View.read_apply]
  show V c (Pipeline.arrRef spec0 3) _ = V c (Pipeline.arrRef spec0 3) _
  congr 1
  funext a; apply Fin.ext
  match a with
  | ⟨0, _⟩ => show win0_3.index t (0 : Fin 2) * 2000 + 1 * p.val = P.val; rw [f0, hP]; omega
  | ⟨1, _⟩ => show win0_3.index t (1 : Fin 2) * 3 + 1 * s.val = s.val; rw [f1]; omega

/-- The weights' block is the whole array at every point. -/
theorem iblk0_4_eq (c : Dev nD) (t : Fin cfg0.N) :
    (iblk0 V c 4 t : Vec Ideal S3x256x256 .f32) = (V c (Pipeline.arrRef spec0 4) : S3x256x256.Idx → EReal) := by
  obtain ⟨-, -, -, -, -, -, -, -, f0, f1, f2, -⟩ := idx_facts0 t
  unfold iblk0
  funext y
  rw [View.read_apply]
  show V c (Pipeline.arrRef spec0 4) _ = V c (Pipeline.arrRef spec0 4) _
  congr 1
  funext a; apply Fin.ext
  match a with
  | ⟨0, _⟩ => show win0_4.index t (0 : Fin 3) * 3 + 1 * (y 0).val = (y 0).val; rw [f0]; omega
  | ⟨1, _⟩ => show win0_4.index t (1 : Fin 3) * 256 + 1 * (y 1).val = (y 1).val; rw [f1]; omega
  | ⟨2, _⟩ => show win0_4.index t (2 : Fin 3) * 256 + 1 * (y 2).val = (y 2).val; rw [f2]; omega

/-- The biases' block is the whole array at every point. -/
theorem iblk0_5_eq (c : Dev nD) (t : Fin cfg0.N) :
    (iblk0 V c 5 t : Vec Ideal S3x256 .f32) = (V c (Pipeline.arrRef spec0 5) : S3x256.Idx → EReal) := by
  obtain ⟨-, -, -, -, -, -, -, -, -, -, -, f0, f1, -⟩ := idx_facts0 t
  unfold iblk0
  funext y
  rw [View.read_apply]
  show V c (Pipeline.arrRef spec0 5) _ = V c (Pipeline.arrRef spec0 5) _
  congr 1
  funext a; apply Fin.ext
  match a with
  | ⟨0, _⟩ => show win0_5.index t (0 : Fin 2) * 3 + 1 * (y 0).val = (y 0).val; rw [f0]; omega
  | ⟨1, _⟩ => show win0_5.index t (1 : Fin 2) * 256 + 1 * (y 1).val = (y 1).val; rw [f1]; omega

/-- WHAT POINT `t` WRITES BACK is block `t` of `G0` of the six arrays as the region finds them. -/
theorem flushed0_eq (c : Dev nD) (t : Fin cfg0.N) :
    (dat0 (F := Ideal) V c).flushed 6 t = ((cfg0.win 6).blk t).view.read (Elt Ideal)
      (G0 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  show (cfg0.win 6).cut (grid0.coords t) ((dat0 V c).after 6 t) = _
  rw [after0_6]
  have ht : t.val < 25 := Nat.lt_of_lt_of_eq t.isLt N_0
  obtain ⟨-, -, -, -, -, -, -, -, -, -, -, -, -, f0, f1⟩ := idx_facts0 t
  funext j
  obtain ⟨p, q, rfl⟩ : ∃ (p : Fin 2000) (q : Fin 256), j = ix2 p q := ⟨j 0, j 1, eq_ix2 j⟩
  have hp : p.val < 2000 := p.isLt
  have hemb : ((cfg0.win 6).blk t).view.emb (ix2 p q)
      = (ix2 (⟨t.val * 2000 + p.val, by omega⟩ : Fin 50000) q : S50000x256.Idx) := by
    funext a; apply Fin.ext
    match a with
    | ⟨0, _⟩ => show win0_6.index t (0 : Fin 2) * 2000 + 1 * p.val = t.val * 2000 + p.val; rw [f0]; omega
    | ⟨1, _⟩ => show win0_6.index t (1 : Fin 2) * 256 + 1 * q.val = q.val; rw [f1]; omega
  rw [View.read_apply, hemb]
  exact out0_6_point _ _ _ _ _ _ _ _ _ _ _ _ (t.val * 2000)
    (fun p k P hP => iblk0_0_apply V c t p k P hP) (fun p k P hP => iblk0_1_apply V c t p k P hP)
    (fun p k P hP => iblk0_2_apply V c t p k P hP) (fun p s P hP => iblk0_3_apply V c t p s P hP)
    (iblk0_4_eq V c t) (iblk0_5_eq V c t) p q _ rfl

/-- An index of the array is in point `t`'s block iff each coordinate is in the block's range on its axis. -/
theorem mem_blk0 (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v98).slice (win0_6.rect t)).set ↔ _
  rw [View.set_slice_whole, Rect.mem_set_unit]
  exact Iff.rfl

/-- The 25 blocks of 2000 rows fill the 50000 rows: row `r` is in the block of point `r / 2000`. -/
theorem cover0 (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  have h25 : (i 0).val / 2000 < 25 := by omega
  refine ⟨⟨(i 0).val / 2000, Nat.lt_of_lt_of_eq h25 N_0.symm⟩, flush0_6 _, ?_⟩
  obtain ⟨-, -, -, -, -, -, -, -, -, -, -, -, -, f0, f1⟩ :=
    idx_facts0 ⟨(i 0).val / 2000, Nat.lt_of_lt_of_eq h25 N_0.symm⟩
  rw [mem_blk0]
  intro a
  match a with
  | ⟨0, _⟩ =>
    show win0_6.index _ (0 : Fin 2) * 2000 ≤ (i 0).val ∧ (i 0).val < win0_6.index _ (0 : Fin 2) * 2000 + 2000
    rw [f0]
    show (i 0).val / 2000 * 2000 ≤ (i 0).val ∧ (i 0).val < (i 0).val / 2000 * 2000 + 2000
    omega
  | ⟨1, _⟩ =>
    show win0_6.index _ (1 : Fin 2) * 256 ≤ (i 1).val ∧ (i 1).val < win0_6.index _ (1 : Fin 2) * 256 + 256
    rw [f1]
    omega

/-- THE ARRAY after the region: `G0` of the six arrays the region finds. -/
theorem final0 (c : Dev nD) :
    (dat0 (F := Ideal) V c).arrAt 6 cfg0.N
      = G0 (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 V c).arrAt_eq_of_cover 6 _ (fun t _ => flushed0_eq V c t) cover0

end Region0

end Cert.KernelIdeal.Hand

end
-- ==== Proof.KI.Host0a.lean ====
/-
  What the first kernel finds in its three aggregate windows: the host operations before it, folded over the launch
  memory, leave in each the layer's aggregate of the node features under that relation's edge lists.
-/
import proofs.«176711_j5789615915676_2_alg».proof.Proof.Gen.KernelIdeal.Regions
import proofs.«176711_j5789615915676_2_alg».proof.Proof.KI.Glue
import Idealize.ShloMosaic.Lib.StableHlo.Run
import proofs.«176711_j5789615915676_2_alg».proof.Proof.KI.Edges

noncomputable section
namespace Cert.KernelIdeal.Host

open Cert.KernelIdeal Cert.KernelIdeal.Gen Cert.KernelIdeal.Glue Idealize.ShloMosaic Idealize.ShloMosaic.TcCoe Idealize.SL.Sem Idealize.ShloMosaic.StableHlo

variable (m : (ℓ : Loc nD τ sig) → Buf (Elt Ideal) ℓ) (c : Dev nD)

set_option maxHeartbeats 4000000 in
set_option maxRecDepth 8192 in
/-- Relation 0's aggregate of the input features. -/
theorem V13_agg0 : Gen.V13 (F := Ideal) m c main_v32 = agg (m ((c.tc : Thread nD τ).loc main_arg0)) (e000 (m ((c.tc : Thread nD τ).loc main_arg5))) (e001 (m ((c.tc : Thread nD τ).loc main_arg5))) := by
  simp only [Gen.V0, Gen.V1, Gen.V2, Gen.V3, Gen.V4, Gen.V5, Gen.V6, Gen.V7, Gen.V8, Gen.V9, Gen.V10, Gen.V11, Gen.V12, Gen.V13, hostOps0, hostOps0_1, hostOps0_2, hostOps0_3, hostOps0_4, hostOps0_5, hostOps0_6, hostOps0_7, hostOps0_8, hostOps0_9, hostOps0_10, hostOps0_11, hostOps0_12]
  after_results_simp
  rfl

set_option maxHeartbeats 4000000 in
set_option maxRecDepth 8192 in
/-- Relation 1's aggregate of the input features. -/
theorem V13_agg1 : Gen.V13 (F := Ideal) m c main_v60 = agg (m ((c.tc : Thread nD τ).loc main_arg0)) (e010 (m ((c.tc : Thread nD τ).loc main_arg5))) (e011 (m ((c.tc : Thread nD τ).loc main_arg5))) := by
  simp only [Gen.V0, Gen.V1, Gen.V2, Gen.V3, Gen.V4, Gen.V5, Gen.V6, Gen.V7, Gen.V8, Gen.V9, Gen.V10, Gen.V11, Gen.V12, Gen.V13, hostOps0, hostOps0_1, hostOps0_2, hostOps0_3, hostOps0_4, hostOps0_5, hostOps0_6, hostOps0_7, hostOps0_8, hostOps0_9, hostOps0_10, hostOps0_11, hostOps0_12]
  after_results_simp
  rfl

set_option maxHeartbeats 4000000 in
set_option maxRecDepth 8192 in
/-- Relation 2's aggregate of the input features. -/
theorem V13_agg2 : Gen.V13 (F := Ideal) m c main_v88 = agg (m ((c.tc : Thread nD τ).loc main_arg0)) (e020 (m ((c.tc : Thread nD τ).loc main_arg5))) (e021 (m ((c.tc : Thread nD τ).loc main_arg5))) := by
  simp only [Gen.V0, Gen.V1, Gen.V2, Gen.V3, Gen.V4, Gen.V5, Gen.V6, Gen.V7, Gen.V8, Gen.V9, Gen.V10, Gen.V11, Gen.V12, Gen.V13, hostOps0, hostOps0_1, hostOps0_2, hostOps0_3, hostOps0_4, hostOps0_5, hostOps0_6, hostOps0_7, hostOps0_8, hostOps0_9, hostOps0_10, hostOps0_11, hostOps0_12]
  after_results_simp
  rfl

end Cert.KernelIdeal.Host

end
-- ==== Proof.KI.Host0b.lean ====
/-
  What the first kernel finds in its other three windows: the three relations' inverse-square-root in-degrees side
  by side, layer 0's weight matrices and layer 0's bias rows.
-/
import proofs.«176711_j5789615915676_2_alg».proof.Proof.Gen.KernelIdeal.Regions
import proofs.«176711_j5789615915676_2_alg».proof.Proof.KI.Glue
import Idealize.ShloMosaic.Lib.StableHlo.Run
import proofs.«176711_j5789615915676_2_alg».proof.Proof.KI.Edges

noncomputable section
namespace Cert.KernelIdeal.Host

open Cert.KernelIdeal Cert.KernelIdeal.Gen Cert.KernelIdeal.Glue Idealize.ShloMosaic Idealize.ShloMosaic.TcCoe Idealize.SL.Sem Idealize.ShloMosaic.StableHlo

variable (m : (ℓ : Loc nD τ sig) → Buf (Elt Ideal) ℓ) (c : Dev nD)

set_option maxHeartbeats 4000000 in
set_option maxRecDepth 8192 in
/-- The normalisations, one column per relation. -/
theorem V13_norm : Gen.V13 (F := Ideal) m c main_v93 = stack (nrm (e001 (m ((c.tc : Thread nD τ).loc main_arg5)))) (nrm (e011 (m ((c.tc : Thread nD τ).loc main_arg5)))) (nrm (e021 (m ((c.tc : Thread nD τ).loc main_arg5)))) := by
  simp only [Gen.V0, Gen.V1, Gen.V2, Gen.V3, Gen.V4, Gen.V5, Gen.V6, Gen.V7, Gen.V8, Gen.V9, Gen.V10, Gen.V11, Gen.V12, Gen.V13, hostOps0, hostOps0_1, hostOps0_2, hostOps0_3, hostOps0_4, hostOps0_5, hostOps0_6, hostOps0_7, hostOps0_8, hostOps0_9, hostOps0_10, hostOps0_11, hostOps0_12]
  after_results_simp
  rfl

set_option maxHeartbeats 4000000 in
set_option maxRecDepth 8192 in
/-- Layer 0's weights. -/
theorem V13_w : Gen.V13 (F := Ideal) m c main_v95 = w0 (m ((c.tc : Thread nD τ).loc main_arg1)) := by
  simp only [Gen.V0, Gen.V1, Gen.V2, Gen.V3, Gen.V4, Gen.V5, Gen.V6, Gen.V7, Gen.V8, Gen.V9, Gen.V10, Gen.V11, Gen.V12, Gen.V13, hostOps0, hostOps0_1, hostOps0_2, hostOps0_3, hostOps0_4, hostOps0_5, hostOps0_6, hostOps0_7, hostOps0_8, hostOps0_9, hostOps0_10, hostOps0_11, hostOps0_12]
  after_results_simp
  rfl

set_option maxHeartbeats 4000000 in
set_option maxRecDepth 8192 in
/-- Layer 0's biases. -/
theorem V13_b : Gen.V13 (F := Ideal) m c main_v97 = b0 (m ((c.tc : Thread nD τ).loc main_arg2)) := by
  simp only [Gen.V0, Gen.V1, Gen.V2, Gen.V3, Gen.V4, Gen.V5, Gen.V6, Gen.V7, Gen.V8, Gen.V9, Gen.V10, Gen.V11, Gen.V12, Gen.V13, hostOps0, hostOps0_1, hostOps0_2, hostOps0_3, hostOps0_4, hostOps0_5, hostOps0_6, hostOps0_7, hostOps0_8, hostOps0_9, hostOps0_10, hostOps0_11, hostOps0_12]
  after_results_simp
  rfl

end Cert.KernelIdeal.Host

end
-- ==== Proof.Bridge0.lean ====
/-
  Layer 0, kernel against reference: the array the first kernel leaves is the reference's hidden features.

  Block by block the kernel writes, for node `i` and feature `j`, the mean over the three relations of
  `Σ_k (a_r[i,k] · n_r[i]) · W[0,r][k,j] + b[0,r][j]`, clamped at zero, where `a_r` and `n_r` are what the host
  stretch before it left in the kernel's windows: the relation's aggregate of the input features and the inverse
  square root of its in-degrees. The reference's hidden features are the same expression with the three
  contributions grouped differently; addition on the extended reals is associative.
-/
import proofs.«176711_j5789615915676_2_alg».proof.Proof.KI.Run
import proofs.«176711_j5789615915676_2_alg».proof.Proof.KI.Final0
import proofs.«176711_j5789615915676_2_alg».proof.Proof.KI.Host0a
import proofs.«176711_j5789615915676_2_alg».proof.Proof.KI.Host0b
import proofs.«176711_j5789615915676_2_alg».proof.Proof.KI.Reads
import proofs.«176711_j5789615915676_2_alg».proof.Proof.Ref.Shape
import proofs.«176711_j5789615915676_2_alg».proof.Proof.GlueEq
import proofs.«176711_j5789615915676_2_alg».proof.Proof.Spec

noncomputable section

namespace Cert.Bridge

open Cert.KernelIdeal Cert.KernelIdeal.Gen Cert.KernelIdeal.Glue Cert.KernelIdeal.Host Cert.KernelIdeal.Reads
open Idealize.ShloMosaic Idealize.ShloMosaic.ValueIdx Idealize.ShloMosaic.TcCoe Idealize.SL.Sem Cert.Spec

variable (m : (ℓ : Loc nD τ sig) → Buf (Elt Ideal) ℓ) (c : Dev nD)

/-- What the first kernel leaves in its result array is the reference's hidden-feature array. -/
theorem h1_eq :
    Cert.KernelIdeal.Hand.outsOf (F := Ideal) m 14 main_v98 c
      = Cert.ReferenceIdeal.Dense.h1 (m ((c.tc : Thread nD τ).loc main_arg0)) (m ((c.tc : Thread nD τ).loc main_arg1))
          (m ((c.tc : Thread nD τ).loc main_arg2)) (m ((c.tc : Thread nD τ).loc main_arg5)) := by
  rw [Cert.KernelIdeal.Hand.outs14]
  refine (Cert.KernelIdeal.Hand.final0 (fun c b => Gen.V13 (F := Ideal) m c b) c).trans ?_
  beta_reduce
  rw [show Gen.V13 (F := Ideal) m c (Pipeline.arrRef spec0 0) = _ from V13_agg0 m c,
    show Gen.V13 (F := Ideal) m c (Pipeline.arrRef spec0 1) = _ from V13_agg1 m c,
    show Gen.V13 (F := Ideal) m c (Pipeline.arrRef spec0 2) = _ from V13_agg2 m c,
    show Gen.V13 (F := Ideal) m c (Pipeline.arrRef spec0 3) = _ from V13_norm m c,
    show Gen.V13 (F := Ideal) m c (Pipeline.arrRef spec0 4) = _ from V13_w m c,
    show Gen.V13 (F := Ideal) m c (Pipeline.arrRef spec0 5) = _ from V13_b m c]
  funext idx
  obtain ⟨p, q, rfl⟩ : ∃ (p : Fin 50000) (q : Fin 256), idx = ix2 p q := ⟨idx 0, idx 1, eq_ix2 idx⟩
  rw [Cert.KernelIdeal.Hand.G0_ix2, Cert.ReferenceIdeal.Dense.h1_apply, rowSumK_eq]
  simp only [stack_apply0, stack_apply1, stack_apply2, wslab_apply 0 (by decide), bslab_apply 0 (by decide),
    agg_eq, nrm_eq, e000_eq, e001_eq, e010_eq, e011_eq, e020_eq, e021_eq]
  rfl

end Cert.Bridge

end
-- ==== Proof.Bridge1.lean ====
/-
  Layer 1 and the read-out, kernel against reference: the kernel program's result array is the reference's.

  The second kernel finds in its windows what the host stretch between the kernels left there — each relation's
  aggregate of the first kernel's result (which is the reference's hidden-feature array), the inverse square roots
  of the in-degrees, layer 1's weights and biases, and the read-out weights and bias padded with zero columns —
  and writes, for node `i` and class `j`, `Σ_k mean_r(…)[i,k] · Wout[k,j] + bout[j]`; the host then cuts the padding
  columns off. The reference computes the same sum with the three contributions grouped differently and the mean
  taken by a division by three.
-/
import proofs.«176711_j5789615915676_2_alg».proof.Proof.KI.Run
import proofs.«176711_j5789615915676_2_alg».proof.Proof.KI.Final1
import proofs.«176711_j5789615915676_2_alg».proof.Proof.KI.Host1a
import proofs.«176711_j5789615915676_2_alg».proof.Proof.KI.Host1b
import proofs.«176711_j5789615915676_2_alg».proof.Proof.KI.HostBase
import proofs.«176711_j5789615915676_2_alg».proof.Proof.KI.Reads
import proofs.«176711_j5789615915676_2_alg».proof.Proof.KI.Pad
import proofs.«176711_j5789615915676_2_alg».proof.Proof.Ref.Glue
import proofs.«176711_j5789615915676_2_alg».proof.Proof.GlueEq
import proofs.«176711_j5789615915676_2_alg».proof.Proof.Bridge0

noncomputable section

namespace Cert.Bridge

open Cert.KernelIdeal Cert.KernelIdeal.Gen Cert.KernelIdeal.Glue Cert.KernelIdeal.Host Cert.KernelIdeal.Reads Cert.KernelIdeal.Pad
open Idealize.ShloMosaic Idealize.ShloMosaic.ValueIdx Idealize.ShloMosaic.TcCoe Idealize.SL.Sem Cert.Spec

variable (m : (ℓ : Loc nD τ sig) → Buf (Elt Ideal) ℓ) (c : Dev nD)

set_option maxRecDepth 65536 in
/-- The kernel program's result array, as one function of the arguments: the reference's. -/
theorem out_eq :
    Gen.V29 (F := Ideal) m (Cert.KernelIdeal.Hand.outsOf m) c main_v193
      = Cert.ReferenceIdeal.Dense.res (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  have e := Cert.KernelIdeal.Hand.final1 (fun c b => Gen.V27 (F := Ideal) m (Cert.KernelIdeal.Hand.outsOf m) c b) c
  beta_reduce at e
  rw [show Gen.V27 (F := Ideal) m (Cert.KernelIdeal.Hand.outsOf m) c (Pipeline.arrRef spec1 0) = _ from V27_agg0 m _ c,
    show Gen.V27 (F := Ideal) m (Cert.KernelIdeal.Hand.outsOf m) c (Pipeline.arrRef spec1 1) = _ from V27_agg1 m _ c,
    show Gen.V27 (F := Ideal) m (Cert.KernelIdeal.Hand.outsOf m) c (Pipeline.arrRef spec1 2) = _ from V27_agg2 m _ c,
    show Gen.V27 (F := Ideal) m (Cert.KernelIdeal.Hand.outsOf m) c (Pipeline.arrRef spec1 3) = _ from V27_norm m _ c,
    show Gen.V27 (F := Ideal) m (Cert.KernelIdeal.Hand.outsOf m) c (Pipeline.arrRef spec1 4) = _ from V27_w m _ c,
    show Gen.V27 (F := Ideal) m (Cert.KernelIdeal.Hand.outsOf m) c (Pipeline.arrRef spec1 5) = _ from V27_b m _ c,
    show Gen.V27 (F := Ideal) m (Cert.KernelIdeal.Hand.outsOf m) c (Pipeline.arrRef spec1 6) = _ from V27_wo m _ c,
    show Gen.V27 (F := Ideal) m (Cert.KernelIdeal.Hand.outsOf m) c (Pipeline.arrRef spec1 7) = _ from V27_bo m _ c] at e
  rw [V14_h] at e
  rw [V14_e] at e
  rw [V14_w] at e
  rw [V14_b] at e
  rw [V14_wo] at e
  rw [V14_bo] at e
  rw [V1_wo] at e
  rw [V1_bo] at e
  rw [h1_eq] at e
  rw [V29_res, V28_out, Cert.KernelIdeal.Hand.outs28, e]
  funext idx
  obtain ⟨i, j, rfl⟩ : ∃ (i : Fin 50000) (j : Fin 349), idx = ix2 i j := ⟨idx 0, idx 1, eq_ix2 idx⟩
  rw [cut_apply, Cert.KernelIdeal.Hand.G1_ix2, Cert.ReferenceIdeal.Dense.res_apply]
  simp only [rowSumK_eq, stack_apply0, stack_apply1, stack_apply2, wslab_apply 1 (by decide), bslab_apply 1 (by decide),
    agg_eq, nrm_eq, e100_eq, e101_eq, e110_eq, e111_eq, e120_eq, e121_eq]
  rw [row1_apply, boutp_apply]
  apply congrArg (fun s => s + m ((c.tc : Thread nD τ).loc main_arg4) (ix1 j))
  apply Finset.sum_congr rfl
  intro k _
  rw [woutp_apply]
  rfl

/-- From memories that agree on the arguments, the reference's result term is the kernel program's result array. -/
theorem result_eq (m' : (ℓ : Loc Cert.ReferenceIdeal.nD Cert.ReferenceIdeal.τ Cert.ReferenceIdeal.sig) → Buf (Elt Ideal) ℓ)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    Cert.ReferenceIdeal.ValueP.res_main_v250 (F := Ideal) m' c
      = Gen.V29 (F := Ideal) m (Cert.KernelIdeal.Hand.outsOf m) c main_v193 := by
  obtain ⟨h0, h1, h2, h3, h4, h5⟩ := hagree
  rw [Cert.ReferenceIdeal.Dense.res_eq, h0, h1, h2, h3, h4, h5]
  exact (out_eq m c).symm

end Cert.Bridge

end
-- ==== Proof.lean ====
/-
  The certificate of a two-layer relational graph convolution with a linear read-out, kernel against reference.

  Both programs compute, per layer and per relation, the same graph quantities with the same host operations —
  node degrees under the relation's edge lists, the aggregate of the source features scaled by the inverse square
  root of the source's out-degree — and differ only in the dense part. The reference scales each aggregate by the
  inverse square root of the in-degree, multiplies by the relation's weights, adds its bias, sums the three
  relations onto zero, divides by three (and clamps at zero after the first layer), and finally multiplies by the
  read-out weights and adds the read-out bias. The kernel does the dense part block of 2000 nodes by block of 2000
  nodes inside two pipelined kernels: it accumulates product, bias, product, bias, product, bias onto zero,
  multiplies by the constant one third — named, so that at the ideal instance it IS one third —, clamps at zero in
  the first kernel, and in the second multiplies by read-out weights padded with zero columns and cuts the padding
  off afterwards. Over the extended reals addition is associative and commutative and dividing by the real three is
  multiplying by one third, so the two agree element by element; no finiteness of the inputs is used.

  The three frames come from the programs' runs: each kernel region runs every grid point's body without fault and
  writes only its result array, the host stretches write only their own results, so the argument arrays end as
  launched; the reference's frame is its run with the result dropped.
-/
import proofs.«176711_j5789615915676_2_alg».proof.Defs
import proofs.«176711_j5789615915676_2_alg».proof.Proof.Gen.Kernel
import proofs.«176711_j5789615915676_2_alg».proof.Proof.Gen.KernelIdeal
import proofs.«176711_j5789615915676_2_alg».proof.Proof.Gen.ReferenceIdeal
import proofs.«176711_j5789615915676_2_alg».proof.Proof.Gen.Pre_finite_inputs
import proofs.«176711_j5789615915676_2_alg».proof.Proof.K.Run
import proofs.«176711_j5789615915676_2_alg».proof.Proof.KI.Run
import proofs.«176711_j5789615915676_2_alg».proof.Proof.RefRun
import proofs.«176711_j5789615915676_2_alg».proof.Proof.Bridge1
import Idealize.ShloMosaic.PureOps.IdealRules

noncomputable section

namespace Cert.Proof

open Idealize.ShloMosaic Idealize.ShloMosaic.TcCoe Idealize.SL.Sem

/-- The word-level kernel program runs to the end and leaves its arguments as launched: its run with the result dropped. -/
theorem frame_k : Cert.frame_Kernel := fun m ρ _ =>
  (θ_run Cert.Kernel.defs _ _).mono (fun _ h c => (h c).2) (Cert.Kernel.Hand.run_main (F := Bits) m ρ)

/-- The idealized kernel program likewise. -/
theorem frame_ki : Cert.frame_KernelIdeal := fun m ρ _ =>
  (θ_run Cert.KernelIdeal.defs _ _).mono (fun _ h c => (h c).2) (Cert.KernelIdeal.Hand.run_main (F := Ideal) m ρ)

/-- The idealized reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass named the constant one third at its one site in each kernel: at the ideal instance the named
    constant is the real 1/3 the certificate's table gives it. -/
theorem preserves : Cert.preserves_Kernel_KernelIdeal :=
  ⟨IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl⟩

/-- From memories that agree on the arguments the two idealized programs end with the same result array: the
    kernel program's result is what its last host stretch leaves, and the reference's composed term is that array. -/
theorem algebraic : Cert.algebraic_KernelIdeal_ReferenceIdeal := by
  intro m ρ m' ρ' _ hagree
  refine ⟨fun c => Cert.KernelIdeal.Gen.V29 m (Cert.KernelIdeal.Hand.outsOf m) c Cert.KernelIdeal.main_v193,
    Cert.KernelIdeal.Hand.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.result_eq m c m' (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
